-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S_ : Shape := ⟨0, ![]⟩
abbrev S32x20 : Shape := ⟨2, ![32, 20]⟩
abbrev S2097152x20 : Shape := ⟨2, ![2097152, 20]⟩
abbrev S1x20 : Shape := ⟨2, ![1, 20]⟩
abbrev S20x5 : Shape := ⟨2, ![20, 5]⟩
abbrev S2097152x5 : Shape := ⟨2, ![2097152, 5]⟩
abbrev S1x5 : Shape := ⟨2, ![1, 5]⟩
abbrev S5x2 : Shape := ⟨2, ![5, 2]⟩
abbrev S2097152x2 : Shape := ⟨2, ![2097152, 2]⟩
abbrev S1x2 : Shape := ⟨2, ![1, 2]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S20x32 : S_.BroadcastsInDim S20x32 (![] : Fin 0 → Fin S20x32.rank)
  reducesTo_S20x32_S_d0_1 : S20x32.ReducesTo [0, 1] S_
  bcast_S_S20 : S_.BroadcastsInDim S20 (![] : Fin 0 → Fin S20.rank)
  reducesTo_S20_S_d0 : S20.ReducesTo [0] S_
  bcast_S_S5x20 : S_.BroadcastsInDim S5x20 (![] : Fin 0 → Fin S5x20.rank)
  reducesTo_S5x20_S_d0_1 : S5x20.ReducesTo [0, 1] S_
  bcast_S_S5 : S_.BroadcastsInDim S5 (![] : Fin 0 → Fin S5.rank)
  reducesTo_S5_S_d0 : S5.ReducesTo [0] S_
  bcast_S_S2x5 : S_.BroadcastsInDim S2x5 (![] : Fin 0 → Fin S2x5.rank)
  reducesTo_S2x5_S_d0_1 : S2x5.ReducesTo [0, 1] S_
  bcast_S_S2 : S_.BroadcastsInDim S2 (![] : Fin 0 → Fin S2.rank)
  reducesTo_S2_S_d0 : S2.ReducesTo [0] S_
  bcast_S_S625 : S_.BroadcastsInDim S625 (![] : Fin 0 → Fin S625.rank)
  reducesTo_S625_S_d0 : S625.ReducesTo [0] S_
  transposes_S20x32_S32x20_1_0 : S20x32.Transposes [1, 0] S32x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  transposes_S5x20_S20x5_1_0 : S5x20.Transposes [1, 0] S20x5
  bcast_S5_S1x5_1 : S5.BroadcastsInDim S1x5 (![1] : Fin 1 → Fin S1x5.rank)
  bcast_S1x5_S2097152x5_0_1 : S1x5.BroadcastsInDim S2097152x5 (![0, 1] : Fin 2 → Fin S2097152x5.rank)
  transposes_S2x5_S5x2_1_0 : S2x5.Transposes [1, 0] S5x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  reducesTo_S2097152x2_S2_d0 : S2097152x2.ReducesTo [0] S2
  reducesTo_S1x2_S_d0_1 : S1x2.ReducesTo [0, 1] S_
  dot_S2097152x32_S32x20_S2097152x20_1_0_0_1_n_n_wf : DotDims.WF S2097152x32 S32x20 S2097152x20 [1] [0] [0] [1] [] []
  dot_S2097152x20_S20x5_S2097152x5_1_0_0_1_n_n_wf : DotDims.WF S2097152x20 S20x5 S2097152x5 [1] [0] [0] [1] [] []
  dot_S2097152x5_S5x2_S2097152x2_1_0_0_1_n_n_wf : DotDims.WF S2097152x5 S5x2 S2097152x2 [1] [0] [0] [1] [] []

variable [Facts]

def dot_S2097152x32_S32x20_S2097152x20_1_0_0_1_n_n : DotDims S2097152x32 S32x20 S2097152x20 where
  lhsContracting := [1]
  rhsContracting := [0]
  lhsNonContracting := [0]
  rhsNonContracting := [1]
  lhsBatch := []
  rhsBatch := []
  wf := dot_S2097152x32_S32x20_S2097152x20_1_0_0_1_n_n_wf
def dot_S2097152x20_S20x5_S2097152x5_1_0_0_1_n_n : DotDims S2097152x20 S20x5 S2097152x5 where
  lhsContracting := [1]
  rhsContracting := [0]
  lhsNonContracting := [0]
  rhsNonContracting := [1]
  lhsBatch := []
  rhsBatch := []
  wf := dot_S2097152x20_S20x5_S2097152x5_1_0_0_1_n_n_wf
def dot_S2097152x5_S5x2_S2097152x2_1_0_0_1_n_n : DotDims S2097152x5 S5x2 S2097152x2 where
  lhsContracting := [1]
  rhsContracting := [0]
  lhsNonContracting := [0]
  rhsNonContracting := [1]
  lhsBatch := []
  rhsBatch := []
  wf := dot_S2097152x5_S5x2_S2097152x2_1_0_0_1_n_n_wf
def fn_part3 {F : FTy → Type} [FloatOps F] (main_v38 : IVec S_ 1) (main_v55 : FVec F S2097152x2 .f32) : IVec S_ 1 :=
  let main_v56 : FVec F S2097152x2 .f32 := Host.tanh main_v55
  let main_cst_14 : FVec F S_ .f32 := constant S_ .f32 0x7F800000#32
  let main_v57 : FVec F S2 .f32 := (fun x v => Host.reduce FloatOps.minimumf x v reducesTo_S2097152x2_S2_d0 h_S_) main_v56 main_cst_14
  let main_v58 : FVec F S1x2 .f32 := broadcastInDim S1x2 ![1] bcast_S2_S1x2_1 main_v57
  let main_cst_15 : FVec F S_ .f32 := constant S_ .f32 0xFF800000#32
  let main_v59 : FVec F S2 .f32 := (fun x v => Host.reduce FloatOps.maximumf x v reducesTo_S2097152x2_S2_d0 h_S_) main_v56 main_cst_15
  let main_v60 : FVec F S1x2 .f32 := broadcastInDim S1x2 ![1] bcast_S2_S1x2_1 main_v59
  let main_v61 : IVec S1x2 1 := cmpf .ogt main_v60 main_v58
  let main_c_16 : IVec S_ 1 := constantI S_ 1 1#1
  let main_v62 : IVec S_ 1 := (fun x v => Host.reduce IntOp.andi x v reducesTo_S1x2_S_d0_1 h_S_) main_v61 main_c_16
  let main_v63 : IVec S_ 1 := andi main_v38 main_v62
  main_v63

def fn_part2 {F : FTy → Type} [FloatOps F] (main_arg0 : FVec F S2097152x32 .f32) (main_arg1 : FVec F S20x32 .f32) (main_arg2 : FVec F S20 .f32) (main_arg3 : FVec F S5x20 .f32) (main_arg4 : FVec F S5 .f32) (main_arg5 : FVec F S2x5 .f32) (main_arg6 : FVec F S2 .f32) (main_arg7 : FVec F S625 .f32) (main_v33 : IVec S_ 1) : IVec S_ 1 :=
  let main_v34 : FVec F S625 .f32 := Host.absf main_arg7
  let main_cst_12 : FVec F S_ .f32 := constant S_ .f32 0x7F800000#32
  let main_v35 : FVec F S625 .f32 := broadcastInDim S625 ![] bcast_S_S625 main_cst_12
  let main_v36 : IVec S625 1 := cmpf .olt main_v34 main_v35
  let main_c_13 : IVec S_ 1 := constantI S_ 1 1#1
  let main_v37 : IVec S_ 1 := (fun x v => Host.reduce IntOp.andi x v reducesTo_S625_S_d0 h_S_) main_v36 main_c_13
  let main_v38 : IVec S_ 1 := andi main_v33 main_v37
  let main_v39 : FVec F S32x20 .f32 := (transpose S32x20 [1, 0] · transposes_S20x32_S32x20_1_0) main_arg1
  let main_v40 : FVec F S2097152x20 .f32 := (fun l r => Host.dotGeneral dot_S2097152x32_S32x20_S2097152x20_1_0_0_1_n_n none l r) main_arg0 main_v39
  let main_v41 : FVec F S1x20 .f32 := broadcastInDim S1x20 ![1] bcast_S20_S1x20_1 main_arg2
  let main_v42 : FVec F S2097152x20 .f32 := broadcastInDim S2097152x20 ![0, 1] bcast_S1x20_S2097152x20_0_1 main_v41
  let main_v43 : FVec F S2097152x20 .f32 := addf main_v40 main_v42
  let main_v44 : FVec F S2097152x20 .f32 := Host.tanh main_v43
  let main_v45 : FVec F S20x5 .f32 := (transpose S20x5 [1, 0] · transposes_S5x20_S20x5_1_0) main_arg3
  let main_v46 : FVec F S2097152x5 .f32 := (fun l r => Host.dotGeneral dot_S2097152x20_S20x5_S2097152x5_1_0_0_1_n_n none l r) main_v44 main_v45
  let main_v47 : FVec F S1x5 .f32 := broadcastInDim S1x5 ![1] bcast_S5_S1x5_1 main_arg4
  let main_v48 : FVec F S2097152x5 .f32 := broadcastInDim S2097152x5 ![0, 1] bcast_S1x5_S2097152x5_0_1 main_v47
  let main_v49 : FVec F S2097152x5 .f32 := addf main_v46 main_v48
  let main_v50 : FVec F S2097152x5 .f32 := Host.tanh main_v49
  let main_v51 : FVec F S5x2 .f32 := (transpose S5x2 [1, 0] · transposes_S2x5_S5x2_1_0) main_arg5
  let main_v52 : FVec F S2097152x2 .f32 := (fun l r => Host.dotGeneral dot_S2097152x5_S5x2_S2097152x2_1_0_0_1_n_n none l r) main_v50 main_v51
  let main_v53 : FVec F S1x2 .f32 := broadcastInDim S1x2 ![1] bcast_S2_S1x2_1 main_arg6
  let main_v54 : FVec F S2097152x2 .f32 := broadcastInDim S2097152x2 ![0, 1] bcast_S1x2_S2097152x2_0_1 main_v53
  let main_v55 : FVec F S2097152x2 .f32 := addf main_v52 main_v54
  fn_part3 (F := F) main_v38 main_v55

def fn_part1 {F : FTy → Type} [FloatOps F] (main_arg0 : FVec F S2097152x32 .f32) (main_arg1 : FVec F S20x32 .f32) (main_arg2 : FVec F S20 .f32) (main_arg3 : FVec F S5x20 .f32) (main_arg4 : FVec F S5 .f32) (main_arg5 : FVec F S2x5 .f32) (main_arg6 : FVec F S2 .f32) (main_arg7 : FVec F S625 .f32) (main_v13 : IVec S_ 1) (main_v16 : IVec S5x20 1) : IVec S_ 1 :=
  let main_c_5 : IVec S_ 1 := constantI S_ 1 1#1
  let main_v17 : IVec S_ 1 := (fun x v => Host.reduce IntOp.andi x v reducesTo_S5x20_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S2x5 .f32 := Host.absf main_arg5
  let main_cst_8 : FVec F S_ .f32 := constant S_ .f32 0x7F800000#32
  let main_v25 : FVec F S2x5 .f32 := broadcastInDim S2x5 ![] bcast_S_S2x5 main_cst_8
  let main_v26 : IVec S2x5 1 := cmpf .olt main_v24 main_v25
  let main_c_9 : IVec S_ 1 := constantI S_ 1 1#1
  let main_v27 : IVec S_ 1 := (fun x v => Host.reduce IntOp.andi x v reducesTo_S2x5_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg0 main_arg1 main_arg2 main_arg3 main_arg4 main_arg5 main_arg6 main_arg7 main_v33

def fn {F : FTy → Type} [FloatOps F] (main_arg0 : FVec F S2097152x32 .f32) (main_arg1 : FVec F S20x32 .f32) (main_arg2 : FVec F S20 .f32) (main_arg3 : FVec F S5x20 .f32) (main_arg4 : FVec F S5 .f32) (main_arg5 : FVec F S2x5 .f32) (main_arg6 : FVec F S2 .f32) (main_arg7 : FVec F S625 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S20x32 .f32 := Host.absf main_arg1
  let main_cst_0 : FVec F S_ .f32 := constant S_ .f32 0x7F800000#32
  let main_v5 : FVec F S20x32 .f32 := broadcastInDim S20x32 ![] bcast_S_S20x32 main_cst_0
  let main_v6 : IVec S20x32 1 := cmpf .olt main_v4 main_v5
  let main_c_1 : IVec S_ 1 := constantI S_ 1 1#1
  let main_v7 : IVec S_ 1 := (fun x v => Host.reduce IntOp.andi x v reducesTo_S20x32_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S5x20 .f32 := Host.absf main_arg3
  let main_cst_4 : FVec F S_ .f32 := constant S_ .f32 0x7F800000#32
  let main_v15 : FVec F S5x20 .f32 := broadcastInDim S5x20 ![] bcast_S_S5x20 main_cst_4
  let main_v16 : IVec S5x20 1 := cmpf .olt main_v14 main_v15
  fn_part1 (F := F) main_arg0 main_arg1 main_arg2 main_arg3 main_arg4 main_arg5 main_arg6 main_arg7 main_v13 main_v16
-- ==== Kernel.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S32x20 : Shape := ⟨2, ![32, 20]⟩
abbrev S20x5 : Shape := ⟨2, ![20, 5]⟩
abbrev S5x2 : Shape := ⟨2, ![5, 2]⟩
abbrev S1x20 : Shape := ⟨2, ![1, 20]⟩
abbrev S1x5 : Shape := ⟨2, ![1, 5]⟩
abbrev S1x2 : Shape := ⟨2, ![1, 2]⟩
abbrev S25x25 : Shape := ⟨2, ![25, 25]⟩
abbrev S2097152x2 : Shape := ⟨2, ![2097152, 2]⟩
abbrev S8192x32 : Shape := ⟨2, ![8192, 32]⟩
abbrev S8192x2 : Shape := ⟨2, ![8192, 2]⟩
abbrev S8192x20 : Shape := ⟨2, ![8192, 20]⟩
abbrev S8192x5 : Shape := ⟨2, ![8192, 5]⟩
abbrev S2097152x1 : Shape := ⟨2, ![2097152, 1]⟩
abbrev S8192x1 : Shape := ⟨2, ![8192, 1]⟩
abbrev S8192x25 : Shape := ⟨2, ![8192, 25]⟩
abbrev S8192 : Shape := ⟨1, ![8192]⟩

abbrev nBuf : Space → Nat
  | .hbm => 19
  | .vmem => 19
  | .smem => 0
  | _ => 0

abbrev bufTy : (tb : Table) → Fin (tcTables nBuf tb) → BufTy
  | .hbm, ⟨0, _⟩ => ⟨S2097152x32, .f32⟩
  | .hbm, ⟨1, _⟩ => ⟨S20x32, .f32⟩
  | .hbm, ⟨2, _⟩ => ⟨S20, .f32⟩
  | .hbm, ⟨3, _⟩ => ⟨S5x20, .f32⟩
  | .hbm, ⟨4, _⟩ => ⟨S5, .f32⟩
  | .hbm, ⟨5, _⟩ => ⟨S2x5, .f32⟩
  | .hbm, ⟨6, _⟩ => ⟨S2, .f32⟩
  | .hbm, ⟨7, _⟩ => ⟨S625, .f32⟩
  | .hbm, ⟨8, _⟩ => ⟨S32x20, .f32⟩
  | .hbm, ⟨9, _⟩ => ⟨S20x5, .f32⟩
  | .hbm, ⟨10, _⟩ => ⟨S5x2, .f32⟩
  | .hbm, ⟨11, _⟩ => ⟨S1x20, .f32⟩
  | .hbm, ⟨12, _⟩ => ⟨S1x5, .f32⟩
  | .hbm, ⟨13, _⟩ => ⟨S1x2, .f32⟩
  | .hbm, ⟨14, _⟩ => ⟨S25x25, .f32⟩
  | .hbm, ⟨15, _⟩ => ⟨S2097152x2, .f32⟩
  | .hbm, ⟨16, _⟩ => ⟨S1x2, .f32⟩
  | .hbm, ⟨17, _⟩ => ⟨S1x2, .f32⟩
  | .hbm, ⟨18, _⟩ => ⟨S2097152x1, .f32⟩
  | .local _ .vmem, ⟨0, _⟩ => ⟨S8192x32, .f32⟩
  | .local _ .vmem, ⟨1, _⟩ => ⟨S8192x32, .f32⟩
  | .local _ .vmem, ⟨2, _⟩ => ⟨S32x20, .f32⟩
  | .local _ .vmem, ⟨3, _⟩ => ⟨S1x20, .f32⟩
  | .local _ .vmem, ⟨4, _⟩ => ⟨S20x5, .f32⟩
  | .local _ .vmem, ⟨5, _⟩ => ⟨S1x5, .f32⟩
  | .local _ .vmem, ⟨6, _⟩ => ⟨S5x2, .f32⟩
  | .local _ .vmem, ⟨7, _⟩ => ⟨S1x2, .f32⟩
  | .local _ .vmem, ⟨8, _⟩ => ⟨S8192x2, .f32⟩
  | .local _ .vmem, ⟨9, _⟩ => ⟨S8192x2, .f32⟩
  | .local _ .vmem, ⟨10, _⟩ => ⟨S1x2, .f32⟩
  | .local _ .vmem, ⟨11, _⟩ => ⟨S1x2, .f32⟩
  | .local _ .vmem, ⟨12, _⟩ => ⟨S8192x2, .f32⟩
  | .local _ .vmem, ⟨13, _⟩ => ⟨S8192x2, .f32⟩
  | .local _ .vmem, ⟨14, _⟩ => ⟨S1x2, .f32⟩
  | .local _ .vmem, ⟨15, _⟩ => ⟨S1x2, .f32⟩
  | .local _ .vmem, ⟨16, _⟩ => ⟨S25x25, .f32⟩
  | .local _ .vmem, ⟨17, _⟩ => ⟨S8192x1, .f32⟩
  | .local _ .vmem, ⟨18, _⟩ => ⟨S8192x1, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_19 : BitVec 32 := 0#32
  let v32 : BitVec 1 := Scalar.cmpi .ne v31 c0_i32_19
  v32

def k0_cond2 (i : grid0.Coords) : BitVec 1 :=
  let arg0 : BitVec 32 := BitVec.ofNat 32 (i 0).val
  let c0_i32_20 : BitVec 32 := 0#32
  let v33 : BitVec 1 := Scalar.cmpi .sgt arg0 c0_i32_20
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S25x25 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S20x32_S32x20_1_0 : S20x32.Transposes [1, 0] S32x20
  transposes_S5x20_S20x5_1_0 : S5x20.Transposes [1, 0] S20x5
  transposes_S2x5_S5x2_1_0 : S2x5.Transposes [1, 0] S5x2
  shapeCasts_S20_S1x20 : S20.ShapeCasts S1x20
  shapeCasts_S5_S1x5 : S5.ShapeCasts S1x5
  shapeCasts_S2_S1x2 : S2.ShapeCasts S1x2
  shapeCasts_S625_S25x25 : S625.ShapeCasts S25x25
  inb_S8192x32_S8192x32_0_0 : ∀ a, (![0, 0] : Fin 2 → Nat) a + S8192x32.size a ≤ S8192x32.size a
  h_S8192x32 : 0 < S8192x32.numel
  inb_S32x20_S32x20_0_0 : ∀ a, (![0, 0] : Fin 2 → Nat) a + S32x20.size a ≤ S32x20.size a
  h_S32x20 : 0 < S32x20.numel
  shapeCasts_S32x20_S32x20 : S32x20.ShapeCasts S32x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S8192x20 : S1x20.Broadcasts S8192x20
  inb_S20x5_S20x5_0_0 : ∀ a, (![0, 0] : Fin 2 → Nat) a + S20x5.size a ≤ S20x5.size a
  h_S20x5 : 0 < S20x5.numel
  shapeCasts_S20x5_S20x5 : S20x5.ShapeCasts S20x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8192x5 : S1x5.Broadcasts S8192x5
  inb_S5x2_S5x2_0_0 : ∀ a, (![0, 0] : Fin 2 → Nat) a + S5x2.size a ≤ S5x2.size a
  h_S5x2 : 0 < S5x2.numel
  shapeCasts_S5x2_S5x2 : S5x2.ShapeCasts S5x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  inb_S8192x2_S8192x2_0_0 : ∀ a, (![0, 0] : Fin 2 → Nat) a + S8192x2.size a ≤ S8192x2.size a
  h_S8192x2 : 0 < S8192x2.numel
  reduces_S8192x2_S2 : S8192x2.Reduces [0] S2
  shapeCasts_S8192x2_S8192x2 : S8192x2.ShapeCasts S8192x2
  slices_S8192x2_o0_0_S8192x1 : S8192x2.Slices ![0, 0] S8192x1
  slices_S8192x2_o0_1_S8192x1 : S8192x2.Slices ![0, 1] S8192x1
  inb_S25x25_S25x25_0_0 : ∀ a, (![0, 0] : Fin 2 → Nat) a + S25x25.size a ≤ S25x25.size a
  h_S25x25 : 0 < S25x25.numel
  shapeCasts_S25x25_S25x25 : S25x25.ShapeCasts S25x25
  iota_S8192x25_d1_w32 : S8192x25.Iotas .tc 32 [1]
  broadcasts_S8192x1_S8192x25 : S8192x1.Broadcasts S8192x25
  natLt_1_32 : 1 < 32
  reduces_S8192x25_S8192 : S8192x25.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  dot_S8192x32_S32x20_S8192x20_1_0_0_1_n_n_wf : DotDims.WF S8192x32 S32x20 S8192x20 [1] [0] [0] [1] [] []
  dot_S8192x20_S20x5_S8192x5_1_0_0_1_n_n_wf : DotDims.WF S8192x20 S20x5 S8192x5 [1] [0] [0] [1] [] []
  dot_S8192x5_S5x2_S8192x2_1_0_0_1_n_n_wf : DotDims.WF S8192x5 S5x2 S8192x2 [1] [0] [0] [1] [] []
  dot_S8192x25_S25x25_S8192x25_1_0_0_1_n_n_wf : DotDims.WF S8192x25 S25x25 S8192x25 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .f32 = 32 ∨ (Rect.block (s := S2097152x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x20.size a ≤ S32x20.size a
  hwx0_1 : ∀ i : grid0.Coords, EltTy.bits .f32 = 32 ∨ (Rect.block (s := S32x20) S32x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x5.size a ≤ S20x5.size a
  hwx0_3 : ∀ i : grid0.Coords, EltTy.bits .f32 = 32 ∨ (Rect.block (s := S20x5) S20x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x2.size a ≤ S5x2.size a
  hwx0_5 : ∀ i : grid0.Coords, EltTy.bits .f32 = 32 ∨ (Rect.block (s := S5x2) S5x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x2.size a ≤ S2097152x2.size a
  hwx0_7 : ∀ i : grid0.Coords, EltTy.bits .f32 = 32 ∨ (Rect.block (s := S2097152x2) S8192x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S2097152x2.size a
  hwx1_0 : ∀ i : grid1.Coords, EltTy.bits .f32 = 32 ∨ (Rect.block (s := S2097152x2) S8192x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2.size a ≤ S1x2.size a
  hwx1_1 : ∀ i : grid1.Coords, EltTy.bits .f32 = 32 ∨ (Rect.block (s := S1x2) S1x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S25x25.size a ≤ S25x25.size a
  hwx1_3 : ∀ i : grid1.Coords, EltTy.bits .f32 = 32 ∨ (Rect.block (s := S25x25) S25x25.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x1.size a ≤ S2097152x1.size a
  hwx1_4 : ∀ i : grid1.Coords, EltTy.bits .f32 = 32 ∨ (Rect.block (s := S2097152x1) S8192x1.size (cc1_transform_4 i) (hinb1_4 i)).WholeWords (EltTy.packing .f32)

variable [Facts₀]

def dot_S8192x32_S32x20_S8192x20_1_0_0_1_n_n : DotDims S8192x32 S32x20 S8192x20 where
  lhsContracting := [1]
  rhsContracting := [0]
  lhsNonContracting := [0]
  rhsNonContracting := [1]
  lhsBatch := []
  rhsBatch := []
  wf := dot_S8192x32_S32x20_S8192x20_1_0_0_1_n_n_wf
def dot_S8192x20_S20x5_S8192x5_1_0_0_1_n_n : DotDims S8192x20 S20x5 S8192x5 where
  lhsContracting := [1]
  rhsContracting := [0]
  lhsNonContracting := [0]
  rhsNonContracting := [1]
  lhsBatch := []
  rhsBatch := []
  wf := dot_S8192x20_S20x5_S8192x5_1_0_0_1_n_n_wf
def dot_S8192x5_S5x2_S8192x2_1_0_0_1_n_n : DotDims S8192x5 S5x2 S8192x2 where
  lhsContracting := [1]
  rhsContracting := [0]
  lhsNonContracting := [0]
  rhsNonContracting := [1]
  lhsBatch := []
  rhsBatch := []
  wf := dot_S8192x5_S5x2_S8192x2_1_0_0_1_n_n_wf
def dot_S8192x25_S25x25_S8192x25_1_0_0_1_n_n : DotDims S8192x25 S25x25 S8192x25 where
  lhsContracting := [1]
  rhsContracting := [0]
  lhsNonContracting := [0]
  rhsNonContracting := [1]
  lhsBatch := []
  rhsBatch := []
  wf := dot_S8192x25_S25x25_S8192x25_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S20x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S8192x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x2.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S1x2.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | 9 => fun i => !(k0_cond1 i == 1#1) && !(k0_cond2 i == 1#1) | ⟨_ + 10, h⟩ => absurd h (Nat.not_lt.2 (Nat.le_add_left _ _))

abbrev win1_0 : Pipeline.Window sig grid1 :=
  Pipeline.Window.ofSpec (Memref.whole main_v7_0) S8192x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S25x25.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S8192x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2097152x32 : Shape := ⟨2, ![2097152, 32]⟩
abbrev S20x32 : Shape := ⟨2, ![20, 32]⟩
abbrev S20 : Shape := ⟨1, ![20]⟩
abbrev S5x20 : Shape := ⟨2, ![5, 20]⟩
abbrev S5 : Shape := ⟨1, ![5]⟩
abbrev S2x5 : Shape := ⟨2, ![2, 5]⟩
abbrev S2 : Shape := ⟨1, ![2]⟩
abbrev S625 : Shape := ⟨1, ![625]⟩
abbrev S32x20 : Shape := ⟨2, ![32, 20]⟩
abbrev S2097152x20 : Shape := ⟨2, ![2097152, 20]⟩
abbrev S1x20 : Shape := ⟨2, ![1, 20]⟩
abbrev S20x5 : Shape := ⟨2, ![20, 5]⟩
abbrev S2097152x5 : Shape := ⟨2, ![2097152, 5]⟩
abbrev S1x5 : Shape := ⟨2, ![1, 5]⟩
abbrev S5x2 : Shape := ⟨2, ![5, 2]⟩
abbrev S2097152x2 : Shape := ⟨2, ![2097152, 2]⟩
abbrev S1x2 : Shape := ⟨2, ![1, 2]⟩
abbrev S_ : Shape := ⟨0, ![]⟩
abbrev S2097152x1 : Shape := ⟨2, ![2097152, 1]⟩
abbrev S2097152 : Shape := ⟨1, ![2097152]⟩
abbrev S1 : Shape := ⟨1, ![1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S20x32, .f32⟩
  | .hbm, ⟨2, _⟩ => ⟨S20, .f32⟩
  | .hbm, ⟨3, _⟩ => ⟨S5x20, .f32⟩
  | .hbm, ⟨4, _⟩ => ⟨S5, .f32⟩
  | .hbm, ⟨5, _⟩ => ⟨S2x5, .f32⟩
  | .hbm, ⟨6, _⟩ => ⟨S2, .f32⟩
  | .hbm, ⟨7, _⟩ => ⟨S625, .f32⟩
  | .hbm, ⟨8, _⟩ => ⟨S32x20, .f32⟩
  | .hbm, ⟨9, _⟩ => ⟨S2097152x20, .f32⟩
  | .hbm, ⟨10, _⟩ => ⟨S1x20, .f32⟩
  | .hbm, ⟨11, _⟩ => ⟨S2097152x20, .f32⟩
  | .hbm, ⟨12, _⟩ => ⟨S2097152x20, .f32⟩
  | .hbm, ⟨13, _⟩ => ⟨S2097152x20, .f32⟩
  | .hbm, ⟨14, _⟩ => ⟨S20x5, .f32⟩
  | .hbm, ⟨15, _⟩ => ⟨S2097152x5, .f32⟩
  | .hbm, ⟨16, _⟩ => ⟨S1x5, .f32⟩
  | .hbm, ⟨17, _⟩ => ⟨S2097152x5, .f32⟩
  | .hbm, ⟨18, _⟩ => ⟨S2097152x5, .f32⟩
  | .hbm, ⟨19, _⟩ => ⟨S2097152x5, .f32⟩
  | .hbm, ⟨20, _⟩ => ⟨S5x2, .f32⟩
  | .hbm, ⟨21, _⟩ => ⟨S2097152x2, .f32⟩
  | .hbm, ⟨22, _⟩ => ⟨S1x2, .f32⟩
  | .hbm, ⟨23, _⟩ => ⟨S2097152x2, .f32⟩
  | .hbm, ⟨24, _⟩ => ⟨S2097152x2, .f32⟩
  | .hbm, ⟨25, _⟩ => ⟨S2097152x2, .f32⟩
  | .hbm, ⟨26, _⟩ => ⟨S_, .f32⟩
  | .hbm, ⟨27, _⟩ => ⟨S2, .f32⟩
  | .hbm, ⟨28, _⟩ => ⟨S1x2, .f32⟩
  | .hbm, ⟨29, _⟩ => ⟨S_, .f32⟩
  | .hbm, ⟨30, _⟩ => ⟨S2, .f32⟩
  | .hbm, ⟨31, _⟩ => ⟨S1x2, .f32⟩
  | .hbm, ⟨32, _⟩ => ⟨S2097152x2, .f32⟩
  | .hbm, ⟨33, _⟩ => ⟨S2097152x2, .f32⟩
  | .hbm, ⟨34, _⟩ => ⟨S1x2, .f32⟩
  | .hbm, ⟨35, _⟩ => ⟨S2097152x2, .f32⟩
  | .hbm, ⟨36, _⟩ => ⟨S2097152x2, .f32⟩
  | .hbm, ⟨37, _⟩ => ⟨S_, .f32⟩
  | .hbm, ⟨38, _⟩ => ⟨S2097152x2, .f32⟩
  | .hbm, ⟨39, _⟩ => ⟨S2097152x2, .f32⟩
  | .hbm, ⟨40, _⟩ => ⟨S_, .f32⟩
  | .hbm, ⟨41, _⟩ => ⟨S2097152x2, .f32⟩
  | .hbm, ⟨42, _⟩ => ⟨S2097152x2, .f32⟩
  | .hbm, ⟨43, _⟩ => ⟨S_, .f32⟩
  | .hbm, ⟨44, _⟩ => ⟨S2097152x2, .f32⟩
  | .hbm, ⟨45, _⟩ => ⟨S2097152x2, .f32⟩
  | .hbm, ⟨46, _⟩ => ⟨S2097152x2, .f32⟩
  | .hbm, ⟨47, _⟩ => ⟨S2097152x2, .i32⟩
  | .hbm, ⟨48, _⟩ => ⟨S2097152x1, .i32⟩
  | .hbm, ⟨49, _⟩ => ⟨S2097152, .i32⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S2097152x1, .i32⟩
  | .hbm, ⟨54, _⟩ => ⟨S2097152, .i32⟩
  | .hbm, ⟨55, _⟩ => ⟨S2097152, .i32⟩
  | .hbm, ⟨56, _⟩ => ⟨S_, .i32⟩
  | .hbm, ⟨57, _⟩ => ⟨S2097152, .i32⟩
  | .hbm, ⟨58, _⟩ => ⟨S2097152, .i1⟩
  | .hbm, ⟨59, _⟩ => ⟨S_, .i32⟩
  | .hbm, ⟨60, _⟩ => ⟨S2097152, .i32⟩
  | .hbm, ⟨61, _⟩ => ⟨S2097152, .i32⟩
  | .hbm, ⟨62, _⟩ => ⟨S2097152, .i32⟩
  | .hbm, ⟨63, _⟩ => ⟨S2097152x1, .i32⟩
  | .hbm, ⟨64, _⟩ => ⟨S1, .i32⟩
  | .hbm, ⟨65, _⟩ => ⟨S_, .i32⟩
  | .hbm, ⟨66, _⟩ => ⟨S2097152x1, .i32⟩
  | .hbm, ⟨67, _⟩ => ⟨S2097152x1, .i1⟩
  | .hbm, ⟨68, _⟩ => ⟨S1x1, .i32⟩
  | .hbm, ⟨69, _⟩ => ⟨S2097152x1, .i32⟩
  | .hbm, ⟨70, _⟩ => ⟨S2097152x1, .i1⟩
  | .hbm, ⟨71, _⟩ => ⟨S2097152x1, .i1⟩
  | .hbm, ⟨72, _⟩ => ⟨S_, .i1⟩
  | .hbm, ⟨73, _⟩ => ⟨S2097152, .i1⟩
  | .hbm, ⟨74, _⟩ => ⟨S2097152, .f32⟩
  | .hbm, ⟨75, _⟩ => ⟨S_, .f32⟩
  | .hbm, ⟨76, _⟩ => ⟨S2097152, .f32⟩
  | .hbm, ⟨77, _⟩ => ⟨S2097152, .f32⟩
  | .hbm, ⟨78, _⟩ => ⟨S2097152x1, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v42 : Ref sig .tc := ⟨.hbm, 77, rfl⟩
abbrev main_v43 : Ref sig .tc := ⟨.hbm, 78, rfl⟩

abbrev nD : Nat := 1
abbrev τ : Topo := Topo.v7x

variable {F : FTy → Type} [FloatOps F]

class Facts₀ : Prop where
  transposes_S20x32_S32x20_1_0 : S20x32.Transposes [1, 0] S32x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  transposes_S5x20_S20x5_1_0 : S5x20.Transposes [1, 0] S20x5
  bcast_S5_S1x5_1 : S5.BroadcastsInDim S1x5 (![1] : Fin 1 → Fin S1x5.rank)
  bcast_S1x5_S2097152x5_0_1 : S1x5.BroadcastsInDim S2097152x5 (![0, 1] : Fin 2 → Fin S2097152x5.rank)
  transposes_S2x5_S5x2_1_0 : S2x5.Transposes [1, 0] S5x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  reducesTo_S2097152x2_S2_d0 : S2097152x2.ReducesTo [0] S2
  h_S_ : 0 < S_.numel
  bcast_S_S2097152x2 : S_.BroadcastsInDim S2097152x2 (![] : Fin 0 → Fin S2097152x2.rank)
  slices_S2097152x2_S2097152x1_0_0 : S2097152x2.Slices ![0, 0] S2097152x1
  shapeCasts_S2097152x1_S2097152 : S2097152x1.ShapeCasts S2097152
  bcast_S_S2097152 : S_.BroadcastsInDim S2097152 (![] : Fin 0 → Fin S2097152.rank)
  slices_S2097152x2_S2097152x1_0_1 : S2097152x2.Slices ![0, 1] S2097152x1
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  dot_S2097152x32_S32x20_S2097152x20_1_0_0_1_n_n_wf : DotDims.WF S2097152x32 S32x20 S2097152x20 [1] [0] [0] [1] [] []
  dot_S2097152x20_S20x5_S2097152x5_1_0_0_1_n_n_wf : DotDims.WF S2097152x20 S20x5 S2097152x5 [1] [0] [0] [1] [] []
  dot_S2097152x5_S5x2_S2097152x2_1_0_0_1_n_n_wf : DotDims.WF S2097152x5 S5x2 S2097152x2 [1] [0] [0] [1] [] []
  gather_S625_S2097152x1_S2097152_n_0_n_n_0_1_1_wf : GatherDims.WF S625 S2097152x1 S2097152 [] [0] [] [0] [] 1 ![1]

variable [Facts₀]

def dot_S2097152x32_S32x20_S2097152x20_1_0_0_1_n_n : DotDims S2097152x32 S32x20 S2097152x20 where
  lhsContracting := [1]
  rhsContracting := [0]
  lhsNonContracting := [0]
  rhsNonContracting := [1]
  lhsBatch := []
  rhsBatch := []
  wf := dot_S2097152x32_S32x20_S2097152x20_1_0_0_1_n_n_wf
def dot_S2097152x20_S20x5_S2097152x5_1_0_0_1_n_n : DotDims S2097152x20 S20x5 S2097152x5 where
  lhsContracting := [1]
  rhsContracting := [0]
  lhsNonContracting := [0]
  rhsNonContracting := [1]
  lhsBatch := []
  rhsBatch := []
  wf := dot_S2097152x20_S20x5_S2097152x5_1_0_0_1_n_n_wf
def dot_S2097152x5_S5x2_S2097152x2_1_0_0_1_n_n : DotDims S2097152x5 S5x2 S2097152x2 where
  lhsContracting := [1]
  rhsContracting := [0]
  lhsNonContracting := [0]
  rhsNonContracting := [1]
  lhsBatch := []
  rhsBatch := []
  wf := dot_S2097152x5_S5x2_S2097152x2_1_0_0_1_n_n_wf
def gather_S625_S2097152x1_S2097152_n_0_n_n_0_1_1 : GatherDims S625 S2097152x1 S2097152 where
  offsetDims := []
  collapsedSliceDims := [0]
  operandBatchingDims := []
  startIndicesBatchingDims := []
  startIndexMap := [0]
  indexVectorDim := 1
  sliceSizes := ![1]
  wf := gather_S625_S2097152x1_S2097152_n_0_n_n_0_1_1_wf

class Facts : Prop extends Facts₀ where

variable [Facts]
-- ==== Proof.K.Region0Runs.lean ====
import proofs.«100639_j53171695125388_2_alg».proof.Proof.Gen.Kernel.Launch
import proofs.«100639_j53171695125388_2_alg».proof.Proof.Gen.Kernel.Skeleton
import proofs.«100639_j53171695125388_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The encoder kernel's body on any staging buffers, in its two cases

The body reads its seven inputs whole, computes the encoding `e` of the block's rows and stores it whole; then,
at grid position 0, it stores the block's per-column minimum and maximum of `e` into the two carried buffers, and
at a later position it reads each carried buffer and stores back the block's minimum (maximum) combined with what
it read. Every load and store is of the whole buffer, so a buffer stored once holds exactly the stored value. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

/-- The offsets of every load and store of the body are zero. -/
theorem hz0 : (![0, 0] : Fin 2 → Nat) = fun _ => 0 := funext fun a => by fin_cases a <;> rfl

section Whole
variable {sig' : RefSig} {κ : Kind} {sp : Space} {S : Shape} {e : EltTy} {Val : EltTy → Type}

/-- A load of the whole buffer reads its contents. -/
theorem readAt_unit_zero (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After one store of the whole buffer it holds the stored value, whatever it held before. -/
theorem read_writes_unit_zero [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The two branch conditions over the grid -/

/-- The first branch is taken at grid position 0 only, -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second at every later position. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- So one of the two is taken at every point: the carried buffers are written at every point. -/
theorem idle0_8 : ∀ t : Fin cfg0.N, cfg0.idle 8 (cfg0.grid.coords t) = false :=
  (by decide +kernel : ∀ t : Fin grid0.N, idle0 8 (grid0.coords t) = false)
theorem idle0_9 : ∀ t : Fin cfg0.N, cfg0.idle 9 (cfg0.grid.coords t) = false :=
  (by decide +kernel : ∀ t : Fin grid0.N, idle0 9 (grid0.coords t) = false)

/-! ## The body's triple, case by case -/

set_option maxHeartbeats 1000000 in
/-- AT GRID POSITION 0. On whole staging buffers, the inputs' at contents `x0 … x6` and the three outputs' at
    anything, the body runs to the continuation holding the inputs' as they were, the encoding's buffer at the
    encoding of the inputs, and the two carried buffers at its per-column minimum and maximum. -/
theorem sound_kernel0_A (c : Dev nD) (E : Set ℕ) (i : grid0.Coords) (arg1 : Memref sig .tc .vmem S8192x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S8192x2 .f32) (harg8 : arg8.IsWhole) (arg9 : Memref sig .tc .vmem S1x2 .f32) (harg9 : arg9.IsWhole) (arg10 : Memref sig .tc .vmem S1x2 .f32) (harg10 : arg10.IsWhole)
    (h1 : k0_cond1 i = 1#1) (h2 : ¬ k0_cond2 i = 1#1)
    (x0 : Vec F S8192x32 .f32) (x1 : Vec F S32x20 .f32) (x2 : Vec F S1x20 .f32) (x3 : Vec F S20x5 .f32) (x4 : Vec F S1x5 .f32) (x5 : Vec F S5x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay3 x0 x1 x2 x3 x4 x5 x6)
            ∗ owns (c : Thread nD τ) arg9 fullShare (k0_pay4 x0 x1 x2 x3 x4 x5 x6)
            ∗ owns (c : Thread nD τ) arg10 fullShare (k0_pay5 x0 x1 x2 x3 x4 x5 x6)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  isplitl [H8]
  · iexists _; isplitr
    swap; · iexact H8
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  iexists _; isplitr
  swap; · iexact H9
  ipureintro
  simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
  exact read_writes_unit_zero _ _ hz0 _ _

set_option maxHeartbeats 1000000 in
/-- AT A LATER GRID POSITION. The two carried buffers now hold `xo8`, `xo9` (what the point before left); the body
    leaves in them the block's minimum combined with `xo8` and the block's maximum combined with `xo9`. -/
theorem sound_kernel0_B (c : Dev nD) (E : Set ℕ) (i : grid0.Coords) (arg1 : Memref sig .tc .vmem S8192x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S8192x2 .f32) (harg8 : arg8.IsWhole) (arg9 : Memref sig .tc .vmem S1x2 .f32) (harg9 : arg9.IsWhole) (arg10 : Memref sig .tc .vmem S1x2 .f32) (harg10 : arg10.IsWhole)
    (h1 : ¬ k0_cond1 i = 1#1) (h2 : k0_cond2 i = 1#1)
    (x0 : Vec F S8192x32 .f32) (x1 : Vec F S32x20 .f32) (x2 : Vec F S1x20 .f32) (x3 : Vec F S20x5 .f32) (x4 : Vec F S1x5 .f32) (x5 : Vec F S5x2 .f32) (x6 : Vec F S1x2 .f32) (xo8 : Vec F S1x2 .f32) (xo9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay3 x0 x1 x2 x3 x4 x5 x6)
            ∗ owns (c : Thread nD τ) arg9 fullShare (k0_pay1 (k0_pay4 x0 x1 x2 x3 x4 x5 x6) xo8)
            ∗ owns (c : Thread nD τ) arg10 fullShare (k0_pay2 (k0_pay5 x0 x1 x2 x3 x4 x5 x6) xo9)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  isplitl [H8]
  · iexists _; isplitr
    swap; · iexact H8
    ipureintro
    sl_unfold_run_names
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  iexists _; isplitr
  swap; · iexact H9
  ipureintro
  sl_unfold_run_names
  simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
  exact read_writes_unit_zero _ _ hz0 _ _

end Cert.Kernel.Hand

end
-- ==== Proof.K.Region0.lean ====
import proofs.«100639_j53171695125388_2_alg».proof.Proof.K.Region0Runs
import proofs.«100639_j53171695125388_2_alg».proof.Proof.Gen.Kernel.Launch
import proofs.«100639_j53171695125388_2_alg».proof.Proof.Gen.Kernel.Skeleton
import proofs.«100639_j53171695125388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The encoder call of the idealized kernel: what each grid point leaves in its windows

The first call runs over 256 grid points. At point `t` it reads a block of 8192 rows of the input and the
three layers' weights and biases, computes the encoding `e = tanh(tanh(tanh(x·W1+b1)·W2+b2)·W3+b3)` of those rows,
and stores it. It also carries, per column, the minimum and the maximum of `e` over all rows seen so far:
at point 0 they are the block's own minimum and maximum; at a later point they are the block's minimum
(maximum) combined with what the point before left. This module names those contents, as functions of the
arrays the call finds on entry, and proves that the kernel body leaves exactly them. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the call is entered
variable (V : (c : Dev nD) → (b : Ref sig .tc) → Buf (Elt F) ((c : Thread nD τ).loc b))

/-! ## The windows' blocks and what the body computes from them -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The encoding of the 8192 rows of point `t`: three dense layers, each followed by `tanh`. -/
def enc0 (c : Dev nD) (t : Fin cfg0.N) : Vec F S8192x2 .f32 :=
  k0_pay3 (iblk0 V c 0 t) (iblk0 V c 1 t) (iblk0 V c 2 t) (iblk0 V c 3 t) (iblk0 V c 4 t) (iblk0 V c 5 t) (iblk0 V c 6 t)

/-- The per-column minimum of the encoding over the rows of point `t`. -/
def bmn0 (c : Dev nD) (t : Fin cfg0.N) : Vec F S1x2 .f32 :=
  k0_pay4 (iblk0 V c 0 t) (iblk0 V c 1 t) (iblk0 V c 2 t) (iblk0 V c 3 t) (iblk0 V c 4 t) (iblk0 V c 5 t) (iblk0 V c 6 t)

/-- The per-column maximum of the encoding over the rows of point `t`. -/
def bmx0 (c : Dev nD) (t : Fin cfg0.N) : Vec F S1x2 .f32 :=
  k0_pay5 (iblk0 V c 0 t) (iblk0 V c 1 t) (iblk0 V c 2 t) (iblk0 V c 3 t) (iblk0 V c 4 t) (iblk0 V c 5 t) (iblk0 V c 6 t)

/-- The running per-column minimum after point `n`: the block's minimum at point 0, and afterwards the block's
    minimum combined with the running minimum of the point before. -/
def mnAt (c : Dev nD) : (n : ℕ) → n < cfg0.N → Vec F S1x2 .f32
  | 0, h => bmn0 V c ⟨0, h⟩
  | n + 1, h => k0_pay1 (bmn0 V c ⟨n + 1, h⟩) (mnAt c n (Nat.lt_of_succ_lt h))

/-- The running per-column maximum after point `n`, likewise. -/
def mxAt (c : Dev nD) : (n : ℕ) → n < cfg0.N → Vec F S1x2 .f32
  | 0, h => bmx0 V c ⟨0, h⟩
  | n + 1, h => k0_pay2 (bmx0 V c ⟨n + 1, h⟩) (mxAt c n (Nat.lt_of_succ_lt h))

/-! ## The proof data -/

/-- The arrays as the call finds them; after the body at point `t` each input's buffer holds its block, the
    encoding's buffer the encoding of the point's rows, and the two carried buffers the running minimum and
    maximum; the invariant is the untouched rest; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => enc0 V c t
    | ⟨8, _⟩ => mnAt V c t.val t.isLt
    | ⟨9, _⟩ => mxAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = enc0 V c t := by dsimp only [dat0]
theorem after0_8 (c : Dev nD) (t : Fin cfg0.N) : (dat0 V c).after 8 t = mnAt V c t.val t.isLt := by dsimp only [dat0]
theorem after0_9 (c : Dev nD) (t : Fin cfg0.N) : (dat0 V c).after 9 t = mxAt V c t.val t.isLt := by dsimp only [dat0]

/-! ## What the body finds in each staging buffer -/

/-- Input window 0's current staging buffer holds its block at every point, fetched there or not: unfetched, its
    block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not: unfetched, its
    block index has not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not: unfetched, its
    block index has not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not: unfetched, its
    block index has not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input window 4's current staging buffer holds its block at every point, fetched there or not: unfetched, its
    block index has not moved, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input window 5's current staging buffer holds its block at every point, fetched there or not: unfetched, its
    block index has not moved, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input window 6's current staging buffer holds its block at every point, fetched there or not: unfetched, its
    block index has not moved, and the body leaves the block in place. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- At a later point the carried buffer of window 8 holds what the body left at the point before: it is not
    fetched, it was not written back in between (only the last point writes it back), and the body wrote it
    at the point before. -/
theorem before0_8_B (c : Dev nD) (t : Fin cfg0.N) (h0 : t.val ≠ 0) (d) :
    (dat0 V c).before 8 t d = mnAt V c (t.val - 1) (Nat.lt_of_le_of_lt (Nat.sub_le _ _) t.isLt) := by
  have hN : t.val < 256 := lt_of_lt_of_eq t.isLt (show cfg0.N = 256 from N_0)
  rw [(dat0 V c).before_of_pos 8 t h0 ((cfg0.win 8).fetch_out rfl t),
    if_neg (fun h => by have := (flush0_8 _).mp h; dsimp only at this; omega)]
  unfold Dat.left
  split
  · rename_i hidle
    exact absurd ((idle0_8 _).symm.trans hidle) Bool.false_ne_true
  · unfold Dat.kept
    rw [Pipeline.fill_of_clip_none 8 _ (fun _ => rfl) d ((dat0 V c).after 8 _), Window.fill_cut, after0_8]

/-- At a later point the carried buffer of window 9 holds what the body left at the point before: it is not
    fetched, it was not written back in between (only the last point writes it back), and the body wrote it
    at the point before. -/
theorem before0_9_B (c : Dev nD) (t : Fin cfg0.N) (h0 : t.val ≠ 0) (d) :
    (dat0 V c).before 9 t d = mxAt V c (t.val - 1) (Nat.lt_of_le_of_lt (Nat.sub_le _ _) t.isLt) := by
  have hN : t.val < 256 := lt_of_lt_of_eq t.isLt (show cfg0.N = 256 from N_0)
  rw [(dat0 V c).before_of_pos 9 t h0 ((cfg0.win 9).fetch_out rfl t),
    if_neg (fun h => by have := (flush0_9 _).mp h; dsimp only at this; omega)]
  unfold Dat.left
  split
  · rename_i hidle
    exact absurd ((idle0_9 _).symm.trans hidle) Bool.false_ne_true
  · unfold Dat.kept
    rw [Pipeline.fill_of_clip_none 9 _ (fun _ => rfl) d ((dat0 V c).after 9 _), Window.fill_cut, after0_9]

/-! ## The running minimum and maximum, point by point -/

/-- `mnAt` at point 0: the block's own. -/
theorem mnAt_A (c : Dev nD) (t : Fin cfg0.N) (h0 : t.val = 0) : mnAt V c t.val t.isLt = bmn0 V c t := by
  obtain ⟨n, hn⟩ := t
  cases n with
  | zero => rfl
  | succ n => exact absurd h0 (Nat.succ_ne_zero n)

/-- `mnAt` at a later point: the block's, combined with the point before's. -/
theorem mnAt_B (c : Dev nD) (t : Fin cfg0.N) (h0 : t.val ≠ 0) :
    mnAt V c t.val t.isLt = k0_pay1 (bmn0 V c t) (mnAt V c (t.val - 1) (Nat.lt_of_le_of_lt (Nat.sub_le _ _) t.isLt)) := by
  obtain ⟨n, hn⟩ := t
  cases n with
  | zero => exact absurd rfl h0
  | succ n => rfl

/-- `mxAt` at point 0: the block's own. -/
theorem mxAt_A (c : Dev nD) (t : Fin cfg0.N) (h0 : t.val = 0) : mxAt V c t.val t.isLt = bmx0 V c t := by
  obtain ⟨n, hn⟩ := t
  cases n with
  | zero => rfl
  | succ n => exact absurd h0 (Nat.succ_ne_zero n)

/-- `mxAt` at a later point: the block's, combined with the point before's. -/
theorem mxAt_B (c : Dev nD) (t : Fin cfg0.N) (h0 : t.val ≠ 0) :
    mxAt V c t.val t.isLt = k0_pay2 (bmx0 V c t) (mxAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point. The inputs' buffers hold their blocks. At point 0 the outputs' buffers hold anything and
    the body leaves the encoding and the block's minimum and maximum. At a later point the two carried buffers
    hold the running minimum and maximum of the point before, and the body leaves them combined with the
    block's. The invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val = 0
  · rw [mnAt_A V c t h0, mxAt_A V c t h0]
    unfold enc0 bmn0 bmx0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t) _ _ _ _ _ _ _ _ _ _ _ _ _ _ _ _ _ _ _ _
      ((hcond0_1 t).mpr h0) (fun h => (hcond0_2 t).mp h h0) (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [mnAt_B V c t h0, mxAt_B V c t h0]
    simp only [before0_8_B V c t h0, before0_9_B V c t h0]
    unfold enc0 bmn0 bmx0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) _ _ _ _ _ _ _ _ _ _ _ _ _ _ _ _ _ _ _ _
      (fun h => h0 ((hcond0_1 t).mp h)) ((hcond0_2 t).mpr h0) (iblk0 V c 0 t) (iblk0 V c 1 t) (iblk0 V c 2 t) (iblk0 V c 3 t) (iblk0 V c 4 t) (iblk0 V c 5 t) (iblk0 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body obligation of the call, at every point: the two carried windows are written at every point, so the
    obligation asks of every window what the body leaves there. -/
theorem body_obligation0 (c : Dev nD) : BodyObligation (dat0 (F := F) V c) (defs₀ (F := F)) Variants.none () Set.univ := fun t => by
  rw [bigSep_W0, bigSep_W0]
  -- the two carried windows share one idleness condition: the first rewrite may already reach both
  rw [idle0_8 t]; try rw [idle0_9 t]
  exact sound_body0 V c t

end Region0

end Cert.Kernel.Hand

end
-- ==== Proof.K.Region1.lean ====
/- Region 1 of @main (the second pallas_call, the gather kernel), at a parameter V, the TensorCore's buffer
   contents when the region is entered.

   The kernel has four input windows and one output window. Window 0 (the encoded rows, a block of 8192 rows per
   grid point) is fetched at every point; windows 1, 2, 3 (the column minima, the column maxima, the 25 x 25 table)
   have a constant block index and are fetched at the first point only. In either case the body finds, in an input's
   staging buffer, that window's block of the array the region was entered with: an unfetched window's index has not
   moved and the body leaves the block in place. The body loads the four input buffers whole, computes one value of
   them (the payload k1_pay1: the two bin indices of a row, the table entry they select written as a sum over a
   one-hot row), and stores it over the whole output buffer; so the output buffer after the body is that payload of
   the four input blocks, and it is written back at every point. -/
import proofs.«100639_j53171695125388_2_alg».proof.Proof.Gen.Kernel.Launch
import proofs.«100639_j53171695125388_2_alg».proof.Proof.Gen.Kernel.Skeleton
import proofs.«100639_j53171695125388_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: where the window is not fetched its block
    index has not moved since the point before, whose block the buffer still holds. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, through the rectangle at offset zero of the buffer's own sizes -/

abbrev r1_0 : Rect S8192x2 := Rect.unit (s := S8192x2) ![0, 0] S8192x2.size inb_S8192x2_S8192x2_0_0
abbrev r1_1 : Rect S1x2 := Rect.unit (s := S1x2) ![0, 0] S1x2.size inb_S1x2_S1x2_0_0
abbrev r1_3 : Rect S25x25 := Rect.unit (s := S25x25) ![0, 0] S25x25.size inb_S25x25_S25x25_0_0
abbrev r1_4 : Rect S8192x1 := Rect.unit (s := S8192x1) ![0, 0] S8192x1.size inb_S8192x1_S8192x1_0_0

theorem hz1_0 : (![0, 0] : Fin S8192x2.rank → Nat) = fun _ => 0 := funext fun a => by fin_cases a <;> rfl
theorem hz1_1 : (![0, 0] : Fin S1x2.rank → Nat) = fun _ => 0 := funext fun a => by fin_cases a <;> rfl
theorem hz1_3 : (![0, 0] : Fin S25x25.rank → Nat) = fun _ => 0 := funext fun a => by fin_cases a <;> rfl
theorem hz1_4 : (![0, 0] : Fin S8192x1.rank → Nat) = fun _ => 0 := funext fun a => by fin_cases a <;> rfl

/-! ## What the body leaves in the output window's buffer -/

/-- The output buffer after the body, as the one store leaves it: the payload of what the four loads read, laid
    over the buffer through the store's rectangle. -/
def out1_4c (x0 : Vec F S8192x2 .f32) (x1 : Vec F S1x2 .f32) (x2 : Vec F S1x2 .f32) (x3 : Vec F S25x25 .f32) : Vec F S8192x1 .f32 :=
  View.canon [⟨r1_4, k1_pay1 (View.ld x0 r1_0) (View.ld x1 r1_1) (View.ld x2 r1_1) (View.ld x3 r1_3)⟩]

/-- The store's rectangle is the whole buffer, so it covers it. -/
theorem cover1_4 (p0 : Vec F S8192x1 .f32) (y : S8192x1.Idx) :
    ∃ pc ∈ ([⟨r1_4, p0⟩] : List (View.Piece (Elt F) S8192x1 .f32)), y ∈ pc.1.set :=
  ⟨_, List.mem_singleton_self _, View.mem_set_unit_zero hz1_4 inb_S8192x1_S8192x1_0_0 y⟩

/-- Every load reads its buffer whole and the store covers its buffer: the output buffer after the body is the
    payload of the four input buffers. -/
theorem out1_4c_eq (x0 : Vec F S8192x2 .f32) (x1 : Vec F S1x2 .f32) (x2 : Vec F S1x2 .f32) (x3 : Vec F S25x25 .f32) :
    out1_4c x0 x1 x2 x3 = k1_pay1 x0 x1 x2 x3 := by
  unfold out1_4c
  rw [View.canon_unit_zero hz1_4, View.ld_unit_zero hz1_0, View.ld_unit_zero hz1_1, View.ld_unit_zero hz1_1, View.ld_unit_zero hz1_3]

/-! ## The body's triple -/

set_option maxHeartbeats 1000000 in
/-- The kernel body on whole staging memrefs, the inputs' at read contents x0 .. x3 and the output's at anything,
    runs to the continuation holding the inputs' as they were and the output's at the payload of the inputs'. -/
theorem sound_kernel1 (c : Dev nD) (E : Set ℕ) (i : grid1.Coords)
    (arg1 : Memref sig .tc .vmem S8192x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S25x25 .f32) (harg4 : arg4.IsWhole)
    (arg5 : Memref sig .tc .vmem S8192x1 .f32) (harg5 : arg5.IsWhole)
    (x0 : Vec F S8192x2 .f32) (x1 : Vec F S1x2 .f32) (x2 : Vec F S1x2 .f32) (x3 : Vec F S25x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4c x0 x1 x2 x3)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- What the body leaves in the output window's buffer at point t: the payload of the four input blocks there. -/
def yblk1 (c : Dev nD) (t : Fin cfg1.N) : Vec F S8192x1 .f32 :=
  k1_pay1 (iblk1 V c 0 t) (iblk1 V c 1 t) (iblk1 V c 2 t) (iblk1 V c 3 t)

/-- The proof data of pipeline 1 on core c: the arrays as the region finds them; after the body at point t each
    input's buffer at its block and the output's at the payload of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yblk1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yblk1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold yblk1
  rw [← out1_4c_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/- The run of @main: one stretch of host operations (three transposes and four reshapes of the weight, bias and
   table arguments), then the two pallas_calls back to back.

   The contents of core c's unscoped buffers are followed from the launch to the return as a fold: W0 at the
   launch; W1 after the host stretch (each operation's result written to its buffer); W2 at region 0's exit (its
   windows' arrays at what the pipeline's write-backs leave, every other buffer as entered); W3 at region 1's exit,
   likewise from W2. Region 1 is entered from region 0's exit contents. Every argument array reads back through the
   fold to its launch contents: no host operation writes an argument, region 0 only reads its first window's array
   (the argument x) and passes by the other arguments, and region 1 passes by all of them. -/
import proofs.«100639_j53171695125388_2_alg».proof.Proof.K.Region0
import proofs.«100639_j53171695125388_2_alg».proof.Proof.K.Region1
import proofs.«100639_j53171695125388_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as region 0 left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The host stretch writes only its seven result buffers, none of them an argument. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The argument x is region 0's first input window's array: an input's array is never written back. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The other arguments are no window's array of either region. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| (W1_of m ρ c main_arg7 (by decide)).trans rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents W3, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2 (region 0's exit contents), left at W3
    (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- The run of @main with every unscoped buffer named at the end: at the compiled mesh, from any memory with zero
    counters, every weakly fair execution of @main on the TensorCores terminates, nothing faulting, and in every
    final state each unscoped buffer of core c holds W3 m ρ c of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

end Cert.Kernel.Hand

end
-- ==== Proof.KI.Region0Runs.lean ====
import proofs.«100639_j53171695125388_2_alg».proof.Proof.Gen.KernelIdeal.Launch
import proofs.«100639_j53171695125388_2_alg».proof.Proof.Gen.KernelIdeal.Skeleton
import proofs.«100639_j53171695125388_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # The encoder kernel's body on any staging buffers, in its two cases

The body reads its seven inputs whole, computes the encoding `e` of the block's rows and stores it whole; then,
at grid position 0, it stores the block's per-column minimum and maximum of `e` into the two carried buffers, and
at a later position it reads each carried buffer and stores back the block's minimum (maximum) combined with what
it read. Every load and store is of the whole buffer, so a buffer stored once holds exactly the stored value. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores -/

/-- The offsets of every load and store of the body are zero. -/
theorem hz0 : (![0, 0] : Fin 2 → Nat) = fun _ => 0 := funext fun a => by fin_cases a <;> rfl

section Whole
variable {sig' : RefSig} {κ : Kind} {sp : Space} {S : Shape} {e : EltTy} {Val : EltTy → Type}

/-- A load of the whole buffer reads its contents. -/
theorem readAt_unit_zero (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- After one store of the whole buffer it holds the stored value, whatever it held before. -/
theorem read_writes_unit_zero [∀ e, Nonempty (Val e)] (v : View sig' κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The two branch conditions over the grid -/

/-- The first branch is taken at grid position 0 only, -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- the second at every later position. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)
/-- So one of the two is taken at every point: the carried buffers are written at every point. -/
theorem idle0_8 : ∀ t : Fin cfg0.N, cfg0.idle 8 (cfg0.grid.coords t) = false :=
  (by decide +kernel : ∀ t : Fin grid0.N, idle0 8 (grid0.coords t) = false)
theorem idle0_9 : ∀ t : Fin cfg0.N, cfg0.idle 9 (cfg0.grid.coords t) = false :=
  (by decide +kernel : ∀ t : Fin grid0.N, idle0 9 (grid0.coords t) = false)

/-! ## The body's triple, case by case -/

set_option maxHeartbeats 1000000 in
/-- AT GRID POSITION 0. On whole staging buffers, the inputs' at contents `x0 … x6` and the three outputs' at
    anything, the body runs to the continuation holding the inputs' as they were, the encoding's buffer at the
    encoding of the inputs, and the two carried buffers at its per-column minimum and maximum. -/
theorem sound_kernel0_A (c : Dev nD) (E : Set ℕ) (i : grid0.Coords) (arg1 : Memref sig .tc .vmem S8192x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S8192x2 .f32) (harg8 : arg8.IsWhole) (arg9 : Memref sig .tc .vmem S1x2 .f32) (harg9 : arg9.IsWhole) (arg10 : Memref sig .tc .vmem S1x2 .f32) (harg10 : arg10.IsWhole)
    (h1 : k0_cond1 i = 1#1) (h2 : ¬ k0_cond2 i = 1#1)
    (x0 : Vec F S8192x32 .f32) (x1 : Vec F S32x20 .f32) (x2 : Vec F S1x20 .f32) (x3 : Vec F S20x5 .f32) (x4 : Vec F S1x5 .f32) (x5 : Vec F S5x2 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay3 x0 x1 x2 x3 x4 x5 x6)
            ∗ owns (c : Thread nD τ) arg9 fullShare (k0_pay4 x0 x1 x2 x3 x4 x5 x6)
            ∗ owns (c : Thread nD τ) arg10 fullShare (k0_pay5 x0 x1 x2 x3 x4 x5 x6)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  isplitl [H8]
  · iexists _; isplitr
    swap; · iexact H8
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  iexists _; isplitr
  swap; · iexact H9
  ipureintro
  simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
  exact read_writes_unit_zero _ _ hz0 _ _

set_option maxHeartbeats 1000000 in
/-- AT A LATER GRID POSITION. The two carried buffers now hold `xo8`, `xo9` (what the point before left); the body
    leaves in them the block's minimum combined with `xo8` and the block's maximum combined with `xo9`. -/
theorem sound_kernel0_B (c : Dev nD) (E : Set ℕ) (i : grid0.Coords) (arg1 : Memref sig .tc .vmem S8192x32 .f32) (harg1 : arg1.IsWhole) (arg2 : Memref sig .tc .vmem S32x20 .f32) (harg2 : arg2.IsWhole) (arg3 : Memref sig .tc .vmem S1x20 .f32) (harg3 : arg3.IsWhole) (arg4 : Memref sig .tc .vmem S20x5 .f32) (harg4 : arg4.IsWhole) (arg5 : Memref sig .tc .vmem S1x5 .f32) (harg5 : arg5.IsWhole) (arg6 : Memref sig .tc .vmem S5x2 .f32) (harg6 : arg6.IsWhole) (arg7 : Memref sig .tc .vmem S1x2 .f32) (harg7 : arg7.IsWhole) (arg8 : Memref sig .tc .vmem S8192x2 .f32) (harg8 : arg8.IsWhole) (arg9 : Memref sig .tc .vmem S1x2 .f32) (harg9 : arg9.IsWhole) (arg10 : Memref sig .tc .vmem S1x2 .f32) (harg10 : arg10.IsWhole)
    (h1 : ¬ k0_cond1 i = 1#1) (h2 : k0_cond2 i = 1#1)
    (x0 : Vec F S8192x32 .f32) (x1 : Vec F S32x20 .f32) (x2 : Vec F S1x20 .f32) (x3 : Vec F S20x5 .f32) (x4 : Vec F S1x5 .f32) (x5 : Vec F S5x2 .f32) (x6 : Vec F S1x2 .f32) (xo8 : Vec F S1x2 .f32) (xo9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xo8 ∗ owns (c : Thread nD τ) arg10 fullShare xo9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (k0_pay3 x0 x1 x2 x3 x4 x5 x6)
            ∗ owns (c : Thread nD τ) arg9 fullShare (k0_pay1 (k0_pay4 x0 x1 x2 x3 x4 x5 x6) xo8)
            ∗ owns (c : Thread nD τ) arg10 fullShare (k0_pay2 (k0_pay5 x0 x1 x2 x3 x4 x5 x6) xo9)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10) K := by
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  isplitl [H8]
  · iexists _; isplitr
    swap; · iexact H8
    ipureintro
    sl_unfold_run_names
    simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
    exact read_writes_unit_zero _ _ hz0 _ _
  iexists _; isplitr
  swap; · iexact H9
  ipureintro
  sl_unfold_run_names
  simp only [readAt_unit_zero (S := S8192x32) _ _ hz0, readAt_unit_zero (S := S32x20) _ _ hz0, readAt_unit_zero (S := S1x20) _ _ hz0, readAt_unit_zero (S := S20x5) _ _ hz0, readAt_unit_zero (S := S1x5) _ _ hz0, readAt_unit_zero (S := S5x2) _ _ hz0, readAt_unit_zero (S := S1x2) _ _ hz0, readAt_unit_zero (S := S8192x2) _ _ hz0]
  exact read_writes_unit_zero _ _ hz0 _ _

end Cert.KernelIdeal.Hand

end
-- ==== Proof.KI.Region0.lean ====
import proofs.«100639_j53171695125388_2_alg».proof.Proof.KI.Region0Runs
import proofs.«100639_j53171695125388_2_alg».proof.Proof.Gen.KernelIdeal.Launch
import proofs.«100639_j53171695125388_2_alg».proof.Proof.Gen.KernelIdeal.Skeleton
import proofs.«100639_j53171695125388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The encoder call of the idealized kernel: what each grid point leaves in its windows

The first call runs over 256 grid points. At point `t` it reads a block of 8192 rows of the input and the
three layers' weights and biases, computes the encoding `e = tanh(tanh(tanh(x·W1+b1)·W2+b2)·W3+b3)` of those rows,
and stores it. It also carries, per column, the minimum and the maximum of `e` over all rows seen so far:
at point 0 they are the block's own minimum and maximum; at a later point they are the block's minimum
(maximum) combined with what the point before left. This module names those contents, as functions of the
arrays the call finds on entry, and proves that the kernel body leaves exactly them. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the call is entered
variable (V : (c : Dev nD) → (b : Ref sig .tc) → Buf (Elt F) ((c : Thread nD τ).loc b))

/-! ## The windows' blocks and what the body computes from them -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The encoding of the 8192 rows of point `t`: three dense layers, each followed by `tanh`. -/
def enc0 (c : Dev nD) (t : Fin cfg0.N) : Vec F S8192x2 .f32 :=
  k0_pay3 (iblk0 V c 0 t) (iblk0 V c 1 t) (iblk0 V c 2 t) (iblk0 V c 3 t) (iblk0 V c 4 t) (iblk0 V c 5 t) (iblk0 V c 6 t)

/-- The per-column minimum of the encoding over the rows of point `t`. -/
def bmn0 (c : Dev nD) (t : Fin cfg0.N) : Vec F S1x2 .f32 :=
  k0_pay4 (iblk0 V c 0 t) (iblk0 V c 1 t) (iblk0 V c 2 t) (iblk0 V c 3 t) (iblk0 V c 4 t) (iblk0 V c 5 t) (iblk0 V c 6 t)

/-- The per-column maximum of the encoding over the rows of point `t`. -/
def bmx0 (c : Dev nD) (t : Fin cfg0.N) : Vec F S1x2 .f32 :=
  k0_pay5 (iblk0 V c 0 t) (iblk0 V c 1 t) (iblk0 V c 2 t) (iblk0 V c 3 t) (iblk0 V c 4 t) (iblk0 V c 5 t) (iblk0 V c 6 t)

/-- The running per-column minimum after point `n`: the block's minimum at point 0, and afterwards the block's
    minimum combined with the running minimum of the point before. -/
def mnAt (c : Dev nD) : (n : ℕ) → n < cfg0.N → Vec F S1x2 .f32
  | 0, h => bmn0 V c ⟨0, h⟩
  | n + 1, h => k0_pay1 (bmn0 V c ⟨n + 1, h⟩) (mnAt c n (Nat.lt_of_succ_lt h))

/-- The running per-column maximum after point `n`, likewise. -/
def mxAt (c : Dev nD) : (n : ℕ) → n < cfg0.N → Vec F S1x2 .f32
  | 0, h => bmx0 V c ⟨0, h⟩
  | n + 1, h => k0_pay2 (bmx0 V c ⟨n + 1, h⟩) (mxAt c n (Nat.lt_of_succ_lt h))

/-! ## The proof data -/

/-- The arrays as the call finds them; after the body at point `t` each input's buffer holds its block, the
    encoding's buffer the encoding of the point's rows, and the two carried buffers the running minimum and
    maximum; the invariant is the untouched rest; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => enc0 V c t
    | ⟨8, _⟩ => mnAt V c t.val t.isLt
    | ⟨9, _⟩ => mxAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = enc0 V c t := by dsimp only [dat0]
theorem after0_8 (c : Dev nD) (t : Fin cfg0.N) : (dat0 V c).after 8 t = mnAt V c t.val t.isLt := by dsimp only [dat0]
theorem after0_9 (c : Dev nD) (t : Fin cfg0.N) : (dat0 V c).after 9 t = mxAt V c t.val t.isLt := by dsimp only [dat0]

/-! ## What the body finds in each staging buffer -/

/-- Input window 0's current staging buffer holds its block at every point, fetched there or not: unfetched, its
    block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not: unfetched, its
    block index has not moved, and the body leaves the block in place. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not: unfetched, its
    block index has not moved, and the body leaves the block in place. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not: unfetched, its
    block index has not moved, and the body leaves the block in place. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input window 4's current staging buffer holds its block at every point, fetched there or not: unfetched, its
    block index has not moved, and the body leaves the block in place. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input window 5's current staging buffer holds its block at every point, fetched there or not: unfetched, its
    block index has not moved, and the body leaves the block in place. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input window 6's current staging buffer holds its block at every point, fetched there or not: unfetched, its
    block index has not moved, and the body leaves the block in place. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- At a later point the carried buffer of window 8 holds what the body left at the point before: it is not
    fetched, it was not written back in between (only the last point writes it back), and the body wrote it
    at the point before. -/
theorem before0_8_B (c : Dev nD) (t : Fin cfg0.N) (h0 : t.val ≠ 0) (d) :
    (dat0 V c).before 8 t d = mnAt V c (t.val - 1) (Nat.lt_of_le_of_lt (Nat.sub_le _ _) t.isLt) := by
  have hN : t.val < 256 := lt_of_lt_of_eq t.isLt (show cfg0.N = 256 from N_0)
  rw [(dat0 V c).before_of_pos 8 t h0 ((cfg0.win 8).fetch_out rfl t),
    if_neg (fun h => by have := (flush0_8 _).mp h; dsimp only at this; omega)]
  unfold Dat.left
  split
  · rename_i hidle
    exact absurd ((idle0_8 _).symm.trans hidle) Bool.false_ne_true
  · unfold Dat.kept
    rw [Pipeline.fill_of_clip_none 8 _ (fun _ => rfl) d ((dat0 V c).after 8 _), Window.fill_cut, after0_8]

/-- At a later point the carried buffer of window 9 holds what the body left at the point before: it is not
    fetched, it was not written back in between (only the last point writes it back), and the body wrote it
    at the point before. -/
theorem before0_9_B (c : Dev nD) (t : Fin cfg0.N) (h0 : t.val ≠ 0) (d) :
    (dat0 V c).before 9 t d = mxAt V c (t.val - 1) (Nat.lt_of_le_of_lt (Nat.sub_le _ _) t.isLt) := by
  have hN : t.val < 256 := lt_of_lt_of_eq t.isLt (show cfg0.N = 256 from N_0)
  rw [(dat0 V c).before_of_pos 9 t h0 ((cfg0.win 9).fetch_out rfl t),
    if_neg (fun h => by have := (flush0_9 _).mp h; dsimp only at this; omega)]
  unfold Dat.left
  split
  · rename_i hidle
    exact absurd ((idle0_9 _).symm.trans hidle) Bool.false_ne_true
  · unfold Dat.kept
    rw [Pipeline.fill_of_clip_none 9 _ (fun _ => rfl) d ((dat0 V c).after 9 _), Window.fill_cut, after0_9]

/-! ## The running minimum and maximum, point by point -/

/-- `mnAt` at point 0: the block's own. -/
theorem mnAt_A (c : Dev nD) (t : Fin cfg0.N) (h0 : t.val = 0) : mnAt V c t.val t.isLt = bmn0 V c t := by
  obtain ⟨n, hn⟩ := t
  cases n with
  | zero => rfl
  | succ n => exact absurd h0 (Nat.succ_ne_zero n)

/-- `mnAt` at a later point: the block's, combined with the point before's. -/
theorem mnAt_B (c : Dev nD) (t : Fin cfg0.N) (h0 : t.val ≠ 0) :
    mnAt V c t.val t.isLt = k0_pay1 (bmn0 V c t) (mnAt V c (t.val - 1) (Nat.lt_of_le_of_lt (Nat.sub_le _ _) t.isLt)) := by
  obtain ⟨n, hn⟩ := t
  cases n with
  | zero => exact absurd rfl h0
  | succ n => rfl

/-- `mxAt` at point 0: the block's own. -/
theorem mxAt_A (c : Dev nD) (t : Fin cfg0.N) (h0 : t.val = 0) : mxAt V c t.val t.isLt = bmx0 V c t := by
  obtain ⟨n, hn⟩ := t
  cases n with
  | zero => rfl
  | succ n => exact absurd h0 (Nat.succ_ne_zero n)

/-- `mxAt` at a later point: the block's, combined with the point before's. -/
theorem mxAt_B (c : Dev nD) (t : Fin cfg0.N) (h0 : t.val ≠ 0) :
    mxAt V c t.val t.isLt = k0_pay2 (bmx0 V c t) (mxAt V c (t.val - 1) (Nat.lt_of_le_of_lt (Nat.sub_le _ _) t.isLt)) := by
  obtain ⟨n, hn⟩ := t
  cases n with
  | zero => exact absurd rfl h0
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point. The inputs' buffers hold their blocks. At point 0 the outputs' buffers hold anything and
    the body leaves the encoding and the block's minimum and maximum. At a later point the two carried buffers
    hold the running minimum and maximum of the point before, and the body leaves them combined with the
    block's. The invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  by_cases h0 : t.val = 0
  · rw [mnAt_A V c t h0, mxAt_A V c t h0]
    unfold enc0 bmn0 bmx0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t) _ _ _ _ _ _ _ _ _ _ _ _ _ _ _ _ _ _ _ _
      ((hcond0_1 t).mpr h0) (fun h => (hcond0_2 t).mp h h0) (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [mnAt_B V c t h0, mxAt_B V c t h0]
    simp only [before0_8_B V c t h0, before0_9_B V c t h0]
    unfold enc0 bmn0 bmx0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) _ _ _ _ _ _ _ _ _ _ _ _ _ _ _ _ _ _ _ _
      (fun h => h0 ((hcond0_1 t).mp h)) ((hcond0_2 t).mpr h0) (iblk0 V c 0 t) (iblk0 V c 1 t) (iblk0 V c 2 t) (iblk0 V c 3 t) (iblk0 V c 4 t) (iblk0 V c 5 t) (iblk0 V c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body obligation of the call, at every point: the two carried windows are written at every point, so the
    obligation asks of every window what the body leaves there. -/
theorem body_obligation0 (c : Dev nD) : BodyObligation (dat0 (F := F) V c) (defs₀ (F := F)) Variants.none () Set.univ := fun t => by
  rw [bigSep_W0, bigSep_W0]
  -- the two carried windows share one idleness condition: the first rewrite may already reach both
  rw [idle0_8 t]; try rw [idle0_9 t]
  exact sound_body0 V c t

end Region0

end Cert.KernelIdeal.Hand

end
-- ==== Proof.KI.Region1.lean ====
/- Region 1 of @main (the second pallas_call, the gather kernel), at a parameter V, the TensorCore's buffer
   contents when the region is entered.

   The kernel has four input windows and one output window. Window 0 (the encoded rows, a block of 8192 rows per
   grid point) is fetched at every point; windows 1, 2, 3 (the column minima, the column maxima, the 25 x 25 table)
   have a constant block index and are fetched at the first point only. In either case the body finds, in an input's
   staging buffer, that window's block of the array the region was entered with: an unfetched window's index has not
   moved and the body leaves the block in place. The body loads the four input buffers whole, computes one value of
   them (the payload k1_pay1: the two bin indices of a row, the table entry they select written as a sum over a
   one-hot row), and stores it over the whole output buffer; so the output buffer after the body is that payload of
   the four input blocks, and it is written back at every point. -/
import proofs.«100639_j53171695125388_2_alg».proof.Proof.Gen.KernelIdeal.Launch
import proofs.«100639_j53171695125388_2_alg».proof.Proof.Gen.KernelIdeal.Skeleton
import proofs.«100639_j53171695125388_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is V's and whose body leaves the block in place: where the window is not fetched its block
    index has not moved since the point before, whose block the buffer still holds. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole, through the rectangle at offset zero of the buffer's own sizes -/

abbrev r1_0 : Rect S8192x2 := Rect.unit (s := S8192x2) ![0, 0] S8192x2.size inb_S8192x2_S8192x2_0_0
abbrev r1_1 : Rect S1x2 := Rect.unit (s := S1x2) ![0, 0] S1x2.size inb_S1x2_S1x2_0_0
abbrev r1_3 : Rect S25x25 := Rect.unit (s := S25x25) ![0, 0] S25x25.size inb_S25x25_S25x25_0_0
abbrev r1_4 : Rect S8192x1 := Rect.unit (s := S8192x1) ![0, 0] S8192x1.size inb_S8192x1_S8192x1_0_0

theorem hz1_0 : (![0, 0] : Fin S8192x2.rank → Nat) = fun _ => 0 := funext fun a => by fin_cases a <;> rfl
theorem hz1_1 : (![0, 0] : Fin S1x2.rank → Nat) = fun _ => 0 := funext fun a => by fin_cases a <;> rfl
theorem hz1_3 : (![0, 0] : Fin S25x25.rank → Nat) = fun _ => 0 := funext fun a => by fin_cases a <;> rfl
theorem hz1_4 : (![0, 0] : Fin S8192x1.rank → Nat) = fun _ => 0 := funext fun a => by fin_cases a <;> rfl

/-! ## What the body leaves in the output window's buffer -/

/-- The output buffer after the body, as the one store leaves it: the payload of what the four loads read, laid
    over the buffer through the store's rectangle. -/
def out1_4c (x0 : Vec F S8192x2 .f32) (x1 : Vec F S1x2 .f32) (x2 : Vec F S1x2 .f32) (x3 : Vec F S25x25 .f32) : Vec F S8192x1 .f32 :=
  View.canon [⟨r1_4, k1_pay1 (View.ld x0 r1_0) (View.ld x1 r1_1) (View.ld x2 r1_1) (View.ld x3 r1_3)⟩]

/-- The store's rectangle is the whole buffer, so it covers it. -/
theorem cover1_4 (p0 : Vec F S8192x1 .f32) (y : S8192x1.Idx) :
    ∃ pc ∈ ([⟨r1_4, p0⟩] : List (View.Piece (Elt F) S8192x1 .f32)), y ∈ pc.1.set :=
  ⟨_, List.mem_singleton_self _, View.mem_set_unit_zero hz1_4 inb_S8192x1_S8192x1_0_0 y⟩

/-- Every load reads its buffer whole and the store covers its buffer: the output buffer after the body is the
    payload of the four input buffers. -/
theorem out1_4c_eq (x0 : Vec F S8192x2 .f32) (x1 : Vec F S1x2 .f32) (x2 : Vec F S1x2 .f32) (x3 : Vec F S25x25 .f32) :
    out1_4c x0 x1 x2 x3 = k1_pay1 x0 x1 x2 x3 := by
  unfold out1_4c
  rw [View.canon_unit_zero hz1_4, View.ld_unit_zero hz1_0, View.ld_unit_zero hz1_1, View.ld_unit_zero hz1_1, View.ld_unit_zero hz1_3]

/-! ## The body's triple -/

set_option maxHeartbeats 1000000 in
/-- The kernel body on whole staging memrefs, the inputs' at read contents x0 .. x3 and the output's at anything,
    runs to the continuation holding the inputs' as they were and the output's at the payload of the inputs'. -/
theorem sound_kernel1 (c : Dev nD) (E : Set ℕ) (i : grid1.Coords)
    (arg1 : Memref sig .tc .vmem S8192x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S25x25 .f32) (harg4 : arg4.IsWhole)
    (arg5 : Memref sig .tc .vmem S8192x1 .f32) (harg5 : arg5.IsWhole)
    (x0 : Vec F S8192x2 .f32) (x1 : Vec F S1x2 .f32) (x2 : Vec F S1x2 .f32) (x3 : Vec F S25x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4c x0 x1 x2 x3)) -∗ K ⟨⟩))
      ⊢ wp frame (wpE (defs₀ (F := F)) Variants.none c none) E (cc1__gather_kernel i arg1 harg1 arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- What the body leaves in the output window's buffer at point t: the payload of the four input blocks there. -/
def yblk1 (c : Dev nD) (t : Fin cfg1.N) : Vec F S8192x1 .f32 :=
  k1_pay1 (iblk1 V c 0 t) (iblk1 V c 1 t) (iblk1 V c 2 t) (iblk1 V c 3 t)

/-- The proof data of pipeline 1 on core c: the arrays as the region finds them; after the body at point t each
    input's buffer at its block and the output's at the payload of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => yblk1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = yblk1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold yblk1
  rw [← out1_4c_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- The run of @main: one stretch of host operations (three transposes and four reshapes of the weight, bias and
   table arguments), then the two pallas_calls back to back.

   The contents of core c's unscoped buffers are followed from the launch to the return as a fold: W0 at the
   launch; W1 after the host stretch (each operation's result written to its buffer); W2 at region 0's exit (its
   windows' arrays at what the pipeline's write-backs leave, every other buffer as entered); W3 at region 1's exit,
   likewise from W2. Region 1 is entered from region 0's exit contents. Every argument array reads back through the
   fold to its launch contents: no host operation writes an argument, region 0 only reads its first window's array
   (the argument x) and passes by the other arguments, and region 1 passes by all of them. -/
import proofs.«100639_j53171695125388_2_alg».proof.Proof.KI.Region0
import proofs.«100639_j53171695125388_2_alg».proof.Proof.KI.Region1
import proofs.«100639_j53171695125388_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as region 0 left it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

/-- The host stretch writes only its seven result buffers, none of them an argument. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The argument x is region 0's first input window's array: an input's array is never written back. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The other arguments are no window's array of either region. -/
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| (W1_of m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| (W1_of m ρ c main_arg7 (by decide)).trans rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents W3, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at W1, left at W2. Its arrays split out of
    the unscoped buffers and put back at the exit contents; the generator register into the region's invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2 (region 0's exit contents), left at W3
    (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- The run of @main with every unscoped buffer named at the end: at the compiled mesh, from any memory with zero
    counters, every weakly fair execution of @main on the TensorCores terminates, nothing faulting, and in every
    final state each unscoped buffer of core c holds W3 m ρ c of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩) (run_all m ρ)

end Cert.KernelIdeal.Hand

end
-- ==== Proof.KI.RunFacts.lean ====
/- What the two regions find in their windows' arrays when they are entered, read off the fold of Run.lean.

   Region 0 is entered after the host stretch: the argument x as launched, and each weight, bias and the table as the
   one host operation that produced it left it (a transpose of the weight argument, a reshape of the bias or table
   argument to a row or to the 25 x 25 table). Region 1 is entered from region 0's exit: the table as the host stretch
   left it (region 0 passes it by), and region 0's three output arrays at what its write-backs leave. At the end the
   result array holds what region 1's write-backs leave. -/
import proofs.«100639_j53171695125388_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## Region 0's entry contents -/

/-- The argument x: no host operation writes it. -/
theorem V1_main_arg0 (c : Dev nD) : V1 m ρ c main_arg0 = m ((c : Thread nD τ).loc main_arg0) :=
  (W1_of m ρ c main_arg0 (by decide)).trans rfl

/-- The three weights, each the transpose of its argument. -/
theorem V1_main_v0 (c : Dev nD) :
    V1 m ρ c main_v0 = transpose S32x20 [1, 0] (m ((c : Thread nD τ).loc main_arg1)) transposes_S20x32_S32x20_1_0 := by
  show StableHlo.after hostOps0 (W0 m ρ c) (Proc.devRef .tc main_v0) = _
  after_results
theorem V1_main_v1 (c : Dev nD) :
    V1 m ρ c main_v1 = transpose S20x5 [1, 0] (m ((c : Thread nD τ).loc main_arg3)) transposes_S5x20_S20x5_1_0 := by
  show StableHlo.after hostOps0 (W0 m ρ c) (Proc.devRef .tc main_v1) = _
  after_results
theorem V1_main_v2 (c : Dev nD) :
    V1 m ρ c main_v2 = transpose S5x2 [1, 0] (m ((c : Thread nD τ).loc main_arg5)) transposes_S2x5_S5x2_1_0 := by
  show StableHlo.after hostOps0 (W0 m ρ c) (Proc.devRef .tc main_v2) = _
  after_results

/-- The three biases, each its argument reshaped to a row; and the table, its argument reshaped to 25 x 25. -/
theorem V1_main_v3 (c : Dev nD) :
    V1 m ρ c main_v3 = shapeCast S1x20 (m ((c : Thread nD τ).loc main_arg2)) shapeCasts_S20_S1x20 := by
  show StableHlo.after hostOps0 (W0 m ρ c) (Proc.devRef .tc main_v3) = _
  after_results
  rfl
theorem V1_main_v4 (c : Dev nD) :
    V1 m ρ c main_v4 = shapeCast S1x5 (m ((c : Thread nD τ).loc main_arg4)) shapeCasts_S5_S1x5 := by
  show StableHlo.after hostOps0 (W0 m ρ c) (Proc.devRef .tc main_v4) = _
  after_results
  rfl
theorem V1_main_v5 (c : Dev nD) :
    V1 m ρ c main_v5 = shapeCast S1x2 (m ((c : Thread nD τ).loc main_arg6)) shapeCasts_S2_S1x2 := by
  show StableHlo.after hostOps0 (W0 m ρ c) (Proc.devRef .tc main_v5) = _
  after_results
  rfl
theorem V1_main_v6 (c : Dev nD) :
    V1 m ρ c main_v6 = shapeCast S25x25 (m ((c : Thread nD τ).loc main_arg7)) shapeCasts_S625_S25x25 := by
  show StableHlo.after hostOps0 (W0 m ρ c) (Proc.devRef .tc main_v6) = _
  after_results
  rfl

/-! ## Region 1's entry contents -/

/-- The table is no window's array of region 0, which leaves it as entered. -/
theorem V2_main_v6 (c : Dev nD) : V2 m ρ c main_v6 = V1 m ρ c main_v6 :=
  W2_of_ne m ρ c main_v6 (by decide)
/-- Region 0's three outputs (the encoded rows, the column minima, the column maxima) at what its write-backs leave. -/
theorem V2_main_v7_0 (c : Dev nD) : V2 m ρ c main_v7_0 = (dat0 (V1 m ρ) c).arrAt 7 cfg0.N := W2_arr m ρ c 7
theorem V2_main_v7_1 (c : Dev nD) : V2 m ρ c main_v7_1 = (dat0 (V1 m ρ) c).arrAt 8 cfg0.N := W2_arr m ρ c 8
theorem V2_main_v7_2 (c : Dev nD) : V2 m ρ c main_v7_2 = (dat0 (V1 m ρ) c).arrAt 9 cfg0.N := W2_arr m ρ c 9

/-! ## The result at the end -/

/-- The result array at what region 1's write-backs leave. -/
theorem W3_main_v8 (c : Dev nD) : W3 m ρ c (Proc.devRef .tc main_v8) = (dat1 (V2 m ρ) c).arrAt 4 cfg1.N := W3_arr m ρ c 4

end Cert.KernelIdeal.Hand

end
-- ==== Proof.Value.Blocks.lean ====
/-
  The windows' blocks read off their arrays. A window whose index map follows the grid point holds, at point t, rows
  8192·t … 8192·t + 8191 of its array; a window whose index map is constant holds its whole array at every point.
-/
import proofs.«100639_j53171695125388_2_alg».proof.Proof.KI.Region0
import proofs.«100639_j53171695125388_2_alg».proof.Proof.KI.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The encoder call -/

theorem idx0_0 : ∀ t : Fin cfg0.N, win0_0.index t 0 = t.val ∧ win0_0.index t 1 = 0 :=
  (by decide +kernel : ∀ t : Fin grid0.N, win0_0.index t 0 = t.val ∧ win0_0.index t 1 = 0)
/-- Window 0's block at point t is rows 8192·t … 8192·t + 8191 of its array. -/
theorem iblk0_0_rows (c : Dev nD) (t : Fin cfg0.N) (p : Fin 8192) (k : Fin 32) (i : S2097152x32.Idx)
    (hi0 : (i 0).val = t.val * 8192 + p.val) (hi1 : (i 1).val = k.val) :
    (iblk0 V c 0 t : Vec F S8192x32 .f32) (ix2 p k) = (V c main_arg0 : S2097152x32.Idx → Elt F .f32) i := by
  unfold iblk0
  rw [View.read_apply]
  show V c main_arg0 _ = V c main_arg0 _
  congr 1
  funext a
  apply Fin.ext
  match a with
  | ⟨0, _⟩ => show win0_0.index t 0 * 8192 + 1 * p.val = (i 0).val; rw [(idx0_0 t).1, hi0]; omega
  | ⟨1, _⟩ => show win0_0.index t 1 * 32 + 1 * k.val = (i 1).val; rw [(idx0_0 t).2, hi1]; omega

theorem idx0_1 : ∀ t : Fin cfg0.N, win0_1.index t 0 = 0 ∧ win0_1.index t 1 = 0 :=
  (by decide +kernel : ∀ t : Fin grid0.N, win0_1.index t 0 = 0 ∧ win0_1.index t 1 = 0)
/-- Window 1's block is its whole array at every point. -/
theorem iblk0_1_whole (c : Dev nD) (t : Fin cfg0.N) :
    (iblk0 V c 1 t : Vec F S32x20 .f32) = (V c main_v0 : S32x20.Idx → Elt F .f32) := by
  funext y
  unfold iblk0
  rw [View.read_apply]
  show V c main_v0 _ = V c main_v0 _
  congr 1
  funext a
  apply Fin.ext
  match a with
  | ⟨0, _⟩ => show win0_1.index t 0 * 32 + 1 * (y 0).val = (y 0).val; rw [(idx0_1 t).1]; omega
  | ⟨1, _⟩ => show win0_1.index t 1 * 20 + 1 * (y 1).val = (y 1).val; rw [(idx0_1 t).2]; omega

theorem idx0_2 : ∀ t : Fin cfg0.N, win0_2.index t 0 = 0 ∧ win0_2.index t 1 = 0 :=
  (by decide +kernel : ∀ t : Fin grid0.N, win0_2.index t 0 = 0 ∧ win0_2.index t 1 = 0)
/-- Window 2's block is its whole array at every point. -/
theorem iblk0_2_whole (c : Dev nD) (t : Fin cfg0.N) :
    (iblk0 V c 2 t : Vec F S1x20 .f32) = (V c main_v3 : S1x20.Idx → Elt F .f32) := by
  funext y
  unfold iblk0
  rw [View.read_apply]
  show V c main_v3 _ = V c main_v3 _
  congr 1
  funext a
  apply Fin.ext
  match a with
  | ⟨0, _⟩ => show win0_2.index t 0 * 1 + 1 * (y 0).val = (y 0).val; rw [(idx0_2 t).1]; omega
  | ⟨1, _⟩ => show win0_2.index t 1 * 20 + 1 * (y 1).val = (y 1).val; rw [(idx0_2 t).2]; omega

theorem idx0_3 : ∀ t : Fin cfg0.N, win0_3.index t 0 = 0 ∧ win0_3.index t 1 = 0 :=
  (by decide +kernel : ∀ t : Fin grid0.N, win0_3.index t 0 = 0 ∧ win0_3.index t 1 = 0)
/-- Window 3's block is its whole array at every point. -/
theorem iblk0_3_whole (c : Dev nD) (t : Fin cfg0.N) :
    (iblk0 V c 3 t : Vec F S20x5 .f32) = (V c main_v1 : S20x5.Idx → Elt F .f32) := by
  funext y
  unfold iblk0
  rw [View.read_apply]
  show V c main_v1 _ = V c main_v1 _
  congr 1
  funext a
  apply Fin.ext
  match a with
  | ⟨0, _⟩ => show win0_3.index t 0 * 20 + 1 * (y 0).val = (y 0).val; rw [(idx0_3 t).1]; omega
  | ⟨1, _⟩ => show win0_3.index t 1 * 5 + 1 * (y 1).val = (y 1).val; rw [(idx0_3 t).2]; omega

theorem idx0_4 : ∀ t : Fin cfg0.N, win0_4.index t 0 = 0 ∧ win0_4.index t 1 = 0 :=
  (by decide +kernel : ∀ t : Fin grid0.N, win0_4.index t 0 = 0 ∧ win0_4.index t 1 = 0)
/-- Window 4's block is its whole array at every point. -/
theorem iblk0_4_whole (c : Dev nD) (t : Fin cfg0.N) :
    (iblk0 V c 4 t : Vec F S1x5 .f32) = (V c main_v4 : S1x5.Idx → Elt F .f32) := by
  funext y
  unfold iblk0
  rw [View.read_apply]
  show V c main_v4 _ = V c main_v4 _
  congr 1
  funext a
  apply Fin.ext
  match a with
  | ⟨0, _⟩ => show win0_4.index t 0 * 1 + 1 * (y 0).val = (y 0).val; rw [(idx0_4 t).1]; omega
  | ⟨1, _⟩ => show win0_4.index t 1 * 5 + 1 * (y 1).val = (y 1).val; rw [(idx0_4 t).2]; omega

theorem idx0_5 : ∀ t : Fin cfg0.N, win0_5.index t 0 = 0 ∧ win0_5.index t 1 = 0 :=
  (by decide +kernel : ∀ t : Fin grid0.N, win0_5.index t 0 = 0 ∧ win0_5.index t 1 = 0)
/-- Window 5's block is its whole array at every point. -/
theorem iblk0_5_whole (c : Dev nD) (t : Fin cfg0.N) :
    (iblk0 V c 5 t : Vec F S5x2 .f32) = (V c main_v2 : S5x2.Idx → Elt F .f32) := by
  funext y
  unfold iblk0
  rw [View.read_apply]
  show V c main_v2 _ = V c main_v2 _
  congr 1
  funext a
  apply Fin.ext
  match a with
  | ⟨0, _⟩ => show win0_5.index t 0 * 5 + 1 * (y 0).val = (y 0).val; rw [(idx0_5 t).1]; omega
  | ⟨1, _⟩ => show win0_5.index t 1 * 2 + 1 * (y 1).val = (y 1).val; rw [(idx0_5 t).2]; omega

theorem idx0_6 : ∀ t : Fin cfg0.N, win0_6.index t 0 = 0 ∧ win0_6.index t 1 = 0 :=
  (by decide +kernel : ∀ t : Fin grid0.N, win0_6.index t 0 = 0 ∧ win0_6.index t 1 = 0)
/-- Window 6's block is its whole array at every point. -/
theorem iblk0_6_whole (c : Dev nD) (t : Fin cfg0.N) :
    (iblk0 V c 6 t : Vec F S1x2 .f32) = (V c main_v5 : S1x2.Idx → Elt F .f32) := by
  funext y
  unfold iblk0
  rw [View.read_apply]
  show V c main_v5 _ = V c main_v5 _
  congr 1
  funext a
  apply Fin.ext
  match a with
  | ⟨0, _⟩ => show win0_6.index t 0 * 1 + 1 * (y 0).val = (y 0).val; rw [(idx0_6 t).1]; omega
  | ⟨1, _⟩ => show win0_6.index t 1 * 2 + 1 * (y 1).val = (y 1).val; rw [(idx0_6 t).2]; omega

/-! ## The lookup call -/

theorem idx1_0 : ∀ t : Fin cfg1.N, win1_0.index t 0 = t.val ∧ win1_0.index t 1 = 0 :=
  (by decide +kernel : ∀ t : Fin grid1.N, win1_0.index t 0 = t.val ∧ win1_0.index t 1 = 0)
/-- Window 0's block at point t is rows 8192·t … 8192·t + 8191 of its array. -/
theorem iblk1_0_rows (c : Dev nD) (t : Fin cfg1.N) (p : Fin 8192) (k : Fin 2) (i : S2097152x2.Idx)
    (hi0 : (i 0).val = t.val * 8192 + p.val) (hi1 : (i 1).val = k.val) :
    (iblk1 V c 0 t : Vec F S8192x2 .f32) (ix2 p k) = (V c main_v7_0 : S2097152x2.Idx → Elt F .f32) i := by
  unfold iblk1
  rw [View.read_apply]
  show V c main_v7_0 _ = V c main_v7_0 _
  congr 1
  funext a
  apply Fin.ext
  match a with
  | ⟨0, _⟩ => show win1_0.index t 0 * 8192 + 1 * p.val = (i 0).val; rw [(idx1_0 t).1, hi0]; omega
  | ⟨1, _⟩ => show win1_0.index t 1 * 2 + 1 * k.val = (i 1).val; rw [(idx1_0 t).2, hi1]; omega

theorem idx1_1 : ∀ t : Fin cfg1.N, win1_1.index t 0 = 0 ∧ win1_1.index t 1 = 0 :=
  (by decide +kernel : ∀ t : Fin grid1.N, win1_1.index t 0 = 0 ∧ win1_1.index t 1 = 0)
/-- Window 1's block is its whole array at every point. -/
theorem iblk1_1_whole (c : Dev nD) (t : Fin cfg1.N) :
    (iblk1 V c 1 t : Vec F S1x2 .f32) = (V c main_v7_1 : S1x2.Idx → Elt F .f32) := by
  funext y
  unfold iblk1
  rw [View.read_apply]
  show V c main_v7_1 _ = V c main_v7_1 _
  congr 1
  funext a
  apply Fin.ext
  match a with
  | ⟨0, _⟩ => show win1_1.index t 0 * 1 + 1 * (y 0).val = (y 0).val; rw [(idx1_1 t).1]; omega
  | ⟨1, _⟩ => show win1_1.index t 1 * 2 + 1 * (y 1).val = (y 1).val; rw [(idx1_1 t).2]; omega

theorem idx1_2 : ∀ t : Fin cfg1.N, win1_2.index t 0 = 0 ∧ win1_2.index t 1 = 0 :=
  (by decide +kernel : ∀ t : Fin grid1.N, win1_2.index t 0 = 0 ∧ win1_2.index t 1 = 0)
/-- Window 2's block is its whole array at every point. -/
theorem iblk1_2_whole (c : Dev nD) (t : Fin cfg1.N) :
    (iblk1 V c 2 t : Vec F S1x2 .f32) = (V c main_v7_2 : S1x2.Idx → Elt F .f32) := by
  funext y
  unfold iblk1
  rw [View.read_apply]
  show V c main_v7_2 _ = V c main_v7_2 _
  congr 1
  funext a
  apply Fin.ext
  match a with
  | ⟨0, _⟩ => show win1_2.index t 0 * 1 + 1 * (y 0).val = (y 0).val; rw [(idx1_2 t).1]; omega
  | ⟨1, _⟩ => show win1_2.index t 1 * 2 + 1 * (y 1).val = (y 1).val; rw [(idx1_2 t).2]; omega

theorem idx1_3 : ∀ t : Fin cfg1.N, win1_3.index t 0 = 0 ∧ win1_3.index t 1 = 0 :=
  (by decide +kernel : ∀ t : Fin grid1.N, win1_3.index t 0 = 0 ∧ win1_3.index t 1 = 0)
/-- Window 3's block is its whole array at every point. -/
theorem iblk1_3_whole (c : Dev nD) (t : Fin cfg1.N) :
    (iblk1 V c 3 t : Vec F S25x25 .f32) = (V c main_v6 : S25x25.Idx → Elt F .f32) := by
  funext y
  unfold iblk1
  rw [View.read_apply]
  show V c main_v6 _ = V c main_v6 _
  congr 1
  funext a
  apply Fin.ext
  match a with
  | ⟨0, _⟩ => show win1_3.index t 0 * 25 + 1 * (y 0).val = (y 0).val; rw [(idx1_3 t).1]; omega
  | ⟨1, _⟩ => show win1_3.index t 1 * 25 + 1 * (y 1).val = (y 1).val; rw [(idx1_3 t).2]; omega

end Cert.KernelIdeal.Hand

end
-- ==== Proof.Ref.Stages.lean ====
/-
  The reference's stages as pure functions of its argument arrays, one definition per group of its
  host operations, in the order of its @main: the encoder (three affine layers, each followed by tanh), the
  per-column minimum and maximum over the batch, the flat bin index of every row, the table lookup, and the
  result column.
-/
import proofs.«100639_j53171695125388_2_alg».proof.ReferenceIdeal

noncomputable section

namespace Cert.ReferenceIdeal.Hand

open Idealize.ShloMosaic Cert.ReferenceIdeal

variable {F : FTy → Type} [FloatOps F] [Cert.ReferenceIdeal.Facts]
open Cert.ReferenceIdeal.Facts₀ Cert.ReferenceIdeal.Facts

/-- The encoder: tanh (tanh (tanh (x · W1ᵀ + b1) · W2ᵀ + b2) · W3ᵀ + b3), a [2097152, 2] array. -/
def encR (x : FVec F S2097152x32 .f32) (w1 : FVec F S20x32 .f32) (b1 : FVec F S20 .f32) (w2 : FVec F S5x20 .f32)
    (b2 : FVec F S5 .f32) (w3 : FVec F S2x5 .f32) (b3 : FVec F S2 .f32) : FVec F S2097152x2 .f32 :=
  Host.tanh (addf
    (Host.dotGeneral dot_S2097152x5_S5x2_S2097152x2_1_0_0_1_n_n none
      (Host.tanh (addf
        (Host.dotGeneral dot_S2097152x20_S20x5_S2097152x5_1_0_0_1_n_n none
          (Host.tanh (addf
            (Host.dotGeneral dot_S2097152x32_S32x20_S2097152x20_1_0_0_1_n_n none x
              (transpose S32x20 [1, 0] w1 transposes_S20x32_S32x20_1_0))
            (broadcastInDim S2097152x20 ![0, 1] bcast_S1x20_S2097152x20_0_1 (broadcastInDim S1x20 ![1] bcast_S20_S1x20_1 b1))))
          (transpose S20x5 [1, 0] w2 transposes_S5x20_S20x5_1_0))
        (broadcastInDim S2097152x5 ![0, 1] bcast_S1x5_S2097152x5_0_1 (broadcastInDim S1x5 ![1] bcast_S5_S1x5_1 b2))))
      (transpose S5x2 [1, 0] w3 transposes_S2x5_S5x2_1_0))
    (broadcastInDim S2097152x2 ![0, 1] bcast_S1x2_S2097152x2_0_1 (broadcastInDim S1x2 ![1] bcast_S2_S1x2_1 b3)))

/-- The per-column minimum of the encoder's output over the batch, from +∞, as a [1, 2] row. -/
def mnR (e : FVec F S2097152x2 .f32) : FVec F S1x2 .f32 :=
  broadcastInDim S1x2 ![1] bcast_S2_S1x2_1
    (Host.reduce FloatOps.minimumf e (constant S_ .f32 0x7F800000#32) reducesTo_S2097152x2_S2_d0 h_S_)

/-- The per-column maximum over the batch, from −∞, as a [1, 2] row. -/
def mxR (e : FVec F S2097152x2 .f32) : FVec F S1x2 .f32 :=
  broadcastInDim S1x2 ![1] bcast_S2_S1x2_1
    (Host.reduce FloatOps.maximumf e (constant S_ .f32 0xFF800000#32) reducesTo_S2097152x2_S2_d0 h_S_)

/-- The two bin indices of every row, as 32-bit words: ⌊((e − mn) / (mx − mn) · c₁ + c₂) / c₃⌋ converted to an integer. -/
def binsR (e : FVec F S2097152x2 .f32) (mn mx : FVec F S1x2 .f32) : IVec S2097152x2 32 :=
  fptosi 32 (Host.floor (Host.divf
    (addf
      (mulf
        (Host.divf (subf e (broadcastInDim S2097152x2 ![0, 1] bcast_S1x2_S2097152x2_0_1 mn))
          (broadcastInDim S2097152x2 ![0, 1] bcast_S1x2_S2097152x2_0_1 (subf mx mn)))
        (broadcastInDim S2097152x2 ![] bcast_S_S2097152x2 (constant S_ .f32 0x3F7AE148#32)))
      (broadcastInDim S2097152x2 ![] bcast_S_S2097152x2 (constant S_ .f32 0x3C23D70A#32)))
    (broadcastInDim S2097152x2 ![] bcast_S_S2097152x2 (constant S_ .f32 0x3D23D70A#32))))

/-- The flat index of every row into the table of 625 values: 25 · (first bin) + (second bin), on 32-bit words. -/
def flatR (d : IVec S2097152x2 32) : IVec S2097152 32 :=
  addi
    (muli (shapeCast S2097152 (extractStridedSlice S2097152x1 ![0, 0] d slices_S2097152x2_S2097152x1_0_0) shapeCasts_S2097152x1_S2097152)
      (broadcastInDim S2097152 ![] bcast_S_S2097152 (constantI S_ 32 25#32)))
    (shapeCast S2097152 (extractStridedSlice S2097152x1 ![0, 1] d slices_S2097152x2_S2097152x1_0_1) shapeCasts_S2097152x1_S2097152)

/-- The lookup's index column: a negative index is moved up by 625 first. -/
def wrapR (flat : IVec S2097152 32) : IVec S2097152x1 32 :=
  broadcastInDim S2097152x1 ![0] bcast_S2097152_S2097152x1_0
    (select (cmpi .slt flat (broadcastInDim S2097152 ![] bcast_S_S2097152 (constantI S_ 32 0#32)))
      (addi flat (broadcastInDim S2097152 ![] bcast_S_S2097152 (constantI S_ 32 625#32))) flat)

/-- The table lookup: the entry at an index inside [0, 624], a fill value outside. -/
def takeR (bm : FVec F S625 .f32) (flat : IVec S2097152 32) : FVec F S2097152 .f32 :=
  select
    (Host.reduce IntOp.andi
      (andi (cmpi .sge (wrapR flat) (broadcastInDim S2097152x1 ![] bcast_S_S2097152x1 (constantI S_ 32 0#32)))
        (cmpi .sle (wrapR flat)
          (broadcastInDim S2097152x1 ![0, 1] bcast_S1x1_S2097152x1_0_1 (broadcastInDim S1x1 ![1] bcast_S1_S1x1_1 (constantI S1 32 624#32)))))
      (constantI S_ 1 1#1) reducesTo_S2097152x1_S2097152_d1 h_S_)
    (Host.gather gather_S625_S2097152x1_S2097152_n_0_n_n_0_1_1 bm (wrapR flat))
    (broadcastInDim S2097152 ![] bcast_S_S2097152 (constant S_ .f32 0x7FC00000#32))

/-- The reference's result: the looked-up value of every row, as a [2097152, 1] column. -/
def outR (x : FVec F S2097152x32 .f32) (w1 : FVec F S20x32 .f32) (b1 : FVec F S20 .f32) (w2 : FVec F S5x20 .f32)
    (b2 : FVec F S5 .f32) (w3 : FVec F S2x5 .f32) (b3 : FVec F S2 .f32) (bm : FVec F S625 .f32) : FVec F S2097152x1 .f32 :=
  broadcastInDim S2097152x1 ![0] bcast_S2097152_S2097152x1_0
    (takeR bm (flatR (binsR (encR x w1 b1 w2 b2 w3 b3) (mnR (encR x w1 b1 w2 b2 w3 b3)) (mxR (encR x w1 b1 w2 b2 w3 b3)))))

end Cert.ReferenceIdeal.Hand

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseLayer.lean ====
/-
  One dense layer followed by tanh, read at an entry, at the ideal values.

  `layer h A b j = tanh (∑ₖ h k · A (k, j) + b j)` on the extended reals. A kernel computes it on a block of M rows as
  `tanh (addf (tpu.matmul h A 0) (broadcastTo [1,N]→[M,N] b))` (a plain M×K by K×N product into the zero splat, a bias row
  broadcast down the block); a jnp reference as `Host.tanh (addf (dot_general h A) (broadcast_in_dim [1,N]→[M,N]
  (broadcast_in_dim [N]→[1,N] b)))`. Read at (p, j) both are `layer` of row p of the left operand (`layer_kernel`,
  `layer_host`): an entry reads only its own row, so a block of rows and the whole array agree row by row. Any extents.
  Imports this unit's copies of the plain-product lemmas for a kernel's matmul and the host's dot_general.
-/
import proofs.«100639_j53171695125388_2_alg».proof.Proof.LibPlainDot
import proofs.«100639_j53171695125388_2_alg».proof.Proof.LibHostDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Hand.Spec

open Idealize.ShloMosaic Idealize.ShloMosaic.ValueIdx

/-- One affine layer followed by tanh, at output coordinate j: tanh (∑ₖ h k · A (k, j) + b j). -/
def layer {K N : ℕ} (h : Fin K → EReal) (A : (⟨2, ![K, N]⟩ : Shape).Idx → EReal) (b : Fin N → EReal) (j : Fin N) : EReal :=
  Ideal.tanh ((∑ k : Fin K, h k * A (ix2 k j)) + b j)

/-- A kernel's layer on a block of M rows, read at an entry. -/
theorem layer_kernel {M K N : ℕ} (prec : Option ContractPrecision) (h : FVec Ideal ⟨2, ![M, K]⟩ .f32)
    (A : FVec Ideal ⟨2, ![K, N]⟩ .f32) (b : FVec Ideal ⟨2, ![1, N]⟩ .f32)
    (hb : (⟨2, ![1, N]⟩ : Shape).Broadcasts ⟨2, ![M, N]⟩) (p : Fin M) (j : Fin N) :
    tanh (addf (matmul (DotDims.plain M K N) prec h A (constant (F := Ideal) ⟨2, ![M, N]⟩ .f32 0x00000000#32))
        (broadcastTo ⟨2, ![M, N]⟩ b hb)) (ix2 p j)
      = layer (fun k => h (ix2 p k)) A (fun k => b (ix2 0 k)) j := by
  show Ideal.tanh (_ + _) = _
  rw [Cert.PlainDot.matmul_zero_plain_apply, broadcastTo_1b_ab_apply]
  rfl

/-- The reference's layer on all M rows, read at an entry. -/
theorem layer_host {M K N : ℕ} (prec : Option ContractPrecision) (h : FVec Ideal ⟨2, ![M, K]⟩ .f32)
    (A : FVec Ideal ⟨2, ![K, N]⟩ .f32) (b : FVec Ideal ⟨1, ![N]⟩ .f32)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2)) (p : Fin M) (j : Fin N) :
    Host.tanh (F := Ideal) (addf (Host.dotGeneral (DotDims.plain M K N) prec h A)
        (broadcastInDim ⟨2, ![M, N]⟩ ![0, 1] hb2 (broadcastInDim ⟨2, ![1, N]⟩ ![1] hb1 b))) (ix2 p j)
      = layer (fun k => h (ix2 p k)) A (fun k => b (ix1 k)) j := by
  show Ideal.tanh (_ + _) = _
  rw [Cert.HostDot.dotGeneral_plain_apply]
  rw [broadcastInDim_apply (![0, 1] : Fin 2 → Fin 2) hb2 _ (ix2 p j) (ix2 0 j) (fun a => by
    match a with
    | ⟨0, _⟩ => rfl
    | ⟨1, _⟩ =>
      show j.val = if N = 1 then 0 else j.val
      split
      · have := j.isLt; omega
      · rfl)]
  rw [broadcastInDim_apply (![1] : Fin 1 → Fin 2) hb1 _ (ix2 0 j) (ix1 j) (fun a => by
    match a with
    | ⟨0, _⟩ =>
      show j.val = if N = 1 then 0 else j.val
      split
      · have := j.isLt; omega
      · rfl)]
  rfl

end Cert.Hand.Spec

end
-- ==== Proof.Value.EncRow.lean ====
/-
  One row of the encoder, on the extended reals: three affine layers, each followed by tanh,
  e = tanh (tanh (tanh (x · A₁ + b₁) · A₂ + b₂) · A₃ + b₃), with A₁ : 32×20, A₂ : 20×5, A₃ : 5×2.
  Both programs compute it entry by entry: the kernel on a block of 8192 rows, the reference on all rows at once; each
  entry of either reads only its own row of x.
-/
import proofs.«100639_j53171695125388_2_alg».proof.Proof.Gen.KernelIdeal.Skeleton
import proofs.«100639_j53171695125388_2_alg».proof.Proof.Ref.Stages
import proofs.«100639_j53171695125388_2_alg».proof.Proof.LibDenseLayer

noncomputable section

open scoped BigOperators

namespace Cert.Hand.Spec

open Idealize.ShloMosaic Idealize.ShloMosaic.ValueIdx

/-- The encoder's row: the three layers composed. -/
def encRow (x : Fin 32 → EReal) (A1 : (⟨2, ![32, 20]⟩ : Shape).Idx → EReal) (b1 : Fin 20 → EReal)
    (A2 : (⟨2, ![20, 5]⟩ : Shape).Idx → EReal) (b2 : Fin 5 → EReal)
    (A3 : (⟨2, ![5, 2]⟩ : Shape).Idx → EReal) (b3 : Fin 2 → EReal) (j : Fin 2) : EReal :=
  layer (layer (layer x A1 b1) A2 b2) A3 b3 j

end Cert.Hand.Spec

end
-- ==== Proof.Value.Enc.lean ====
/-
  The encoder read at an entry in both programs: the kernel's payload on a block of 8192 rows and the reference's
  stage on all 2097152 rows are, entry by entry, the encoder's row (three affine layers with tanh) of that row of x.
-/
import proofs.«100639_j53171695125388_2_alg».proof.Proof.Value.EncRow

noncomputable section

open scoped BigOperators

namespace Cert.Hand.Spec

open Idealize.ShloMosaic Idealize.ShloMosaic.ValueIdx

/-- The kernel's encoded block at row p, column j: the encoder's row of the block's row p, with the weight blocks as
    they are and the bias rows read at their one row. -/
theorem k0_pay3_apply [Cert.KernelIdeal.Facts] (x0 : Vec Ideal Cert.KernelIdeal.S8192x32 .f32) (A1 : Vec Ideal Cert.KernelIdeal.S32x20 .f32)
    (b1r : Vec Ideal Cert.KernelIdeal.S1x20 .f32) (A2 : Vec Ideal Cert.KernelIdeal.S20x5 .f32) (b2r : Vec Ideal Cert.KernelIdeal.S1x5 .f32)
    (A3 : Vec Ideal Cert.KernelIdeal.S5x2 .f32) (b3r : Vec Ideal Cert.KernelIdeal.S1x2 .f32) (p : Fin 8192) (j : Fin 2) :
    Cert.KernelIdeal.Gen.k0_pay3 (F := Ideal) x0 A1 b1r A2 b2r A3 b3r (ix2 p j)
      = encRow (fun k => x0 (ix2 p k)) A1 (fun k => b1r (ix2 0 k)) A2 (fun k => b2r (ix2 0 k)) A3 (fun k => b3r (ix2 0 k)) j := by
  unfold Cert.KernelIdeal.Gen.k0_pay3 encRow
  simp only [shapeCast_self]
  rw [show Cert.KernelIdeal.dot_S8192x5_S5x2_S8192x2_1_0_0_1_n_n = DotDims.plain 8192 5 2 from rfl,
    show Cert.KernelIdeal.dot_S8192x20_S20x5_S8192x5_1_0_0_1_n_n = DotDims.plain 8192 20 5 from rfl,
    show Cert.KernelIdeal.dot_S8192x32_S32x20_S8192x20_1_0_0_1_n_n = DotDims.plain 8192 32 20 from rfl]
  simp only [layer_kernel]

/-- The reference's encoder stage at row r, column j: the encoder's row of x's row r, with the transposed weights and
    the bias vectors. -/
theorem encR_apply [Cert.ReferenceIdeal.Facts] (x : FVec Ideal Cert.ReferenceIdeal.S2097152x32 .f32) (w1 : FVec Ideal Cert.ReferenceIdeal.S20x32 .f32)
    (b1 : FVec Ideal Cert.ReferenceIdeal.S20 .f32) (w2 : FVec Ideal Cert.ReferenceIdeal.S5x20 .f32) (b2 : FVec Ideal Cert.ReferenceIdeal.S5 .f32)
    (w3 : FVec Ideal Cert.ReferenceIdeal.S2x5 .f32) (b3 : FVec Ideal Cert.ReferenceIdeal.S2 .f32) (r : Fin 2097152) (j : Fin 2) :
    Cert.ReferenceIdeal.Hand.encR (F := Ideal) x w1 b1 w2 b2 w3 b3 (ix2 r j)
      = encRow (fun k => x (ix2 r k))
          (transpose Cert.ReferenceIdeal.S32x20 [1, 0] w1 Cert.ReferenceIdeal.Facts₀.transposes_S20x32_S32x20_1_0) (fun k => b1 (ix1 k))
          (transpose Cert.ReferenceIdeal.S20x5 [1, 0] w2 Cert.ReferenceIdeal.Facts₀.transposes_S5x20_S20x5_1_0) (fun k => b2 (ix1 k))
          (transpose Cert.ReferenceIdeal.S5x2 [1, 0] w3 Cert.ReferenceIdeal.Facts₀.transposes_S2x5_S5x2_1_0) (fun k => b3 (ix1 k)) j := by
  unfold Cert.ReferenceIdeal.Hand.encR encRow
  rw [show Cert.ReferenceIdeal.dot_S2097152x5_S5x2_S2097152x2_1_0_0_1_n_n = DotDims.plain 2097152 5 2 from rfl,
    show Cert.ReferenceIdeal.dot_S2097152x20_S20x5_S2097152x5_1_0_0_1_n_n = DotDims.plain 2097152 20 5 from rfl,
    show Cert.ReferenceIdeal.dot_S2097152x32_S32x20_S2097152x20_1_0_0_1_n_n = DotDims.plain 2097152 32 20 from rfl]
  refine (layer_host none _ _ b3 Cert.ReferenceIdeal.Facts₀.bcast_S2_S1x2_1 Cert.ReferenceIdeal.Facts₀.bcast_S1x2_S2097152x2_0_1 r j).trans ?_
  refine congrArg (fun h => layer h _ _ j) (funext fun k => ?_)
  refine (layer_host none _ _ b2 Cert.ReferenceIdeal.Facts₀.bcast_S5_S1x5_1 Cert.ReferenceIdeal.Facts₀.bcast_S1x5_S2097152x5_0_1 r k).trans ?_
  refine congrArg (fun h => layer h _ _ k) (funext fun k' => ?_)
  exact layer_host none x _ b1 Cert.ReferenceIdeal.Facts₀.bcast_S20_S1x20_1 Cert.ReferenceIdeal.Facts₀.bcast_S1x20_S2097152x20_0_1 r k'

end Cert.Hand.Spec

end
-- ==== Proof.Value.EncArr.lean ====
/-
  The encoder call's first result array. Point t of the grid writes back the encoding of rows 8192·t … 8192·t + 8191,
  and the 256 blocks tile the array, so after the call the array holds the reference's encoder stage of the arguments:
  entry (r, j) of either is the encoder's row of row r of x.
-/
import proofs.«100639_j53171695125388_2_alg».proof.Proof.Value.Blocks
import proofs.«100639_j53171695125388_2_alg».proof.Proof.Value.Enc

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Hand.Spec Cert.ReferenceIdeal.Hand

variable [Cert.ReferenceIdeal.Facts]
variable (V : (c : Dev nD) → (b : Ref sig .tc) → Buf (Elt Ideal) ((c : Thread nD τ).loc b)) (c : Dev nD)
variable (x : FVec Ideal S2097152x32 .f32) (w1 : FVec Ideal S20x32 .f32) (b1 : FVec Ideal S20 .f32) (w2 : FVec Ideal S5x20 .f32)
  (b2 : FVec Ideal S5 .f32) (w3 : FVec Ideal S2x5 .f32) (b3 : FVec Ideal S2 .f32)

/-- What the encoder call finds in its input arrays: x itself, the three transposed weight matrices, the three bias
    vectors as rows. -/
structure Entry0 : Prop where
  hx : (V c main_arg0 : S2097152x32.Idx → Elt Ideal .f32) = x
  hA1 : (V c main_v0 : S32x20.Idx → Elt Ideal .f32) = transpose S32x20 [1, 0] w1 Cert.KernelIdeal.Facts₀.transposes_S20x32_S32x20_1_0
  hA2 : (V c main_v1 : S20x5.Idx → Elt Ideal .f32) = transpose S20x5 [1, 0] w2 Cert.KernelIdeal.Facts₀.transposes_S5x20_S20x5_1_0
  hA3 : (V c main_v2 : S5x2.Idx → Elt Ideal .f32) = transpose S5x2 [1, 0] w3 Cert.KernelIdeal.Facts₀.transposes_S2x5_S5x2_1_0
  hb1 : (V c main_v3 : S1x20.Idx → Elt Ideal .f32) = shapeCast S1x20 b1 Cert.KernelIdeal.Facts₀.shapeCasts_S20_S1x20
  hb2 : (V c main_v4 : S1x5.Idx → Elt Ideal .f32) = shapeCast S1x5 b2 Cert.KernelIdeal.Facts₀.shapeCasts_S5_S1x5
  hb3 : (V c main_v5 : S1x2.Idx → Elt Ideal .f32) = shapeCast S1x2 b3 Cert.KernelIdeal.Facts₀.shapeCasts_S2_S1x2

variable {V c x w1 b1 w2 b2 w3 b3}

/-- The encoding of point t's block at (p, j) is the reference's encoder stage at row 8192·t + p. -/
theorem enc0_apply (h : Entry0 V c x w1 b1 w2 b2 w3 b3) (t : Fin cfg0.N) (p : Fin 8192) (j : Fin 2) (r : Fin 2097152)
    (hr : r.val = t.val * 8192 + p.val) :
    enc0 (F := Ideal) V c t (ix2 p j) = encR (F := Ideal) x w1 b1 w2 b2 w3 b3 (ix2 r j) := by
  unfold enc0
  rw [k0_pay3_apply, encR_apply, iblk0_1_whole, iblk0_2_whole, iblk0_3_whole, iblk0_4_whole, iblk0_5_whole, iblk0_6_whole,
    h.hA1, h.hA2, h.hA3, h.hb1, h.hb2, h.hb3]
  have hrow : (fun k : Fin 32 => (iblk0 V c 0 t : Vec Ideal S8192x32 .f32) (ix2 p k)) = fun k => x (ix2 r k) :=
    funext fun k => (iblk0_0_rows V c t p k (ix2 r k) hr rfl).trans (congrFun h.hx _)
  rw [hrow]
  simp only [shapeCast_a_1a_apply]

theorem idx0_7 : ∀ t : Fin cfg0.N, win0_7.index t 0 = t.val ∧ win0_7.index t 1 = 0 :=
  (by decide +kernel : ∀ t : Fin grid0.N, win0_7.index t 0 = t.val ∧ win0_7.index t 1 = 0)

/-- What point t writes back to the first result array is block t of the reference's encoder stage. -/
theorem flushed0_7 (h : Entry0 V c x w1 b1 w2 b2 w3 b3) (t : Fin cfg0.N) :
    (dat0 V c).flushed 7 t = ((cfg0.win 7).blk t).view.read (Elt Ideal) (encR (F := Ideal) x w1 b1 w2 b2 w3 b3) := by
  show (cfg0.win 7).cut (grid0.coords t) ((dat0 V c).after 7 t) = _
  rw [after0_7]
  have hN : cfg0.N = 256 := N_0
  have ht : t.val < 256 := hN ▸ t.isLt
  have key : ∀ y : S8192x2.Idx, enc0 (F := Ideal) V c t y
      = (encR (F := Ideal) x w1 b1 w2 b2 w3 b3 : S2097152x2.Idx → Elt Ideal .f32) (((cfg0.win 7).blk t).view.emb y) := by
    intro y
    obtain ⟨p, j, rfl⟩ : ∃ (p : Fin 8192) (j : Fin 2), y = ix2 p j := ⟨y 0, y 1, eq_ix2 y⟩
    refine (enc0_apply h t p j ⟨t.val * 8192 + p.val, by omega⟩ rfl).trans ?_
    congr 1
    funext a
    apply Fin.ext
    match a with
    | ⟨0, _⟩ => show t.val * 8192 + p.val = win0_7.index t 0 * 8192 + 1 * p.val; rw [(idx0_7 t).1]; omega
    | ⟨1, _⟩ => show j.val = win0_7.index t 1 * 2 + 1 * j.val; rw [(idx0_7 t).2]; omega
  funext y
  rw [View.read_apply]
  exact key y

/-- An index of the first result array is in point t's block iff each coordinate is in the block's range. -/
theorem mem_blk0_7 (t : Fin cfg0.N) (i : S2097152x2.Idx) :
    i ∈ ((cfg0.win 7).blk t).view.set ↔ ∀ a : Fin 2, win0_7.index t a * S8192x2.size a ≤ (i a).val ∧ (i a).val < win0_7.index t a * S8192x2.size a + S8192x2.size a := by
  show i ∈ ((View.whole main_v7_0).slice (win0_7.rect t)).set ↔ _
  rw [View.set_slice_whole, Rect.mem_set_unit]
  exact Iff.rfl

/-- After the encoder call the first result array is the reference's encoder stage. -/
theorem arr7 (h : Entry0 V c x w1 b1 w2 b2 w3 b3) :
    ((dat0 V c).arrAt 7 cfg0.N : S2097152x2.Idx → Elt Ideal .f32) = encR (F := Ideal) x w1 b1 w2 b2 w3 b3 :=
  (dat0 V c).arrAt_eq_of_cover 7 _ (fun t _ => flushed0_7 h t) fun i => by
    have hi0 : (i 0).val < 2097152 := (i 0).isLt
    have hi1 : (i 1).val < 2 := (i 1).isLt
    have hN : cfg0.N = 256 := N_0
    refine ⟨⟨(i 0).val / 8192, by omega⟩, flush0_7 _, ?_⟩
    rw [mem_blk0_7]
    intro a
    match a with
    | ⟨0, _⟩ =>
      show win0_7.index ⟨(i 0).val / 8192, _⟩ 0 * 8192 ≤ (i 0).val ∧ (i 0).val < win0_7.index ⟨(i 0).val / 8192, _⟩ 0 * 8192 + 8192
      rw [(idx0_7 _).1]; show (i 0).val / 8192 * 8192 ≤ (i 0).val ∧ (i 0).val < (i 0).val / 8192 * 8192 + 8192; omega
    | ⟨1, _⟩ =>
      show win0_7.index ⟨(i 0).val / 8192, _⟩ 1 * 2 ≤ (i 1).val ∧ (i 1).val < win0_7.index ⟨(i 0).val / 8192, _⟩ 1 * 2 + 2
      rw [(idx0_7 _).2]; omega

end Cert.KernelIdeal.Hand

end
-- ==== Proof.LibColumnExtrema.lean ====
/-
  Column minima and maxima of an M×N array of extended reals, said by their bounds.

  A kernel's `vector.multi_reduction <minimumf>` over axis 0 from the +∞ word, and the host's `stablehlo.reduce` with a
  minimum body over axis 0 from a +∞ constant, read at column j, are each determined by their lower bounds: a value is
  below the result exactly when it is below every entry (p, j) of the column. Likewise `<maximumf>` from the −∞ word and
  upper bounds. Two reductions with the same bounds are equal (`eq_of_forall_le_iff` / `eq_of_forall_ge_iff`), so a
  minimum taken block by block and combined, and a minimum over all rows, are joined without naming an order.
  Also: the source index over column j with row k is (k, j) (`lift_axis0`), the f32 words 0x7F800000 and 0xFF800000 at the
  ideal values are ⊤ and ⊥, and a fold of min from ⊤ (max from ⊥) over a finite type by its bounds. Any extents M, N; the
  host lemmas take the program's printed `ReducesTo` fact and a `Reduces` fact for the same shapes
  (`⟨h'.1, Nat.one_pos, h'.2⟩` builds the second from the first).
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Hand.Spec

open Idealize.ShloMosaic Idealize.ShloMosaic.ValueIdx

set_option backward.isDefEq.respectTransparency.types false in
/-- Over a column index j of an M×N array reduced along its rows, the source index with row k is (k, j). -/
theorem lift_axis0 {M N : ℕ} (h : (⟨2, ![M, N]⟩ : Shape).Reduces [(0 : Fin 2)] ⟨1, ![N]⟩) (j : Fin N) (k : Fin M) :
    h.lift (ix1 j) k = ix2 k j := by
  funext c
  apply Fin.ext
  rw [h.lift_val]
  unfold Shape.Reduces.liftVal
  match c with
  | ⟨0, _⟩ => simp
  | ⟨1, _⟩ => simp

theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-- A value is below a fold of min from +∞ exactly when it is below every term. -/
theorem le_fold_min_top {ι : Type} [Fintype ι] (f : ι → EReal) (a : EReal) :
    a ≤ (Finset.univ : Finset ι).fold min ⊤ f ↔ ∀ k, a ≤ f k := by
  rw [Finset.le_fold_min]
  simp

/-- A fold of max from −∞ is below a value exactly when every term is. -/
theorem fold_max_bot_le {ι : Type} [Fintype ι] (f : ι → EReal) (a : EReal) :
    (Finset.univ : Finset ι).fold max ⊥ f ≤ a ↔ ∀ k, f k ≤ a := by
  rw [Finset.fold_max_le]
  simp

set_option backward.isDefEq.respectTransparency.types false in
/-- The kernel's column minimum of a block, from +∞: its lower bounds are those of the block's column. -/
theorem le_colMin_iff {M N : ℕ} (v : FVec Ideal ⟨2, ![M, N]⟩ .f32) (h : (⟨2, ![M, N]⟩ : Shape).Reduces [(0 : Fin 2)] ⟨1, ![N]⟩)
    (hφ : FKind.Formats .f32) (hacc : (0x7F800000#32 : BitVec 32) = FKind.minimumf.neutral .f32 hφ) (j : Fin N) (a : EReal) :
    a ≤ multiReduction .minimumf [(0 : Fin 2)] ⟨1, ![N]⟩ v 0x7F800000#32 h hφ hacc (ix1 j) ↔ ∀ p : Fin M, a ≤ v (ix2 p j) := by
  rw [multiReduction_minimumf_eq_fold, h.fold_filter_drop_single]
  show a ≤ (Finset.univ : Finset (Fin M)).fold min (Ideal.ofBits .f32 0x7F800000#32) _ ↔ _
  rw [ofBits_posInf, le_fold_min_top]
  refine forall_congr' fun p => ?_
  show a ≤ v (h.lift (ix1 j) p) ↔ _
  rw [lift_axis0]

set_option backward.isDefEq.respectTransparency.types false in
/-- The kernel's column maximum of a block, from −∞: its upper bounds are those of the block's column. -/
theorem colMax_le_iff {M N : ℕ} (v : FVec Ideal ⟨2, ![M, N]⟩ .f32) (h : (⟨2, ![M, N]⟩ : Shape).Reduces [(0 : Fin 2)] ⟨1, ![N]⟩)
    (hφ : FKind.Formats .f32) (hacc : (0xFF800000#32 : BitVec 32) = FKind.maximumf.neutral .f32 hφ) (j : Fin N) (a : EReal) :
    multiReduction .maximumf [(0 : Fin 2)] ⟨1, ![N]⟩ v 0xFF800000#32 h hφ hacc (ix1 j) ≤ a ↔ ∀ p : Fin M, v (ix2 p j) ≤ a := by
  rw [multiReduction_maximumf_eq_fold, h.fold_filter_drop_single]
  show (Finset.univ : Finset (Fin M)).fold max (Ideal.ofBits .f32 0xFF800000#32) _ ≤ a ↔ _
  rw [ofBits_negInf, fold_max_bot_le]
  refine forall_congr' fun p => ?_
  show v (h.lift (ix1 j) p) ≤ a ↔ _
  rw [lift_axis0]

set_option backward.isDefEq.respectTransparency.types false in
/-- The reference's column minimum over all rows, from +∞. -/
theorem le_hostColMin_iff {M N : ℕ} (v : FVec Ideal ⟨2, ![M, N]⟩ .f32) (h' : (⟨2, ![M, N]⟩ : Shape).ReducesTo [(0 : Fin 2)] ⟨1, ![N]⟩)
    (h : (⟨2, ![M, N]⟩ : Shape).Reduces [(0 : Fin 2)] ⟨1, ![N]⟩) (hu : 0 < (⟨0, ![]⟩ : Shape).numel) (j : Fin N) (a : EReal) :
    a ≤ Host.reduce FloatOps.minimumf v (constant (F := Ideal) ⟨0, ![]⟩ .f32 0x7F800000#32) h' hu (ix1 j) ↔ ∀ p : Fin M, a ≤ v (ix2 p j) := by
  rw [Host.reduce_eq_fold_single FloatOps.minimumf v _ h' h hu]
  show a ≤ (Finset.univ : Finset (Fin M)).fold min (Ideal.ofBits .f32 0x7F800000#32) _ ↔ _
  rw [ofBits_posInf, le_fold_min_top]
  refine forall_congr' fun p => ?_
  show a ≤ v (h.lift (ix1 j) p) ↔ _
  rw [lift_axis0]

set_option backward.isDefEq.respectTransparency.types false in
/-- The reference's column maximum over all rows, from −∞. -/
theorem hostColMax_le_iff {M N : ℕ} (v : FVec Ideal ⟨2, ![M, N]⟩ .f32) (h' : (⟨2, ![M, N]⟩ : Shape).ReducesTo [(0 : Fin 2)] ⟨1, ![N]⟩)
    (h : (⟨2, ![M, N]⟩ : Shape).Reduces [(0 : Fin 2)] ⟨1, ![N]⟩) (hu : 0 < (⟨0, ![]⟩ : Shape).numel) (j : Fin N) (a : EReal) :
    Host.reduce FloatOps.maximumf v (constant (F := Ideal) ⟨0, ![]⟩ .f32 0xFF800000#32) h' hu (ix1 j) ≤ a ↔ ∀ p : Fin M, v (ix2 p j) ≤ a := by
  rw [Host.reduce_eq_fold_single FloatOps.maximumf v _ h' h hu]
  show (Finset.univ : Finset (Fin M)).fold max (Ideal.ofBits .f32 0xFF800000#32) _ ≤ a ↔ _
  rw [ofBits_negInf, fold_max_bot_le]
  refine forall_congr' fun p => ?_
  show v (h.lift (ix1 j) p) ≤ a ↔ _
  rw [lift_axis0]

end Cert.Hand.Spec

end
-- ==== Proof.Value.MinMax.lean ====
/-
  Minima and maxima over the batch, by their bounds: a column minimum over a block of rows, a running minimum of block
  minima, and the reference's column minimum over all rows are each determined by their lower bounds (and maxima by their
  upper bounds). The statements are in the general module imported here.
-/
import proofs.«100639_j53171695125388_2_alg».proof.Proof.LibColumnExtrema
-- ==== Proof.Value.MinMaxArr.lean ====
/-
  The two carried arrays after the encoder call. Each grid point folds its block's per-column minimum (maximum) of the
  encoding into a running value, and the last point writes the running value back. A minimum is determined by its lower
  bounds and a maximum by its upper bounds: the running minimum after the last point is below exactly the values that are
  below the encoding of every row of every block, and the blocks are the rows of the whole array, so it is the
  reference's column minimum over the batch. Likewise the maximum.
-/
import proofs.«100639_j53171695125388_2_alg».proof.Proof.Value.Blocks
import proofs.«100639_j53171695125388_2_alg».proof.Proof.Value.MinMax
import proofs.«100639_j53171695125388_2_alg».proof.Proof.Value.EncArr

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Hand.Spec Cert.ReferenceIdeal.Hand

variable [Cert.ReferenceIdeal.Facts]
variable {V : (c : Dev nD) → (b : Ref sig .tc) → Buf (Elt Ideal) ((c : Thread nD τ).loc b)} {c : Dev nD}
variable {x : FVec Ideal S2097152x32 .f32} {w1 : FVec Ideal S20x32 .f32} {b1 : FVec Ideal S20 .f32} {w2 : FVec Ideal S5x20 .f32}
  {b2 : FVec Ideal S5 .f32} {w3 : FVec Ideal S2x5 .f32} {b3 : FVec Ideal S2 .f32}

/-! ## The minimum: the block's, the running one, the reference's -/

/-- A value is below the block's column minimum exactly when it is below every row's entry of the column. -/
theorem le_pay4_iff (v0 : Vec Ideal S8192x32 .f32) (v1 : Vec Ideal S32x20 .f32) (v4 : Vec Ideal S1x20 .f32) (v9 : Vec Ideal S20x5 .f32)
    (v12 : Vec Ideal S1x5 .f32) (v17 : Vec Ideal S5x2 .f32) (v20 : Vec Ideal S1x2 .f32) (u : Fin 1) (j : Fin 2) (a : EReal) :
    a ≤ k0_pay4 (F := Ideal) v0 v1 v4 v9 v12 v17 v20 (ix2 u j) ↔
      ∀ p : Fin 8192, a ≤ k0_pay3 (F := Ideal) v0 v1 v4 v9 v12 v17 v20 (ix2 p j) := by
  unfold k0_pay4
  show a ≤ shapeCast S1x2 (multiReduction .minimumf [0] S2 (k0_pay3 (F := Ideal) v0 v1 v4 v9 v12 v17 v20) 0x7F800000#32 Cert.KernelIdeal.Facts₀.reduces_S8192x2_S2 (.inl rfl) rfl) Cert.KernelIdeal.Facts₀.shapeCasts_S2_S1x2 (ix2 u j) ↔ _
  rw [shapeCast_a_1a_apply]
  exact le_colMin_iff _ _ _ _ j a

/-- At point t, likewise, over the encoding of the point's rows. -/
theorem le_bmn0_iff (V : (c : Dev nD) → (b : Ref sig .tc) → Buf (Elt Ideal) ((c : Thread nD τ).loc b)) (c : Dev nD)
    (t : Fin cfg0.N) (u : Fin 1) (j : Fin 2) (a : EReal) :
    a ≤ (bmn0 (F := Ideal) V c t : Vec Ideal S1x2 .f32) (ix2 u j) ↔
      ∀ p : Fin 8192, a ≤ (enc0 (F := Ideal) V c t : Vec Ideal S8192x2 .f32) (ix2 p j) := by
  unfold bmn0 enc0
  exact le_pay4_iff (iblk0 V c 0 t) (iblk0 V c 1 t) (iblk0 V c 2 t) (iblk0 V c 3 t) (iblk0 V c 4 t) (iblk0 V c 5 t) (iblk0 V c 6 t) u j a

/-- Combining the block's minimum with an earlier value takes the minimum of the two, entry by entry. -/
theorem k0_pay1_apply (b : FVec Ideal S1x2 .f32) (prev : Vec Ideal S1x2 .f32) (i : S1x2.Idx) :
    k0_pay1 (F := Ideal) b prev i = min (prev i) (b i) := by
  unfold k0_pay1
  show minimumf (shapeCast S1x2 prev Cert.KernelIdeal.Facts₀.shapeCasts_S1x2_S1x2) b i = _
  rw [minimumf_apply, shapeCast_self]

/-- The running minimum after point n has as lower bounds exactly the encodings of all rows of the points up to n. -/
theorem le_mnAt_iff (V : (c : Dev nD) → (b : Ref sig .tc) → Buf (Elt Ideal) ((c : Thread nD τ).loc b)) (c : Dev nD)
    (n : ℕ) (hn : n < cfg0.N) (u : Fin 1) (j : Fin 2) (a : EReal) :
    a ≤ (mnAt (F := Ideal) V c n hn : Vec Ideal S1x2 .f32) (ix2 u j) ↔
      ∀ t : Fin cfg0.N, t.val ≤ n → ∀ p : Fin 8192, a ≤ (enc0 (F := Ideal) V c t : Vec Ideal S8192x2 .f32) (ix2 p j) := by
  induction n with
  | zero =>
    show a ≤ (bmn0 (F := Ideal) V c ⟨0, hn⟩ : Vec Ideal S1x2 .f32) (ix2 u j) ↔ _
    rw [le_bmn0_iff]
    constructor
    · intro H t ht p
      obtain rfl : t = ⟨0, hn⟩ := Fin.ext (Nat.le_zero.mp ht)
      exact H p
    · intro H p
      exact H ⟨0, hn⟩ (Nat.le_refl _) p
  | succ n ih =>
    show a ≤ k0_pay1 (F := Ideal) (bmn0 (F := Ideal) V c ⟨n + 1, hn⟩) (mnAt (F := Ideal) V c n (Nat.lt_of_succ_lt hn)) (ix2 u j) ↔ _
    rw [k0_pay1_apply, le_min_iff, ih, le_bmn0_iff]
    constructor
    · rintro ⟨H1, H2⟩ t ht p
      rcases Nat.lt_or_eq_of_le ht with hlt | heq
      · exact H1 t (Nat.lt_succ_iff.mp hlt) p
      · obtain rfl : t = ⟨n + 1, hn⟩ := Fin.ext heq
        exact H2 p
    · intro H
      exact ⟨fun t ht p => H t (Nat.le_succ_of_le ht) p, fun p => H ⟨n + 1, hn⟩ (Nat.le_refl _) p⟩

/-- The reference's column minimum over all rows has as lower bounds exactly all entries of the column. -/
theorem le_mnR_iff (e : FVec Ideal S2097152x2 .f32) (u : Fin 1) (j : Fin 2) (a : EReal) :
    a ≤ mnR (F := Ideal) e (ix2 u j) ↔ ∀ r : Fin 2097152, a ≤ e (ix2 r j) := by
  unfold mnR
  rw [broadcastInDim_apply ![1] _ _ (ix2 u j) (ix1 j) (fun a => by match a with | ⟨0, _⟩ => rfl)]
  exact le_hostColMin_iff e Cert.ReferenceIdeal.Facts₀.reducesTo_S2097152x2_S2_d0
    ⟨Cert.ReferenceIdeal.Facts₀.reducesTo_S2097152x2_S2_d0.1, Nat.one_pos, Cert.ReferenceIdeal.Facts₀.reducesTo_S2097152x2_S2_d0.2⟩
    Cert.ReferenceIdeal.Facts₀.h_S_ j a

/-- So after the last point the running minimum is the reference's: row r of the array is row r mod 8192 of
    point r / 8192, and every point's every row is some row of the array. -/
theorem mnAt_last (h : Entry0 V c x w1 b1 w2 b2 w3 b3) (n : ℕ) (hn : n < cfg0.N) (hlast : n = 255) :
    (mnAt (F := Ideal) V c n hn : S1x2.Idx → Elt Ideal .f32) = mnR (F := Ideal) (encR (F := Ideal) x w1 b1 w2 b2 w3 b3) := by
  have hN : cfg0.N = 256 := N_0
  funext i
  obtain ⟨u, j, rfl⟩ : ∃ (u : Fin 1) (j : Fin 2), i = ix2 u j := ⟨i 0, i 1, eq_ix2 i⟩
  refine eq_of_forall_le_iff fun a => ?_
  rw [le_mnAt_iff, le_mnR_iff]
  constructor
  · intro H r
    have hr : r.val < 2097152 := r.isLt
    have key := H ⟨r.val / 8192, by rw [hN]; omega⟩ (by show r.val / 8192 ≤ n; omega) ⟨r.val % 8192, Nat.mod_lt _ (by omega)⟩
    rwa [enc0_apply h _ _ j r (by show r.val = r.val / 8192 * 8192 + r.val % 8192; omega)] at key
  · intro H t _ p
    have ht : t.val < 256 := lt_of_lt_of_eq t.isLt hN
    have hp : p.val < 8192 := p.isLt
    rw [enc0_apply h t p j ⟨t.val * 8192 + p.val, by omega⟩ rfl]
    exact H _

/-! ## The minimum's array after the call -/

/-- Window 8's block is its whole array at every point. -/
theorem idx0_8 : ∀ t : Fin cfg0.N, win0_8.index t 0 = 0 ∧ win0_8.index t 1 = 0 :=
  (by decide +kernel : ∀ t : Fin grid0.N, win0_8.index t 0 = 0 ∧ win0_8.index t 1 = 0)

/-- So a [1, 2] array read through the block is the array. -/
theorem read_blk0_8 (t : Fin cfg0.N) (G : S1x2.Idx → Elt Ideal .f32) :
    (((cfg0.win 8).blk t).view.read (Elt Ideal) G : S1x2.Idx → Elt Ideal .f32) = G := by
  funext y
  rw [View.read_apply]
  show G _ = G _
  congr 1
  funext a
  apply Fin.ext
  match a with
  | ⟨0, _⟩ => show win0_8.index t 0 * 1 + 1 * (y 0).val = (y 0).val; rw [(idx0_8 t).1]; omega
  | ⟨1, _⟩ => show win0_8.index t 1 * 2 + 1 * (y 1).val = (y 1).val; rw [(idx0_8 t).2]; omega

/-- The array is written back once, at the last point, whole: it ends holding the reference's column minimum of the
    encoder stage. -/
theorem arr8 (h : Entry0 V c x w1 b1 w2 b2 w3 b3) :
    ((dat0 V c).arrAt 8 cfg0.N : S1x2.Idx → Elt Ideal .f32) = mnR (F := Ideal) (encR (F := Ideal) x w1 b1 w2 b2 w3 b3) := by
  have hN : cfg0.N = 256 := N_0
  refine (dat0 V c).arrAt_eq_of_cover 8 (mnR (F := Ideal) (encR (F := Ideal) x w1 b1 w2 b2 w3 b3)) (fun t hf => ?_) (fun i => ?_)
  · have h1 : t.val = 255 := by have := (flush0_8 t).mp hf; have := t.isLt; omega
    show (cfg0.win 8).cut (grid0.coords t) ((dat0 V c).after 8 t) = _
    rw [after0_8, read_blk0_8]
    exact mnAt_last h t.val t.isLt h1
  · have h255 : 255 < cfg0.N := by rw [hN]; omega
    refine ⟨⟨255, h255⟩, (flush0_8 _).mpr rfl, ?_⟩
    show i ∈ ((View.whole main_v7_1).slice (win0_8.rect ⟨255, h255⟩)).set
    rw [View.set_slice_whole, Rect.mem_set_unit]
    intro a
    have h0 : (i 0 : Nat) < 1 := (i 0).isLt
    have h1 : (i 1 : Nat) < 2 := (i 1).isLt
    match a with
    | ⟨0, _⟩ =>
      show win0_8.index ⟨255, h255⟩ 0 * 1 ≤ (i 0 : Nat) ∧ (i 0 : Nat) < win0_8.index ⟨255, h255⟩ 0 * 1 + 1
      rw [(idx0_8 _).1]; omega
    | ⟨1, _⟩ =>
      show win0_8.index ⟨255, h255⟩ 1 * 2 ≤ (i 1 : Nat) ∧ (i 1 : Nat) < win0_8.index ⟨255, h255⟩ 1 * 2 + 2
      rw [(idx0_8 _).2]; omega

/-! ## The maximum: the block's, the running one, the reference's -/

/-- A value is above the block's column maximum exactly when it is above every row's entry of the column. -/
theorem pay5_le_iff (v0 : Vec Ideal S8192x32 .f32) (v1 : Vec Ideal S32x20 .f32) (v4 : Vec Ideal S1x20 .f32) (v9 : Vec Ideal S20x5 .f32)
    (v12 : Vec Ideal S1x5 .f32) (v17 : Vec Ideal S5x2 .f32) (v20 : Vec Ideal S1x2 .f32) (u : Fin 1) (j : Fin 2) (a : EReal) :
    k0_pay5 (F := Ideal) v0 v1 v4 v9 v12 v17 v20 (ix2 u j) ≤ a ↔
      ∀ p : Fin 8192, k0_pay3 (F := Ideal) v0 v1 v4 v9 v12 v17 v20 (ix2 p j) ≤ a := by
  unfold k0_pay5
  show shapeCast S1x2 (multiReduction .maximumf [0] S2 (k0_pay3 (F := Ideal) v0 v1 v4 v9 v12 v17 v20) 0xFF800000#32 Cert.KernelIdeal.Facts₀.reduces_S8192x2_S2 (.inl rfl) rfl) Cert.KernelIdeal.Facts₀.shapeCasts_S2_S1x2 (ix2 u j) ≤ a ↔ _
  rw [shapeCast_a_1a_apply]
  exact colMax_le_iff _ _ _ _ j a

/-- At point t, likewise, over the encoding of the point's rows. -/
theorem bmx0_le_iff (V : (c : Dev nD) → (b : Ref sig .tc) → Buf (Elt Ideal) ((c : Thread nD τ).loc b)) (c : Dev nD)
    (t : Fin cfg0.N) (u : Fin 1) (j : Fin 2) (a : EReal) :
    (bmx0 (F := Ideal) V c t : Vec Ideal S1x2 .f32) (ix2 u j) ≤ a ↔
      ∀ p : Fin 8192, (enc0 (F := Ideal) V c t : Vec Ideal S8192x2 .f32) (ix2 p j) ≤ a := by
  unfold bmx0 enc0
  exact pay5_le_iff (iblk0 V c 0 t) (iblk0 V c 1 t) (iblk0 V c 2 t) (iblk0 V c 3 t) (iblk0 V c 4 t) (iblk0 V c 5 t) (iblk0 V c 6 t) u j a

/-- Combining the block's maximum with an earlier value takes the maximum of the two, entry by entry. -/
theorem k0_pay2_apply (b : FVec Ideal S1x2 .f32) (prev : Vec Ideal S1x2 .f32) (i : S1x2.Idx) :
    k0_pay2 (F := Ideal) b prev i = max (prev i) (b i) := by
  unfold k0_pay2
  show maximumf (shapeCast S1x2 prev Cert.KernelIdeal.Facts₀.shapeCasts_S1x2_S1x2) b i = _
  rw [maximumf_apply, shapeCast_self]

/-- The running maximum after point n has as upper bounds exactly the encodings of all rows of the points up to n. -/
theorem mxAt_le_iff (V : (c : Dev nD) → (b : Ref sig .tc) → Buf (Elt Ideal) ((c : Thread nD τ).loc b)) (c : Dev nD)
    (n : ℕ) (hn : n < cfg0.N) (u : Fin 1) (j : Fin 2) (a : EReal) :
    (mxAt (F := Ideal) V c n hn : Vec Ideal S1x2 .f32) (ix2 u j) ≤ a ↔
      ∀ t : Fin cfg0.N, t.val ≤ n → ∀ p : Fin 8192, (enc0 (F := Ideal) V c t : Vec Ideal S8192x2 .f32) (ix2 p j) ≤ a := by
  induction n with
  | zero =>
    show (bmx0 (F := Ideal) V c ⟨0, hn⟩ : Vec Ideal S1x2 .f32) (ix2 u j) ≤ a ↔ _
    rw [bmx0_le_iff]
    constructor
    · intro H t ht p
      obtain rfl : t = ⟨0, hn⟩ := Fin.ext (Nat.le_zero.mp ht)
      exact H p
    · intro H p
      exact H ⟨0, hn⟩ (Nat.le_refl _) p
  | succ n ih =>
    show k0_pay2 (F := Ideal) (bmx0 (F := Ideal) V c ⟨n + 1, hn⟩) (mxAt (F := Ideal) V c n (Nat.lt_of_succ_lt hn)) (ix2 u j) ≤ a ↔ _
    rw [k0_pay2_apply, max_le_iff, ih, bmx0_le_iff]
    constructor
    · rintro ⟨H1, H2⟩ t ht p
      rcases Nat.lt_or_eq_of_le ht with hlt | heq
      · exact H1 t (Nat.lt_succ_iff.mp hlt) p
      · obtain rfl : t = ⟨n + 1, hn⟩ := Fin.ext heq
        exact H2 p
    · intro H
      exact ⟨fun t ht p => H t (Nat.le_succ_of_le ht) p, fun p => H ⟨n + 1, hn⟩ (Nat.le_refl _) p⟩

/-- The reference's column maximum over all rows has as upper bounds exactly all entries of the column. -/
theorem mxR_le_iff (e : FVec Ideal S2097152x2 .f32) (u : Fin 1) (j : Fin 2) (a : EReal) :
    mxR (F := Ideal) e (ix2 u j) ≤ a ↔ ∀ r : Fin 2097152, e (ix2 r j) ≤ a := by
  unfold mxR
  rw [broadcastInDim_apply ![1] _ _ (ix2 u j) (ix1 j) (fun a => by match a with | ⟨0, _⟩ => rfl)]
  exact hostColMax_le_iff e Cert.ReferenceIdeal.Facts₀.reducesTo_S2097152x2_S2_d0
    ⟨Cert.ReferenceIdeal.Facts₀.reducesTo_S2097152x2_S2_d0.1, Nat.one_pos, Cert.ReferenceIdeal.Facts₀.reducesTo_S2097152x2_S2_d0.2⟩
    Cert.ReferenceIdeal.Facts₀.h_S_ j a

/-- So after the last point the running maximum is the reference's: row r of the array is row r mod 8192 of
    point r / 8192, and every point's every row is some row of the array. -/
theorem mxAt_last (h : Entry0 V c x w1 b1 w2 b2 w3 b3) (n : ℕ) (hn : n < cfg0.N) (hlast : n = 255) :
    (mxAt (F := Ideal) V c n hn : S1x2.Idx → Elt Ideal .f32) = mxR (F := Ideal) (encR (F := Ideal) x w1 b1 w2 b2 w3 b3) := by
  have hN : cfg0.N = 256 := N_0
  funext i
  obtain ⟨u, j, rfl⟩ : ∃ (u : Fin 1) (j : Fin 2), i = ix2 u j := ⟨i 0, i 1, eq_ix2 i⟩
  refine eq_of_forall_ge_iff fun a => ?_
  rw [mxAt_le_iff, mxR_le_iff]
  constructor
  · intro H r
    have hr : r.val < 2097152 := r.isLt
    have key := H ⟨r.val / 8192, by rw [hN]; omega⟩ (by show r.val / 8192 ≤ n; omega) ⟨r.val % 8192, Nat.mod_lt _ (by omega)⟩
    rwa [enc0_apply h _ _ j r (by show r.val = r.val / 8192 * 8192 + r.val % 8192; omega)] at key
  · intro H t _ p
    have ht : t.val < 256 := lt_of_lt_of_eq t.isLt hN
    have hp : p.val < 8192 := p.isLt
    rw [enc0_apply h t p j ⟨t.val * 8192 + p.val, by omega⟩ rfl]
    exact H _

/-! ## The maximum's array after the call -/

/-- Window 9's block is its whole array at every point. -/
theorem idx0_9 : ∀ t : Fin cfg0.N, win0_9.index t 0 = 0 ∧ win0_9.index t 1 = 0 :=
  (by decide +kernel : ∀ t : Fin grid0.N, win0_9.index t 0 = 0 ∧ win0_9.index t 1 = 0)

/-- So a [1, 2] array read through the block is the array. -/
theorem read_blk0_9 (t : Fin cfg0.N) (G : S1x2.Idx → Elt Ideal .f32) :
    (((cfg0.win 9).blk t).view.read (Elt Ideal) G : S1x2.Idx → Elt Ideal .f32) = G := by
  funext y
  rw [View.read_apply]
  show G _ = G _
  congr 1
  funext a
  apply Fin.ext
  match a with
  | ⟨0, _⟩ => show win0_9.index t 0 * 1 + 1 * (y 0).val = (y 0).val; rw [(idx0_9 t).1]; omega
  | ⟨1, _⟩ => show win0_9.index t 1 * 2 + 1 * (y 1).val = (y 1).val; rw [(idx0_9 t).2]; omega

/-- The array is written back once, at the last point, whole: it ends holding the reference's column maximum of the
    encoder stage. -/
theorem arr9 (h : Entry0 V c x w1 b1 w2 b2 w3 b3) :
    ((dat0 V c).arrAt 9 cfg0.N : S1x2.Idx → Elt Ideal .f32) = mxR (F := Ideal) (encR (F := Ideal) x w1 b1 w2 b2 w3 b3) := by
  have hN : cfg0.N = 256 := N_0
  refine (dat0 V c).arrAt_eq_of_cover 9 (mxR (F := Ideal) (encR (F := Ideal) x w1 b1 w2 b2 w3 b3)) (fun t hf => ?_) (fun i => ?_)
  · have h1 : t.val = 255 := by have := (flush0_9 t).mp hf; have := t.isLt; omega
    show (cfg0.win 9).cut (grid0.coords t) ((dat0 V c).after 9 t) = _
    rw [after0_9, read_blk0_9]
    exact mxAt_last h t.val t.isLt h1
  · have h255 : 255 < cfg0.N := by rw [hN]; omega
    refine ⟨⟨255, h255⟩, (flush0_9 _).mpr rfl, ?_⟩
    show i ∈ ((View.whole main_v7_2).slice (win0_9.rect ⟨255, h255⟩)).set
    rw [View.set_slice_whole, Rect.mem_set_unit]
    intro a
    have h0 : (i 0 : Nat) < 1 := (i 0).isLt
    have h1 : (i 1 : Nat) < 2 := (i 1).isLt
    match a with
    | ⟨0, _⟩ =>
      show win0_9.index ⟨255, h255⟩ 0 * 1 ≤ (i 0 : Nat) ∧ (i 0 : Nat) < win0_9.index ⟨255, h255⟩ 0 * 1 + 1
      rw [(idx0_9 _).1]; omega
    | ⟨1, _⟩ =>
      show win0_9.index ⟨255, h255⟩ 1 * 2 ≤ (i 1 : Nat) ∧ (i 1 : Nat) < win0_9.index ⟨255, h255⟩ 1 * 2 + 2
      rw [(idx0_9 _).2]; omega

end Cert.KernelIdeal.Hand

end
-- ==== Proof.Math.Spec.lean ====
/-
  The bin index of one encoded coordinate, as both programs compute it on the extended reals:
  ⌊((e − mn) / (mx − mn) · c₁ + c₂) / c₃⌋ converted to a 32-bit integer, where c₁, c₂, c₃ are the binary
  values of the f32 words 0x3F7AE148 (0.98…), 0x3C23D70A (0.0099…) and 0x3D23D70A (0.0399…).
-/
import Idealize.ShloMosaic.PureOps.Ideal

noncomputable section

namespace Cert.Hand.Spec

open Idealize.ShloMosaic

/-- The normalised coordinate divided by the bin width, before rounding down. -/
def scaled (e mn mx : EReal) : EReal :=
  Ideal.div (Ideal.div (e - mn) (mx - mn) * Ideal.ofBits .f32 0x3F7AE148#32 + Ideal.ofBits .f32 0x3C23D70A#32)
    (Ideal.ofBits .f32 0x3D23D70A#32)

/-- The bin index as a 32-bit word. -/
def idxWord (e mn mx : EReal) : BitVec 32 :=
  Ideal.fptosi 32 (Ideal.liftRound Int.floor (scaled e mn mx))

end Cert.Hand.Spec

end
-- ==== Proof.Ref.Tail.lean ====
/-
  The reference's tail read at ONE entry, on the extended reals. Two facts.
  The bin word at entry (r, j) is the specification's: subtraction, the two quotients, the product and the sum, the floor
  and the conversion to an integer are pointwise; the per-column minimum and maximum rows, broadcast over the batch, read
  at (r, j) their entry (0, j); a rank-0 constant broadcast reads its value.
  The table lookup at a row r whose two bin words are the naturals n0, n1 < 25 is the table's entry 25 · n0 + n1: the flat
  index 25 · n0 + n1 < 625 does not wrap on 32-bit words and does not read negative, so the "move a negative index up by
  625" step keeps it; both bounds 0 ≤ index ≤ 624 hold, so the mask — their "and", reduced over the one-element axis —
  is 1; the gather reads the table at the index clamped into [0, 624], which is the index; the select on a 1 bit picks
  the gathered value; the last broadcast to a column reads, at (r, 0), the vector at r.
-/
import proofs.«100639_j53171695125388_2_alg».proof.Proof.Ref.Stages
import proofs.«100639_j53171695125388_2_alg».proof.Proof.Math.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll

noncomputable section

namespace Cert.ReferenceIdeal.Hand

open Idealize.ShloMosaic ValueIdx Cert.ReferenceIdeal

variable [Cert.ReferenceIdeal.Facts]
open Cert.ReferenceIdeal.Facts₀ Cert.ReferenceIdeal.Facts

/-! The auxiliary lemmas live in the sub-namespace `Tail`; the two facts of this file are stated after it. -/
namespace Tail

/-! ## Layout operations of the reference's tail, read at one index -/

section Layout
variable {α : Type}

/-- A [1, 2] row broadcast over the batch, read at (r, j), is the row at (0, j). -/
theorem bcastRow_apply (v : S1x2.Idx → α) (r : Fin 2097152) (j : Fin 2) :
    broadcastInDim S2097152x2 ![0, 1] bcast_S1x2_S2097152x2_0_1 v (ix2 r j) = v (ix2 0 j) := by
  refine broadcastInDim_apply _ _ v (ix2 r j) (ix2 0 j) ?_
  intro a
  match a with
  | ⟨0, _⟩ => rfl
  | ⟨1, _⟩ => rfl

/-- A rank-0 value broadcast over the [2097152, 2] array reads that value everywhere. -/
theorem splat2_apply (v : S_.Idx → α) (i : S2097152x2.Idx) :
    broadcastInDim S2097152x2 ![] bcast_S_S2097152x2 v i = v ix0 := by
  refine broadcastInDim_apply _ _ v i ix0 ?_
  intro a
  exact a.elim0

/-- A vector broadcast to a column, read at (r, 0), is the vector at r. -/
theorem col_apply (v : S2097152.Idx → α) (r : Fin 2097152) (c : Fin 1) :
    broadcastInDim S2097152x1 ![0] bcast_S2097152_S2097152x1_0 v (ix2 r c) = v (ix1 r) := by
  refine broadcastInDim_apply _ _ v (ix2 r c) (ix1 r) ?_
  intro a
  match a with
  | ⟨0, _⟩ => rfl

/-- A rank-0 value broadcast over the vector reads that value everywhere. -/
theorem splat1_apply (v : S_.Idx → α) (i : S2097152.Idx) :
    broadcastInDim S2097152 ![] bcast_S_S2097152 v i = v ix0 := by
  refine broadcastInDim_apply _ _ v i ix0 ?_
  intro a
  exact a.elim0

/-- A rank-0 value broadcast over the column reads that value everywhere. -/
theorem splatCol_apply (v : S_.Idx → α) (i : S2097152x1.Idx) :
    broadcastInDim S2097152x1 ![] bcast_S_S2097152x1 v i = v ix0 := by
  refine broadcastInDim_apply _ _ v i ix0 ?_
  intro a
  exact a.elim0

/-- A one-element vector broadcast to [1, 1] and then over the column reads its element everywhere. -/
theorem unitCol_apply (v : S1.Idx → α) (r : Fin 2097152) (c : Fin 1) :
    broadcastInDim S2097152x1 ![0, 1] bcast_S1x1_S2097152x1_0_1 (broadcastInDim S1x1 ![1] bcast_S1_S1x1_1 v) (ix2 r c)
      = v (ix1 0) := by
  refine (broadcastInDim_apply _ _ _ (ix2 r c) (ix2 (0 : Fin 1) (0 : Fin 1)) ?_).trans ?_
  · intro a
    match a with
    | ⟨0, _⟩ => rfl
    | ⟨1, _⟩ => rfl
  · refine broadcastInDim_apply _ _ v (ix2 (0 : Fin 1) (0 : Fin 1)) (ix1 0) ?_
    intro a
    match a with
    | ⟨0, _⟩ => rfl

/-- Column c (0 or 1) of a [2097152, 2] array, sliced out and reshaped to a vector, read at r. -/
theorem colSlice0_apply (d : S2097152x2.Idx → α) (r : Fin 2097152) :
    shapeCast S2097152 (extractStridedSlice S2097152x1 ![0, 0] d slices_S2097152x2_S2097152x1_0_0) shapeCasts_S2097152x1_S2097152 (ix1 r)
      = d (ix2 r 0) := by
  refine (shapeCast_apply _ _ (ix1 r) (ix2 r (0 : Fin 1)) ?_).trans ?_
  · rw [Shape.rowMajor_val_two, Shape.rowMajor_val_one]
    show r.val * 1 + 0 = r.val
    omega
  · refine extractStridedSlice_apply _ d _ (ix2 r (0 : Fin 1)) (ix2 r 0) ?_
    intro a
    match a with
    | ⟨0, _⟩ => show r.val = 0 + r.val; omega
    | ⟨1, _⟩ => rfl

theorem colSlice1_apply (d : S2097152x2.Idx → α) (r : Fin 2097152) :
    shapeCast S2097152 (extractStridedSlice S2097152x1 ![0, 1] d slices_S2097152x2_S2097152x1_0_1) shapeCasts_S2097152x1_S2097152 (ix1 r)
      = d (ix2 r 1) := by
  refine (shapeCast_apply _ _ (ix1 r) (ix2 r (0 : Fin 1)) ?_).trans ?_
  · rw [Shape.rowMajor_val_two, Shape.rowMajor_val_one]
    show r.val * 1 + 0 = r.val
    omega
  · refine extractStridedSlice_apply _ d _ (ix2 r (0 : Fin 1)) (ix2 r 1) ?_
    intro a
    match a with
    | ⟨0, _⟩ => show r.val = 0 + r.val; omega
    | ⟨1, _⟩ => rfl

end Layout

/-- The flat index at row r: 25 · (first bin word) + (second bin word), on 32-bit words. -/
theorem flatR_apply (d : IVec S2097152x2 32) (r : Fin 2097152) :
    flatR d (ix1 r) = d (ix2 r 0) * 25#32 + d (ix2 r 1) := by
  unfold flatR
  show IntOp.addi (IntOp.muli
      (shapeCast S2097152 (extractStridedSlice S2097152x1 ![0, 0] d slices_S2097152x2_S2097152x1_0_0) shapeCasts_S2097152x1_S2097152 (ix1 r))
      (broadcastInDim S2097152 ![] bcast_S_S2097152 (constantI S_ 32 25#32) (ix1 r)))
    (shapeCast S2097152 (extractStridedSlice S2097152x1 ![0, 1] d slices_S2097152x2_S2097152x1_0_1) shapeCasts_S2097152x1_S2097152 (ix1 r)) = _
  rw [colSlice0_apply, colSlice1_apply, splat1_apply]
  rfl

/-- The lookup's index word at row r: the flat index, moved up by 625 when it reads negative. -/
theorem wrapR_apply (flat : IVec S2097152 32) (r : Fin 2097152) (c : Fin 1) :
    wrapR flat (ix2 r c)
      = Scalar.select (IntOp.cmpi .slt (flat (ix1 r)) 0#32) (flat (ix1 r) + 625#32) (flat (ix1 r)) := by
  unfold wrapR
  rw [col_apply]
  show Scalar.select (IntOp.cmpi .slt (flat (ix1 r)) (broadcastInDim S2097152 ![] bcast_S_S2097152 (constantI S_ 32 0#32) (ix1 r)))
      (IntOp.addi (flat (ix1 r)) (broadcastInDim S2097152 ![] bcast_S_S2097152 (constantI S_ 32 625#32) (ix1 r))) (flat (ix1 r)) = _
  rw [splat1_apply, splat1_apply]
  rfl

/-! ## 32-bit words of small naturals -/

/-- A natural below 625 is its 32-bit word's unsigned value … -/
theorem toNat_small (n : Nat) (h : n < 625) : (BitVec.ofNat 32 n).toNat = n := by
  rw [BitVec.toNat_ofNat]
  exact Nat.mod_eq_of_lt (by omega)

/-- … and its signed value. -/
theorem toInt_small (n : Nat) (h : n < 625) : (BitVec.ofNat 32 n).toInt = (n : Int) := by
  have h2 : 2 * (BitVec.ofNat 32 n).toNat < 2 ^ 32 := by rw [toNat_small n h]; omega
  rw [BitVec.toInt_eq_toNat_of_lt h2, toNat_small n h]

/-- 25 · n0 + n1 on words is the word of 25 · n0 + n1: nothing wraps below 625. -/
theorem flat_word (n0 n1 : Nat) (h0 : n0 < 25) (h1 : n1 < 25) :
    BitVec.ofNat 32 n0 * 25#32 + BitVec.ofNat 32 n1 = BitVec.ofNat 32 (n0 * 25 + n1) := by
  apply BitVec.eq_of_toNat_eq
  rw [BitVec.toNat_add, BitVec.toNat_mul, toNat_small n0 (by omega), toNat_small n1 (by omega),
    toNat_small (n0 * 25 + n1) (by omega)]
  show (n0 * 25 % 2 ^ 32 + n1) % 2 ^ 32 = n0 * 25 + n1
  omega

/-- The word of a natural below 625 does not read negative … -/
theorem slt_zero_small (n : Nat) (h : n < 625) : IntOp.cmpi .slt (BitVec.ofNat 32 n) 0#32 = 0#1 := by
  refine eq_zero_of_ne_one fun hc => ?_
  have := IntOp.cmpi_slt.mp hc
  rw [toInt_small n h, show (0#32 : BitVec 32).toInt = 0 from by decide] at this
  omega

/-- … it is at least 0 … -/
theorem sge_zero_small (n : Nat) (h : n < 625) : IntOp.cmpi .sge (BitVec.ofNat 32 n) 0#32 = 1#1 := by
  refine IntOp.cmpi_sge.mpr ?_
  rw [toInt_small n h, show (0#32 : BitVec 32).toInt = 0 from by decide]
  omega

/-- … and at most 624. -/
theorem sle_624_small (n : Nat) (h : n < 625) : IntOp.cmpi .sle (BitVec.ofNat 32 n) 624#32 = 1#1 := by
  refine IntOp.cmpi_sle.mpr ?_
  rw [toInt_small n h, show (624#32 : BitVec 32).toInt = 624 from by decide]
  omega

/-! ## The "and" over the column's unit axis, read at one row -/

theorem fold_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

/-- The unit axis of the column removed leaves the vector: the library's single-axis reduction fact from the program's. -/
theorem redh : S2097152x1.Reduces [1] S2097152 :=
    ⟨reducesTo_S2097152x1_S2097152_d1.1, Nat.one_pos, reducesTo_S2097152x1_S2097152_d1.2⟩

/-- The only column index over row r is (r, 0). -/
theorem lift_row (r : Fin 2097152) (k : Fin (S2097152x1.size 1)) : redh.lift (ix1 r) k = ix2 r 0 := by
  have hk : k.val < 1 := k.isLt
  funext c
  refine Fin.ext ?_
  match c with
  | ⟨0, _⟩ => rfl
  | ⟨1, _⟩ => show k.val = 0; omega

set_option maxHeartbeats 100000 in
theorem reduceUnit_apply (p : IVec S2097152x1 1) (r : Fin 2097152) :
    Host.reduce IntOp.andi p (constantI S_ 1 1#1) reducesTo_S2097152x1_S2097152_d1 h_S_ (ix1 r) = p (ix2 r 0) := by
  have e := Host.reduce_eq_fold_single IntOp.andi p (constantI S_ 1 1#1)
    reducesTo_S2097152x1_S2097152_d1 redh h_S_ (ix1 r)
  refine e.trans ?_
  refine (fold_fin_one IntOp.andi _ _).trans ?_
  refine (congrArg (fun z => IntOp.andi (p z) 1#1) (lift_row r _)).trans ?_
  show p (ix2 r 0) &&& 1#1 = p (ix2 r 0)
  rcases BitVec.eq_zero_or_eq_one (p (ix2 r 0)) with h0 | h1
  · rw [h0]; decide
  · rw [h1]; decide

/-! ## The gather read at one row -/

/-- The table lookup's gather read at row r: the table at the index word of (r, 0), read signed and clamped into [0, 624]. -/
theorem gatherR_apply {α : Type} (bm : S625.Idx → α) (idx : IVec S2097152x1 32) (r : Fin 2097152) :
    Host.gather gather_S625_S2097152x1_S2097152_n_0_n_n_0_1_1 bm idx (ix1 r)
      = bm (ix1 ⟨min (idx (ix2 r 0)).toInt.toNat 624, by omega⟩) := by
  unfold Host.gather
  refine congrArg bm ?_
  funext a
  obtain rfl : a = 0 := Subsingleton.elim _ _
  refine Fin.ext ?_
  show gather_S625_S2097152x1_S2097152_n_0_n_n_0_1_1.start (ix1 r) idx 0
      + gather_S625_S2097152x1_S2097152_n_0_n_n_0_1_1.batchCoord (ix1 r) 0
      + gather_S625_S2097152x1_S2097152_n_0_n_n_0_1_1.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S625_S2097152x1_S2097152_n_0_n_n_0_1_1.startIndexMap from List.mem_singleton.mpr rfl)]
  have hsi : gather_S625_S2097152x1_S2097152_n_0_n_n_0_1_1.siIdx (ix1 r)
      ⟨List.idxOf (0 : Fin 1) gather_S625_S2097152x1_S2097152_n_0_n_n_0_1_1.startIndexMap,
        List.idxOf_lt_length_iff.2 (List.mem_singleton.mpr rfl)⟩ = ix2 r 0 := by
    funext b; refine Fin.ext ?_
    match b with
    | ⟨0, _⟩ => rfl
    | ⟨1, _⟩ => rfl
  rw [hsi]
  rfl

/-! ## The table lookup read at one row -/

/-- The lookup at row r, in terms of the index word w at (r, 0): the table at w read signed and clamped into [0, 624]
    when 0 ≤ w ≤ 624 (signed), the fill value otherwise. -/
theorem takeR_apply (bm : FVec Ideal S625 .f32) (flat : IVec S2097152 32) (r : Fin 2097152) (w : BitVec 32)
    (hw : wrapR flat (ix2 r 0) = w) :
    takeR (F := Ideal) bm flat (ix1 r)
      = Scalar.select (IntOp.andi (IntOp.cmpi .sge w 0#32) (IntOp.cmpi .sle w 624#32))
          (bm (ix1 ⟨min w.toInt.toNat 624, by omega⟩)) (Ideal.ofBits .f32 0x7FC00000#32) := by
  subst hw
  unfold takeR
  rw [select_apply, reduceUnit_apply, gatherR_apply, splat1_apply]
  show Scalar.select
      (IntOp.andi
        (IntOp.cmpi .sge (wrapR flat (ix2 r 0)) (broadcastInDim S2097152x1 ![] bcast_S_S2097152x1 (constantI S_ 32 0#32) (ix2 r 0)))
        (IntOp.cmpi .sle (wrapR flat (ix2 r 0))
          (broadcastInDim S2097152x1 ![0, 1] bcast_S1x1_S2097152x1_0_1
            (broadcastInDim S1x1 ![1] bcast_S1_S1x1_1 (constantI S1 32 624#32)) (ix2 r 0))))
      _ _ = _
  rw [splatCol_apply, unitCol_apply]
  rfl

end Tail

open Tail

/-! ## The bin words at one entry -/

/-- THE BIN WORD AT ENTRY (r, j): every operation of the chain is pointwise there, a [1, 2] row reads at (0, j), a rank-0
    constant reads its value. -/
theorem binsR_apply (e : FVec Ideal S2097152x2 .f32) (mn mx : FVec Ideal S1x2 .f32) (r : Fin 2097152) (j : Fin 2) :
    binsR (F := Ideal) e mn mx (ix2 r j) = Cert.Hand.Spec.idxWord (e (ix2 r j)) (mn (ix2 0 j)) (mx (ix2 0 j)) := by
  unfold binsR Cert.Hand.Spec.idxWord Cert.Hand.Spec.scaled
  show Ideal.fptosi 32 (Ideal.liftRound Int.floor (Ideal.div
    ((Ideal.div (e (ix2 r j) - broadcastInDim S2097152x2 ![0, 1] bcast_S1x2_S2097152x2_0_1 mn (ix2 r j))
        (broadcastInDim S2097152x2 ![0, 1] bcast_S1x2_S2097152x2_0_1 (subf mx mn) (ix2 r j)))
      * (broadcastInDim S2097152x2 ![] bcast_S_S2097152x2 (constant (F := Ideal) S_ .f32 0x3F7AE148#32) (ix2 r j))
      + (broadcastInDim S2097152x2 ![] bcast_S_S2097152x2 (constant (F := Ideal) S_ .f32 0x3C23D70A#32) (ix2 r j)))
    (broadcastInDim S2097152x2 ![] bcast_S_S2097152x2 (constant (F := Ideal) S_ .f32 0x3D23D70A#32) (ix2 r j)))) = _
  rw [bcastRow_apply mn r j, bcastRow_apply (subf mx mn) r j, splat2_apply, splat2_apply, splat2_apply]
  rfl

/-! ## The table lookup at a row whose bin words are in range -/

/-- THE LOOKUP AT A ROW WHOSE TWO BIN WORDS ARE IN RANGE: the table at 25 · (first bin) + (second bin). -/
theorem lookup_apply (bm : FVec Ideal S625 .f32) (d : IVec S2097152x2 32) (r : Fin 2097152) (n0 n1 : Fin 25)
    (h0 : d (ix2 r 0) = BitVec.ofNat 32 n0.val) (h1 : d (ix2 r 1) = BitVec.ofNat 32 n1.val) :
    broadcastInDim S2097152x1 ![0] bcast_S2097152_S2097152x1_0 (takeR (F := Ideal) bm (flatR d)) (ix2 r 0)
      = bm (ix1 ⟨n0.val * 25 + n1.val, by omega⟩) := by
  have hn : n0.val * 25 + n1.val < 625 := by omega
  have hflat : flatR d (ix1 r) = BitVec.ofNat 32 (n0.val * 25 + n1.val) := by
    rw [flatR_apply, h0, h1]
    exact flat_word n0.val n1.val n0.isLt n1.isLt
  have hwrap : wrapR (flatR d) (ix2 r 0) = BitVec.ofNat 32 (n0.val * 25 + n1.val) := by
    rw [wrapR_apply, hflat, slt_zero_small _ hn, select_zero]
  rw [col_apply, takeR_apply bm (flatR d) r _ hwrap, sge_zero_small _ hn, sle_624_small _ hn]
  rw [show IntOp.andi 1#1 1#1 = 1#1 from by decide, select_one]
  refine congrArg bm (congrArg ix1 (Fin.ext ?_))
  show min (BitVec.ofNat 32 (n0.val * 25 + n1.val)).toInt.toNat 624 = n0.val * 25 + n1.val
  rw [toInt_small _ hn, Int.toNat_natCast]
  omega

end Cert.ReferenceIdeal.Hand

end
-- ==== Proof.Math.Range.lean ====
/-
  The bin index lies in {0, …, 24}.

  With t = (e − mn) / (mx − mn) ∈ [0, 1] (because mn ≤ e ≤ mx and mn < mx), the quantity that is rounded
  down is (t · c₁ + c₂) / c₃, where the three f32 words denote the dyadic rationals
      c₁ = 16441672 · 2⁻²⁴,   c₂ = 10737418 · 2⁻³⁰,   c₃ = 10737418 · 2⁻²⁸.
  It is increasing in t, equals c₂ / c₃ = 1/4 at t = 0 and (c₁ + c₂) / c₃ = 24.75000…  < 25 at t = 1, so its
  floor is an integer n with 0 ≤ n ≤ 24; the clamp to the 32-bit signed range leaves n unchanged, and the
  32-bit word of a natural number below 2³² is that number.
-/
import Idealize.ShloMosaic.PureOps.Ideal
import proofs.«100639_j53171695125388_2_alg».proof.Proof.Math.Spec

noncomputable section

namespace Cert.Hand.Spec

open Idealize.ShloMosaic

/-! ### The three constants as dyadic rationals

Each word has sign 0; its value is (2²³ + fraction) · 2^(exponent − 127 − 23). -/

/-- 0x3F7AE148: exponent field 126, fraction 0x7AE148 = 8053064; the value is 16441672 · 2⁻²⁴. -/
theorem ofBits_c1 : Ideal.ofBits .f32 0x3F7AE148#32 = (((16441672 : ℝ) / 2 ^ 24 : ℝ) : EReal) := by
  simp [Ideal.ofBits, Ideal.ieee, -EReal.coe_mul]; norm_num

/-- 0x3C23D70A: exponent field 120, fraction 0x23D70A = 2348810; the value is 10737418 · 2⁻³⁰. -/
theorem ofBits_c2 : Ideal.ofBits .f32 0x3C23D70A#32 = (((10737418 : ℝ) / 2 ^ 30 : ℝ) : EReal) := by
  simp [Ideal.ofBits, Ideal.ieee, -EReal.coe_mul]; norm_num

/-- 0x3D23D70A: exponent field 122, the same fraction; the value is 10737418 · 2⁻²⁸. -/
theorem ofBits_c3 : Ideal.ofBits .f32 0x3D23D70A#32 = (((10737418 : ℝ) / 2 ^ 28 : ℝ) : EReal) := by
  simp [Ideal.ofBits, Ideal.ieee, -EReal.coe_mul]; norm_num

/-! ### The scaled coordinate on the reals -/

/-- (t · c₁ + c₂) / c₃ with t = (e − mn) / (mx − mn), as a real number. -/
def scaledR (e mn mx : ℝ) : ℝ :=
  ((e - mn) / (mx - mn) * (16441672 / 2 ^ 24) + 10737418 / 2 ^ 30) / (10737418 / 2 ^ 28)

/-- On real arguments with mn < mx both divisors are nonzero reals, so every operation of the extended-real
    expression is the real one. -/
theorem scaled_coe (e mn mx : ℝ) (h3 : mn < mx) :
    scaled (e : EReal) (mn : EReal) (mx : EReal) = ((scaledR e mn mx : ℝ) : EReal) := by
  have hd : mx - mn ≠ 0 := sub_ne_zero.mpr h3.ne'
  have hc : ((10737418 : ℝ) / 2 ^ 28) ≠ 0 := by norm_num
  unfold scaled scaledR
  rw [ofBits_c1, ofBits_c2, ofBits_c3, ← EReal.coe_sub, ← EReal.coe_sub, Ideal.div_coe hd,
    Ideal.div_coe hc, ← EReal.coe_mul, ← EReal.coe_mul, ← EReal.coe_add, ← EReal.coe_mul]
  congr 1
  ring

/-- 0 ≤ (t · c₁ + c₂) / c₃ < 25 for t ∈ [0, 1]: the lower bound because every term is nonnegative, the upper
    one because t · c₁ + c₂ ≤ c₁ + c₂ < 25 · c₃. -/
theorem scaledR_bounds (e mn mx : ℝ) (h1 : mn ≤ e) (h2 : e ≤ mx) (h3 : mn < mx) :
    0 ≤ scaledR e mn mx ∧ scaledR e mn mx < 25 := by
  have hd : 0 < mx - mn := sub_pos.mpr h3
  have ht0 : 0 ≤ (e - mn) / (mx - mn) := div_nonneg (sub_nonneg.mpr h1) hd.le
  have ht1 : (e - mn) / (mx - mn) ≤ 1 := (div_le_one hd).mpr (sub_le_sub_right h2 mn)
  unfold scaledR
  generalize (e - mn) / (mx - mn) = t at ht0 ht1
  constructor
  · positivity
  · rw [div_lt_iff₀ (by norm_num)]
    norm_num
    linarith

/-! ### Rounding down and converting to a 32-bit integer -/

/-- An integer n with 0 ≤ n < 25 converts to the word of the natural number n: it is its own integer part,
    it lies inside the signed 32-bit range, and it is nonnegative. -/
theorem fptosi_intCast (n : ℤ) (hn0 : 0 ≤ n) (hn1 : n < 25) :
    Ideal.fptosi 32 (((n : ℝ) : ℝ) : EReal) = BitVec.ofNat 32 n.toNat := by
  unfold Ideal.fptosi
  rw [Ideal.toIntClamped_coe, if_pos (by exact_mod_cast hn0), Int.floor_intCast]
  have : max (-((2 ^ (32 - 1) : ℕ) : ℤ)) (min (((2 ^ (32 - 1) : ℕ) : ℤ) - 1) n) = ((n.toNat : ℕ) : ℤ) := by
    norm_num
    omega
  rw [this, BitVec.ofInt_natCast]

/-- The bin index of a coordinate between the column's minimum and maximum is one of 0, …, 24. -/
theorem idxWord_in_range (e mn mx : ℝ) (h1 : mn ≤ e) (h2 : e ≤ mx) (h3 : mn < mx) :
    ∃ n : Fin 25, idxWord (e : EReal) (mn : EReal) (mx : EReal) = BitVec.ofNat 32 n.val := by
  obtain ⟨hlo, hhi⟩ := scaledR_bounds e mn mx h1 h2 h3
  have hn0 : 0 ≤ ⌊scaledR e mn mx⌋ := Int.floor_nonneg.mpr hlo
  have hn1 : ⌊scaledR e mn mx⌋ < 25 := Int.floor_lt.mpr (by exact_mod_cast hhi)
  refine ⟨⟨⌊scaledR e mn mx⌋.toNat, by omega⟩, ?_⟩
  unfold idxWord
  rw [scaled_coe e mn mx h3]
  exact fptosi_intCast _ hn0 hn1

end Cert.Hand.Spec

end
-- ==== Proof.Math.GatherPayload.lean ====
/-
  The gather kernel's stored value at one row.

  At row p the kernel computes, for each of the two columns c, the bin word
      w_c = ⌊((e(p,c) − mn(0,c)) / (mx(0,c) − mn(0,c)) · c₁ + c₂) / c₃⌋  as a 32-bit integer,
  turns each into a row of 25 zeros and ones (the lane k holds 1 exactly when k, as a word, equals w_c),
  multiplies the first row into the 25 × 25 table, multiplies the product lane by lane with the second row, and sums
  the 25 lanes:
      y(p) = ∑ j, (∑ k, [k = w₀] · tbl(k, j)) · [j = w₁].
  When w₀ and w₁ are the words of n₀, n₁ < 25 the inner sum keeps only k = n₀ and the outer sum only j = n₁, so
  y(p) = tbl(n₀, n₁). On the extended reals 0 · x = 0 and 1 · x = x for every x, infinite ones included, so no
  finiteness of the table is needed.
-/
import Idealize.ShloMosaic.Lib.ValueIdx
import Idealize.ShloMosaic.Lib.ValueLayout
import Idealize.ShloMosaic.Lib.Pipeline.Value
import Idealize.ShloMosaic.PureOps.Ideal.Laws
import proofs.«100639_j53171695125388_2_alg».proof.Proof.Math.Spec
import proofs.«100639_j53171695125388_2_alg».proof.Proof.Gen.KernelIdeal.Skeleton

noncomputable section

namespace Cert.KernelIdeal.Hand

open Idealize.ShloMosaic Idealize.ShloMosaic.ValueIdx
open Cert.KernelIdeal Cert.KernelIdeal.Facts₀ Cert.KernelIdeal.Facts

variable [Cert.KernelIdeal.Facts]

/-! ### The layout operations read at an index -/

/-- Column c of an [8192, 2] array, cut out as an [8192, 1] array, reads at (p, 0) the array at (p, c). -/
theorem col_apply {α : Type} (W : S8192x2.Idx → α) (o : Nat) (c : Fin 2) (hc : c.val = o)
    (h : S8192x2.Slices ![0, o] S8192x1) (p : Fin 8192) :
    extractStridedSlice S8192x1 ![0, o] W h (ix2 p (0 : Fin 1)) = W (ix2 p c) :=
  slice2_axis1_apply o W h p (0 : Fin 1) c (by simpa using hc)

/-- An [8192, 1] column repeated along 25 lanes reads at (p, k) the column at (p, 0). -/
theorem lanes_apply {α : Type} (x : S8192x1.Idx → α) (h : S8192x1.Broadcasts S8192x25) (p : Fin 8192) (k : Fin 25) :
    broadcastTo S8192x25 x h (ix2 p k) = x (ix2 p (0 : Fin 1)) := by
  refine broadcastTo_apply x h (ix2 p k) (ix2 p (0 : Fin 1)) fun ax => ?_
  match ax with
  | ⟨0, _⟩ => rfl
  | ⟨1, _⟩ => rfl

/-- A vector of 8192 entries viewed as an [8192, 1] column reads at (p, 0) the vector at p: both have row-major
    position p. -/
theorem column_apply {α : Type} (v : S8192.Idx → α) (h : S8192.ShapeCasts S8192x1) (p : Fin 8192) :
    shapeCast S8192x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-! ### The two contractions -/

/-- The product of an [8192, 25] array with a [25, 25] matrix, from a zero accumulator, at (p, j):
    ∑ k, L(p, k) · T(k, j). The contraction index has one coordinate, and the two operand indices over
    (p, j) and k are (p, k) and (k, j). -/
theorem matmul_row (L : FVec Ideal S8192x25 .f32) (T : FVec Ideal S25x25 .f32) (p : Fin 8192) (j : Fin 25) :
    FloatOps.matmul dot_S8192x25_S25x25_S8192x25_1_0_0_1_n_n (some .fp32) L T (constant S8192x25 .f32 0x00000000#32) (ix2 p j)
      = ∑ k : Fin 25, L (ix2 p k) * T (ix2 k j) := by
  rw [Ideal.matmul_constant_zero_apply,
    ← Equiv.sum_comp (contrEquiv1 dot_S8192x25_S25x25_S8192x25_1_0_0_1_n_n 25 rfl rfl).symm]
  refine Finset.sum_congr rfl fun c _ => ?_
  have c2 := contrEquiv1_symm_val dot_S8192x25_S25x25_S8192x25_1_0_0_1_n_n 25 rfl rfl c
  have l2 : dot_S8192x25_S25x25_S8192x25_1_0_0_1_n_n.lhsIdx (ix2 p j)
      ((contrEquiv1 _ 25 rfl rfl).symm c) = ix2 p c := by
    funext ax; apply Fin.ext
    match ax with
    | ⟨0, _⟩ => simp [DotDims.lhsIdx, dot_S8192x25_S25x25_S8192x25_1_0_0_1_n_n]; rfl
    | ⟨1, _⟩ => simp [DotDims.lhsIdx, dot_S8192x25_S25x25_S8192x25_1_0_0_1_n_n]; exact c2
  have r2 : dot_S8192x25_S25x25_S8192x25_1_0_0_1_n_n.rhsIdx (ix2 p j)
      ((contrEquiv1 _ 25 rfl rfl).symm c) = ix2 c j := by
    funext ax; apply Fin.ext
    match ax with
    | ⟨0, _⟩ => simp [DotDims.rhsIdx, dot_S8192x25_S25x25_S8192x25_1_0_0_1_n_n]; exact c2
    | ⟨1, _⟩ => simp [DotDims.rhsIdx, dot_S8192x25_S25x25_S8192x25_1_0_0_1_n_n]; rfl
  rw [l2, r2]

/-- The sum over the 25 lanes of an [8192, 25] array, from the zero word, at p: ∑ k, src(p, k). The index over p
    with lane k inserted is (p, k). -/
theorem lanesum_apply (src : FVec Ideal S8192x25 .f32) (h : S8192x25.Reduces [1] S8192)
    (hφ : FKind.Formats .f32) (hacc : (0x00000000#32 : BitVec 32) = 0x00000000#32) (p : Fin 8192) :
    multiReduction (F := Ideal) .add [1] S8192 src 0x00000000#32 h hφ hacc (ix1 p) = ∑ k : Fin 25, src (ix2 p k) := by
  refine (Ideal.multiReduction_add_single src 0x00000000#32 h hφ hacc (ix1 p)).trans ?_
  show ∑ k : Fin 25, src (h.lift (ix1 p) k) = _
  refine Finset.sum_congr rfl fun k _ => congrArg src ?_
  funext c; apply Fin.ext
  show h.liftVal (ix1 p) k.val c = (ix2 p k c).val
  match c with
  | ⟨0, _⟩ => simp [Shape.Reduces.liftVal]
  | ⟨1, _⟩ => simp [Shape.Reduces.liftVal]

/-! ### The pieces of the stored value -/

/-- The bin words of both columns: the float chain from the encoded block and the two [1, 2] rows of column minima
    and maxima down to the conversion to 32-bit integers. -/
def bins (v0 : Vec Ideal S8192x2 .f32) (v2 v4 : Vec Ideal S1x2 .f32) : IVec S8192x2 32 :=
  have v1 : FVec Ideal S8192x2 .f32 := shapeCast S8192x2 v0 shapeCasts_S8192x2_S8192x2
  have v3 : FVec Ideal S1x2 .f32 := shapeCast S1x2 v2 shapeCasts_S1x2_S1x2
  have v5 : FVec Ideal S1x2 .f32 := shapeCast S1x2 v4 shapeCasts_S1x2_S1x2
  have v6 : FVec Ideal S8192x2 .f32 := broadcastTo S8192x2 v3 broadcasts_S1x2_S8192x2
  have v7 : FVec Ideal S8192x2 .f32 := subf v1 v6
  have v8 : FVec Ideal S1x2 .f32 := subf v5 v3
  have v9 : FVec Ideal S8192x2 .f32 := broadcastTo S8192x2 v8 broadcasts_S1x2_S8192x2
  have v10 : FVec Ideal S8192x2 .f32 := divf v7 v9
  have cst : Ideal .f32 := Scalar.ofBits .f32 0x3F7AE148#32
  have v11 : FVec Ideal S8192x2 .f32 := broadcast S8192x2 cst
  have v12 : FVec Ideal S8192x2 .f32 := mulf v10 v11
  have cst_5 : Ideal .f32 := Scalar.ofBits .f32 0x3C23D70A#32
  have v13 : FVec Ideal S8192x2 .f32 := broadcast S8192x2 cst_5
  have v14 : FVec Ideal S8192x2 .f32 := addf v12 v13
  have cst_6 : Ideal .f32 := Scalar.ofBits .f32 0x3D23D70A#32
  have v15 : FVec Ideal S8192x2 .f32 := broadcast S8192x2 cst_6
  have v16 : FVec Ideal S8192x2 .f32 := divf v14 v15
  have v17 : FVec Ideal S8192x2 .f32 := floor v16
  fptosi 32 v17

/-- The row of zeros and ones of a column of words: lane k compares the word of k with the row's word, and the one-bit
    answer is widened and converted to a float. -/
def onehot (x : IVec S8192x1 32) : FVec Ideal S8192x25 .f32 :=
  sitofp .f32 (extui 32 (cmpi .eq (iota .tc S8192x25 32 [1] iota_S8192x25_d1_w32)
    (broadcastTo S8192x25 x broadcasts_S8192x1_S8192x25)) natLt_1_32)

/-- The stored value is the lane sum, viewed as a column, of (one-hot of column 0 times the table) times one-hot of
    column 1: the same operations in the same order. -/
theorem k1_pay1_eq (e : Vec Ideal S8192x2 .f32) (mn mx : Vec Ideal S1x2 .f32) (tbl : Vec Ideal S25x25 .f32) :
    Gen.k1_pay1 (F := Ideal) e mn mx tbl =
      shapeCast S8192x1 (multiReduction (F := Ideal) .add [1] S8192
        (mulf (matmul dot_S8192x25_S25x25_S8192x25_1_0_0_1_n_n (some .fp32)
            (onehot (extractStridedSlice S8192x1 ![0, 0] (bins e mn mx) slices_S8192x2_o0_0_S8192x1))
            (shapeCast S25x25 tbl shapeCasts_S25x25_S25x25 : FVec Ideal S25x25 .f32) (constant S8192x25 .f32 0x00000000#32))
          (onehot (extractStridedSlice S8192x1 ![0, 1] (bins e mn mx) slices_S8192x2_o0_1_S8192x1)))
        0x00000000#32 reduces_S8192x25_S8192 (.inl rfl) rfl) shapeCasts_S8192_S8192x1 := rfl

/-- The bin word at (p, c) is the bin index of e(p, c) between the column's minimum mn(0, c) and maximum mx(0, c):
    every operation of the chain is pointwise, and a [1, 2] row repeated down the rows reads its entry (0, c). -/
theorem bins_apply (e : Vec Ideal S8192x2 .f32) (mn mx : Vec Ideal S1x2 .f32) (p : Fin 8192) (c : Fin 2) :
    bins e mn mx (ix2 p c)
      = Cert.Hand.Spec.idxWord (e (ix2 p c)) (mn (ix2 (0 : Fin 1) c)) (mx (ix2 (0 : Fin 1) c)) := by
  unfold bins
  simp only [shapeCast_self]
  show Ideal.fptosi 32 (Ideal.liftRound Int.floor (Ideal.div
    (Ideal.div (e (ix2 p c) - broadcastTo S8192x2 mn broadcasts_S1x2_S8192x2 (ix2 p c))
        (broadcastTo S8192x2 (subf (F := Ideal) mx mn) broadcasts_S1x2_S8192x2 (ix2 p c))
      * Ideal.ofBits .f32 0x3F7AE148#32 + Ideal.ofBits .f32 0x3C23D70A#32)
    (Ideal.ofBits .f32 0x3D23D70A#32))) = _
  rw [broadcastTo_1b_ab_apply, broadcastTo_1b_ab_apply]
  rfl

/-- Two numbers below 25 with the same 32-bit word are equal: both are below 2³². -/
theorem ofNat_inj25 (k n : Fin 25) (h : BitVec.ofNat 32 k.val = BitVec.ofNat 32 n.val) : k = n := by
  have := congrArg BitVec.toNat h
  simp only [BitVec.toNat_ofNat] at this
  have := k.isLt; have := n.isLt
  exact Fin.ext (by omega)

/-- Where the row's word is the word of n < 25, the row of zeros and ones is 1 at lane n and 0 at every other lane. -/
theorem onehot_apply (x : IVec S8192x1 32) (p : Fin 8192) (k n : Fin 25)
    (hx : x (ix2 p (0 : Fin 1)) = BitVec.ofNat 32 n.val) :
    onehot x (ix2 p k) = if k = n then 1 else 0 := by
  unfold onehot
  rw [sitofp_apply, extui_apply]
  show FloatOps.sitofp (F := Ideal) .f32 ((IntOp.cmpi .eq (iota .tc S8192x25 32 [1] iota_S8192x25_d1_w32 (ix2 p k))
    (broadcastTo S8192x25 x broadcasts_S8192x1_S8192x25 (ix2 p k))).setWidth 32) = _
  rw [iota_single_apply, lanes_apply, hx]
  show ((((IntOp.cmpi .eq (BitVec.ofNat 32 k.val) (BitVec.ofNat 32 n.val)).setWidth 32).toInt : ℝ) : EReal) = _
  by_cases hkn : k = n
  · subst hkn; rw [if_pos rfl]; simp [IntOp.cmpi]
  · rw [if_neg hkn]
    have hne : BitVec.ofNat 32 k.val ≠ BitVec.ofNat 32 n.val := fun h => hkn (ofNat_inj25 k n h)
    have hb : (BitVec.ofNat 32 k.val == BitVec.ofNat 32 n.val) = false := by simpa using hne
    simp [IntOp.cmpi, hb]

/-! ### The stored value at a row -/

/-- Where the two bin indices of row p are n₀ and n₁, the stored value at (p, 0) is the table's entry (n₀, n₁):
    ∑ j, (∑ k, [k = n₀] · tbl(k, j)) · [j = n₁] = tbl(n₀, n₁). -/
theorem k1_pay1_apply (e : Vec Ideal Cert.KernelIdeal.S8192x2 .f32) (mn mx : Vec Ideal Cert.KernelIdeal.S1x2 .f32)
    (tbl : Vec Ideal Cert.KernelIdeal.S25x25 .f32) (p : Fin 8192) (n0 n1 : Fin 25)
    (h0 : Cert.Hand.Spec.idxWord (e (ValueIdx.ix2 p 0)) (mn (ValueIdx.ix2 0 0)) (mx (ValueIdx.ix2 0 0)) = BitVec.ofNat 32 n0.val)
    (h1 : Cert.Hand.Spec.idxWord (e (ValueIdx.ix2 p 1)) (mn (ValueIdx.ix2 0 1)) (mx (ValueIdx.ix2 0 1)) = BitVec.ofNat 32 n1.val) :
    Cert.KernelIdeal.Gen.k1_pay1 (F := Ideal) e mn mx tbl (ValueIdx.ix2 p 0) = tbl (ValueIdx.ix2 n0 n1) := by
  have hx0 : extractStridedSlice S8192x1 ![0, 0] (bins e mn mx) slices_S8192x2_o0_0_S8192x1 (ix2 p (0 : Fin 1))
      = BitVec.ofNat 32 n0.val := by
    rw [col_apply _ 0 (0 : Fin 2) rfl, bins_apply]; exact h0
  have hx1 : extractStridedSlice S8192x1 ![0, 1] (bins e mn mx) slices_S8192x2_o0_1_S8192x1 (ix2 p (0 : Fin 1))
      = BitVec.ofNat 32 n1.val := by
    rw [col_apply _ 1 (1 : Fin 2) rfl, bins_apply]; exact h1
  rw [k1_pay1_eq, column_apply, lanesum_apply]
  simp only [mulf_apply, matmul_row, onehot_apply _ p _ n0 hx0, onehot_apply _ p _ n1 hx1, shapeCast_self]
  rw [Finset.sum_eq_single n1 (fun j _ hj => by rw [if_neg hj, mul_zero]) (fun h => absurd (Finset.mem_univ _) h),
    if_pos rfl, mul_one,
    Finset.sum_eq_single n0 (fun k _ hk => by rw [if_neg hk, zero_mul]) (fun h => absurd (Finset.mem_univ _) h),
    if_pos rfl, one_mul]

end Cert.KernelIdeal.Hand

end
-- ==== Proof.Value.Law.lean ====
/-
  The two programs' lookups agree at one row.
  Every entry of the encoder's output is tanh of an extended real, hence a real number in [−1, 1]. So, per column j,
  the batch minimum mn_j and maximum mx_j are real numbers as well (mn_j is a lower bound of reals and at least −1, mx_j
  an upper bound of reals and at most 1), and mn_j ≤ e(r, j) ≤ mx_j for every row r; with mn_j < mx_j the bin index of
  e(r, j) is one of 0, …, 24. Where the bin indices of row r are n₀ and n₁, the kernel's stored value is the table's
  entry (n₀, n₁) — the table being the [625] array cast to [25, 25], that is the array's entry 25 · n₀ + n₁ — and the
  reference's lookup is the array's entry 25 · n₀ + n₁ too.
-/
import proofs.«100639_j53171695125388_2_alg».proof.Proof.Ref.Tail
import proofs.«100639_j53171695125388_2_alg».proof.Proof.Math.Range
import proofs.«100639_j53171695125388_2_alg».proof.Proof.Math.GatherPayload
import proofs.«100639_j53171695125388_2_alg».proof.Proof.Value.MinMax
import proofs.«100639_j53171695125388_2_alg».proof.Proof.Value.Enc

noncomputable section

namespace Cert.Hand.Spec

open Idealize.ShloMosaic Idealize.ShloMosaic.ValueIdx
open Cert.ReferenceIdeal Cert.ReferenceIdeal.Hand Cert.ReferenceIdeal.Facts₀ Cert.ReferenceIdeal.Facts

namespace Law

/-- tanh of an extended real is a real number in [−1, 1]: −1 at −∞, 1 at +∞, strictly between at a real. -/
theorem tanh_real (a : EReal) : ∃ v : ℝ, -1 ≤ v ∧ v ≤ 1 ∧ Ideal.tanh a = (v : EReal) := by
  induction a using EReal.rec with
  | bot => exact ⟨-1, le_rfl, by norm_num, by rw [Ideal.tanh_bot, EReal.coe_neg, EReal.coe_one]⟩
  | coe r => exact ⟨Real.tanh r, (Real.neg_one_lt_tanh r).le, (Real.tanh_lt_one r).le, rfl⟩
  | top => exact ⟨1, by norm_num, le_rfl, by rw [Ideal.tanh_top, EReal.coe_one]⟩

variable [Cert.ReferenceIdeal.Facts]

/-- A [2] vector broadcast to a [1, 2] row reads, at (u, j), the vector at j. -/
theorem row12_apply {α : Type} (v : S2.Idx → α) (u : Fin 1) (j : Fin 2) :
    broadcastInDim S1x2 ![1] bcast_S2_S1x2_1 v (ix2 u j) = v (ix1 j) := by
  refine broadcastInDim_apply _ _ v (ix2 u j) (ix1 j) ?_
  intro a
  match a with
  | ⟨0, _⟩ => rfl

/-- The single-axis reduction fact of the library, from the program's. -/
theorem redRows : S2097152x2.Reduces [0] S2 :=
  ⟨reducesTo_S2097152x2_S2_d0.1, Nat.one_pos, reducesTo_S2097152x2_S2_d0.2⟩

/-- THE BIN INDEX OF AN ENTRY IS IN RANGE: where every entry of the array is a real in [−1, 1] and column j's minimum is
    below its maximum, the bin word of entry (r, j) against that minimum and maximum is the word of some n < 25. -/
theorem bin_in_range (ER : FVec Ideal S2097152x2 .f32)
    (hreal : ∀ i, ∃ v : ℝ, -1 ≤ v ∧ v ≤ 1 ∧ ER i = (v : EReal)) (j : Fin 2)
    (hsp : mnR (F := Ideal) ER (ix2 0 j) < mxR (F := Ideal) ER (ix2 0 j)) (r : Fin 2097152) :
    ∃ n : Fin 25, idxWord (ER (ix2 r j)) (mnR (F := Ideal) ER (ix2 0 j)) (mxR (F := Ideal) ER (ix2 0 j))
      = BitVec.ofNat 32 n.val := by
  have hmn : mnR (F := Ideal) ER (ix2 0 j)
      = Host.reduce FloatOps.minimumf ER (constant (F := Ideal) S_ .f32 0x7F800000#32) reducesTo_S2097152x2_S2_d0 h_S_ (ix1 j) := by
    unfold mnR
    exact row12_apply _ 0 j
  have hmx : mxR (F := Ideal) ER (ix2 0 j)
      = Host.reduce FloatOps.maximumf ER (constant (F := Ideal) S_ .f32 0xFF800000#32) reducesTo_S2097152x2_S2_d0 h_S_ (ix1 j) := by
    unfold mxR
    exact row12_apply _ 0 j
  obtain ⟨v, _, _, hv⟩ := hreal (ix2 r j)
  generalize mnR (F := Ideal) ER (ix2 0 j) = A at hsp hmn ⊢
  generalize mxR (F := Ideal) ER (ix2 0 j) = B at hsp hmx ⊢
  have hAle : ∀ p : Fin 2097152, A ≤ ER (ix2 p j) := by
    rw [hmn]
    exact (le_hostColMin_iff ER reducesTo_S2097152x2_S2_d0 redRows h_S_ j _).mp le_rfl
  have hAlo : ((-1 : ℝ) : EReal) ≤ A := by
    rw [hmn]
    refine (le_hostColMin_iff ER reducesTo_S2097152x2_S2_d0 redRows h_S_ j _).mpr fun p => ?_
    obtain ⟨u, hu1, _, hu⟩ := hreal (ix2 p j)
    rw [hu]
    exact EReal.coe_le_coe_iff.mpr hu1
  have hBge : ∀ p : Fin 2097152, ER (ix2 p j) ≤ B := by
    rw [hmx]
    exact (hostColMax_le_iff ER reducesTo_S2097152x2_S2_d0 redRows h_S_ j _).mp le_rfl
  have hBhi : B ≤ ((1 : ℝ) : EReal) := by
    rw [hmx]
    refine (hostColMax_le_iff ER reducesTo_S2097152x2_S2_d0 redRows h_S_ j _).mpr fun p => ?_
    obtain ⟨u, _, hu2, hu⟩ := hreal (ix2 p j)
    rw [hu]
    exact EReal.coe_le_coe_iff.mpr hu2
  have hAr : A ≤ (v : EReal) := hv ▸ hAle r
  have hBr : (v : EReal) ≤ B := hv ▸ hBge r
  have hAtop : A ≠ ⊤ := ne_top_of_le_ne_top (EReal.coe_ne_top v) hAr
  have hAbot : A ≠ ⊥ := ne_bot_of_le_ne_bot (EReal.coe_ne_bot (-1)) hAlo
  have hBtop : B ≠ ⊤ := ne_top_of_le_ne_top (EReal.coe_ne_top 1) hBhi
  have hBbot : B ≠ ⊥ := ne_bot_of_le_ne_bot (EReal.coe_ne_bot v) hBr
  lift A to ℝ using ⟨hAtop, hAbot⟩
  lift B to ℝ using ⟨hBtop, hBbot⟩
  rw [hv]
  exact idxWord_in_range v A B (EReal.coe_le_coe_iff.mp hAr) (EReal.coe_le_coe_iff.mp hBr) (EReal.coe_lt_coe_iff.mp hsp)

end Law

open Law

/-- EVERY ENTRY OF THE ENCODER'S OUTPUT IS A REAL IN [−1, 1]: it is tanh of an extended real. -/
theorem encR_real [Cert.ReferenceIdeal.Facts] (x : FVec Ideal Cert.ReferenceIdeal.S2097152x32 .f32)
    (w1 : FVec Ideal Cert.ReferenceIdeal.S20x32 .f32) (b1 : FVec Ideal Cert.ReferenceIdeal.S20 .f32)
    (w2 : FVec Ideal Cert.ReferenceIdeal.S5x20 .f32) (b2 : FVec Ideal Cert.ReferenceIdeal.S5 .f32)
    (w3 : FVec Ideal Cert.ReferenceIdeal.S2x5 .f32) (b3 : FVec Ideal Cert.ReferenceIdeal.S2 .f32)
    (i : Cert.ReferenceIdeal.S2097152x2.Idx) :
    ∃ v : ℝ, -1 ≤ v ∧ v ≤ 1 ∧ Cert.ReferenceIdeal.Hand.encR (F := Ideal) x w1 b1 w2 b2 w3 b3 i = (v : EReal) := by
  obtain ⟨r, j, rfl⟩ : ∃ (r : Fin 2097152) (j : Fin 2), i = ix2 r j := ⟨i 0, i 1, eq_ix2 i⟩
  rw [encR_apply]
  exact tanh_real _

/-- THE TWO LOOKUPS AT ONE ROW: the kernel's stored value at row p of a block whose row p is the array's row r, and the
    reference's lookup at row r, are the same entry of the table. -/
theorem lookup_law [Cert.KernelIdeal.Facts] [Cert.ReferenceIdeal.Facts] (ER : FVec Ideal Cert.ReferenceIdeal.S2097152x2 .f32)
    (bm : FVec Ideal Cert.ReferenceIdeal.S625 .f32)
    (hreal : ∀ i, ∃ v : ℝ, -1 ≤ v ∧ v ≤ 1 ∧ ER i = (v : EReal))
    (hspread : ∀ j : Fin 2, Cert.ReferenceIdeal.Hand.mnR (F := Ideal) ER (ValueIdx.ix2 0 j) < Cert.ReferenceIdeal.Hand.mxR (F := Ideal) ER (ValueIdx.ix2 0 j))
    (eb : Vec Ideal Cert.KernelIdeal.S8192x2 .f32) (r : Fin 2097152) (p : Fin 8192)
    (heb : ∀ j : Fin 2, eb (ValueIdx.ix2 p j) = ER (ValueIdx.ix2 r j)) :
    Cert.KernelIdeal.Gen.k1_pay1 (F := Ideal) eb (Cert.ReferenceIdeal.Hand.mnR (F := Ideal) ER) (Cert.ReferenceIdeal.Hand.mxR (F := Ideal) ER)
        (shapeCast Cert.KernelIdeal.S25x25 bm Cert.KernelIdeal.Facts₀.shapeCasts_S625_S25x25) (ValueIdx.ix2 p 0)
      = broadcastInDim Cert.ReferenceIdeal.S2097152x1 ![0] Cert.ReferenceIdeal.Facts₀.bcast_S2097152_S2097152x1_0
          (Cert.ReferenceIdeal.Hand.takeR (F := Ideal) bm
            (Cert.ReferenceIdeal.Hand.flatR (Cert.ReferenceIdeal.Hand.binsR (F := Ideal) ER (Cert.ReferenceIdeal.Hand.mnR ER) (Cert.ReferenceIdeal.Hand.mxR ER))))
          (ValueIdx.ix2 r 0) := by
  obtain ⟨n0, hn0⟩ := bin_in_range ER hreal 0 (hspread 0) r
  obtain ⟨n1, hn1⟩ := bin_in_range ER hreal 1 (hspread 1) r
  have hK := Cert.KernelIdeal.Hand.k1_pay1_apply eb (mnR (F := Ideal) ER) (mxR (F := Ideal) ER)
    (shapeCast Cert.KernelIdeal.S25x25 bm Cert.KernelIdeal.Facts₀.shapeCasts_S625_S25x25) p n0 n1
    (by rw [heb 0]; exact hn0) (by rw [heb 1]; exact hn1)
  have hR := lookup_apply bm (binsR (F := Ideal) ER (mnR (F := Ideal) ER) (mxR (F := Ideal) ER)) r n0 n1
    (by rw [binsR_apply]; exact hn0) (by rw [binsR_apply]; exact hn1)
  rw [hK, hR]
  refine shapeCast_apply bm _ (ix2 n0 n1) (ix1 ⟨n0.val * 25 + n1.val, by omega⟩) ?_
  rw [Shape.rowMajor_val_two, Shape.rowMajor_val_one]
  rfl

end Cert.Hand.Spec

end
-- ==== Proof.Value.OutArr.lean ====
/-
  The lookup call's result array. Point t of the grid writes back, for rows 8192·t … 8192·t + 8191, the table entry
  at each row's pair of bin indices; on equal rows of the encoding the kernel's lookup (two one-hot rows against the
  25 × 25 table) and the reference's (one flat index 25·n₀ + n₁ into the 625 values) give the same entry, and the 256
  blocks tile the column. So after the call the array is the reference's result column.
-/
import proofs.«100639_j53171695125388_2_alg».proof.Proof.Value.Blocks
import proofs.«100639_j53171695125388_2_alg».proof.Proof.KI.Region1
import proofs.«100639_j53171695125388_2_alg».proof.Proof.Ref.Stages
import proofs.«100639_j53171695125388_2_alg».proof.Proof.Value.Law

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Hand.Spec Cert.ReferenceIdeal.Hand

variable [Cert.ReferenceIdeal.Facts]
variable (V : (c : Dev nD) → (b : Ref sig .tc) → Buf (Elt Ideal) ((c : Thread nD τ).loc b)) (c : Dev nD)
variable (ER : FVec Ideal S2097152x2 .f32) (bm : FVec Ideal S625 .f32)

/-- What the lookup call finds in its input arrays: the encoding, its per-column minimum and maximum over the batch as
    [1, 2] rows, and the 625 table values as a 25 × 25 matrix. -/
structure Entry1 : Prop where
  he : (V c main_v7_0 : S2097152x2.Idx → Elt Ideal .f32) = ER
  hmn : (V c main_v7_1 : S1x2.Idx → Elt Ideal .f32) = mnR (F := Ideal) ER
  hmx : (V c main_v7_2 : S1x2.Idx → Elt Ideal .f32) = mxR (F := Ideal) ER
  htbl : (V c main_v6 : S25x25.Idx → Elt Ideal .f32) = shapeCast S25x25 bm Cert.KernelIdeal.Facts₀.shapeCasts_S625_S25x25

variable {V c ER bm}

/-- What point t's body stores at (p, 0) is the reference's result at row 8192·t + p: the block of the encoding at
    point t is rows 8192·t … 8192·t + 8191 of the encoding, the other three blocks are whole arrays, and on equal rows
    the kernel's lookup and the reference's agree. -/
theorem yblk1_apply (h : Entry1 V c ER bm) (hreal : ∀ i, ∃ v : ℝ, -1 ≤ v ∧ v ≤ 1 ∧ ER i = (v : EReal))
    (hspread : ∀ j : Fin 2, mnR (F := Ideal) ER (ix2 0 j) < mxR (F := Ideal) ER (ix2 0 j))
    (t : Fin cfg1.N) (p : Fin 8192) (r : Fin 2097152) (hr : r.val = t.val * 8192 + p.val) :
    yblk1 (F := Ideal) V c t (ix2 p (0 : Fin 1)) = (broadcastInDim S2097152x1 ![0] Cert.ReferenceIdeal.Facts₀.bcast_S2097152_S2097152x1_0
        (takeR (F := Ideal) bm (flatR (binsR (F := Ideal) ER (mnR ER) (mxR ER)))) : S2097152x1.Idx → Elt Ideal .f32) (ix2 r (0 : Fin 1)) := by
  unfold yblk1
  rw [iblk1_1_whole, iblk1_2_whole, iblk1_3_whole, h.hmn, h.hmx, h.htbl]
  exact lookup_law ER bm hreal hspread (iblk1 V c 0 t : Vec Ideal S8192x2 .f32) r p
    (fun j => (iblk1_0_rows V c t p j (ix2 r j) hr rfl).trans (congrFun h.he _))

theorem idx1_4 : ∀ t : Fin cfg1.N, win1_4.index t 0 = t.val ∧ win1_4.index t 1 = 0 :=
  (by decide +kernel : ∀ t : Fin grid1.N, win1_4.index t 0 = t.val ∧ win1_4.index t 1 = 0)

/-- The array index under (p, 0) of point t's block is (8192·t + p, 0). -/
theorem emb1_4 (t : Fin cfg1.N) (p : Fin 8192) (r : Fin 2097152) (hr : r.val = t.val * 8192 + p.val) :
    ((cfg1.win 4).blk t).view.emb (ix2 p (0 : Fin 1)) = (ix2 r (0 : Fin 1) : S2097152x1.Idx) := by
  funext a
  apply Fin.ext
  match a with
  | ⟨0, _⟩ => show win1_4.index t 0 * 8192 + 1 * p.val = r.val; rw [(idx1_4 t).1, hr]; omega
  | ⟨1, _⟩ => show win1_4.index t 1 * 1 + 1 * 0 = (0 : ℕ); rw [(idx1_4 t).2]

/-- A block that agrees entry by entry with a function of the array index, read under the block, is what the block's
    read of that function gives. -/
theorem cut_eq_read1_4 (G : S2097152x1.Idx → Elt Ideal .f32) (t : Fin cfg1.N) (Y : Vec Ideal S8192x1 .f32)
    (key : ∀ y : S8192x1.Idx, Y y = G (((cfg1.win 4).blk t).view.emb y)) :
    (cfg1.win 4).cut (grid1.coords t) Y = ((cfg1.win 4).blk t).view.read (Elt Ideal) G := by
  funext y
  rw [View.read_apply]
  exact key y

/-- What point t writes back to the result array is block t of the reference's result. -/
theorem flushed1_4 (h : Entry1 V c ER bm) (hreal : ∀ i, ∃ v : ℝ, -1 ≤ v ∧ v ≤ 1 ∧ ER i = (v : EReal))
    (hspread : ∀ j : Fin 2, mnR (F := Ideal) ER (ix2 0 j) < mxR (F := Ideal) ER (ix2 0 j)) (t : Fin cfg1.N) :
    (dat1 V c).flushed 4 t = ((cfg1.win 4).blk t).view.read (Elt Ideal) (broadcastInDim S2097152x1 ![0] Cert.ReferenceIdeal.Facts₀.bcast_S2097152_S2097152x1_0
        (takeR (F := Ideal) bm (flatR (binsR (F := Ideal) ER (mnR ER) (mxR ER)))) : S2097152x1.Idx → Elt Ideal .f32) := by
  show (cfg1.win 4).cut (grid1.coords t) ((dat1 V c).after 4 t) = _
  rw [after1_4]
  have hN : cfg1.N = 256 := N_1
  have ht : t.val < 256 := hN ▸ t.isLt
  refine cut_eq_read1_4 _ t _ fun y => ?_
  obtain ⟨p, q, rfl⟩ : ∃ (p : Fin 8192) (q : Fin 1), y = ix2 p q := ⟨y 0, y 1, eq_ix2 y⟩
  obtain rfl : q = 0 := Subsingleton.elim _ _
  rw [emb1_4 t p ⟨t.val * 8192 + p.val, by omega⟩ rfl]
  exact yblk1_apply h hreal hspread t p _ rfl

/-- An index of the result array is in point t's block iff each coordinate is in the block's range. -/
theorem mem_blk1_4 (t : Fin cfg1.N) (i : S2097152x1.Idx) :
    i ∈ ((cfg1.win 4).blk t).view.set ↔ ∀ a : Fin 2, win1_4.index t a * S8192x1.size a ≤ (i a).val ∧ (i a).val < win1_4.index t a * S8192x1.size a + S8192x1.size a := by
  show i ∈ ((View.whole main_v8).slice (win1_4.rect t)).set ↔ _
  rw [View.set_slice_whole, Rect.mem_set_unit]
  exact Iff.rfl

/-- After the lookup call its result array is the reference's result: the 256 blocks of 8192 rows tile the column. -/
theorem arr4 (h : Entry1 V c ER bm) (hreal : ∀ i, ∃ v : ℝ, -1 ≤ v ∧ v ≤ 1 ∧ ER i = (v : EReal))
    (hspread : ∀ j : Fin 2, mnR (F := Ideal) ER (ix2 0 j) < mxR (F := Ideal) ER (ix2 0 j)) :
    ((dat1 V c).arrAt 4 cfg1.N : S2097152x1.Idx → Elt Ideal .f32)
      = broadcastInDim S2097152x1 ![0] Cert.ReferenceIdeal.Facts₀.bcast_S2097152_S2097152x1_0
        (takeR (F := Ideal) bm (flatR (binsR (F := Ideal) ER (mnR ER) (mxR ER)))) :=
  (dat1 V c).arrAt_eq_of_cover 4 _ (fun t _ => flushed1_4 h hreal hspread t) fun i => by
    have hi0 : (i 0).val < 2097152 := (i 0).isLt
    have hi1 : (i 1).val < 1 := (i 1).isLt
    have hN : cfg1.N = 256 := N_1
    refine ⟨⟨(i 0).val / 8192, by omega⟩, flush1_4 _, ?_⟩
    rw [mem_blk1_4]
    intro a
    match a with
    | ⟨0, _⟩ =>
      show win1_4.index ⟨(i 0).val / 8192, _⟩ 0 * 8192 ≤ (i 0).val ∧ (i 0).val < win1_4.index ⟨(i 0).val / 8192, _⟩ 0 * 8192 + 8192
      rw [(idx1_4 _).1]; show (i 0).val / 8192 * 8192 ≤ (i 0).val ∧ (i 0).val < (i 0).val / 8192 * 8192 + 8192; omega
    | ⟨1, _⟩ =>
      show win1_4.index ⟨(i 0).val / 8192, _⟩ 1 * 1 ≤ (i 1).val ∧ (i 1).val < win1_4.index ⟨(i 0).val / 8192, _⟩ 1 * 1 + 1
      rw [(idx1_4 _).2]; omega

end Cert.KernelIdeal.Hand

end
-- ==== Proof.Value.Final.lean ====
/-
  The idealized kernel's run, read: from any launch memory every weakly fair execution terminates with the result
  array holding the reference's result function of the argument arrays, and the arguments unchanged — provided, per
  column of the encoder's output, the batch maximum exceeds the batch minimum (so that the quotient by their
  difference is an ordinary quotient). The encoder call leaves the reference's encoder stage, column minimum and
  column maximum in its three result arrays; the lookup call, entered from those, leaves the reference's result.
-/
import proofs.«100639_j53171695125388_2_alg».proof.Proof.KI.RunFacts
import proofs.«100639_j53171695125388_2_alg».proof.Proof.Value.EncArr
import proofs.«100639_j53171695125388_2_alg».proof.Proof.Value.MinMaxArr
import proofs.«100639_j53171695125388_2_alg».proof.Proof.Value.OutArr

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Hand.Spec Cert.ReferenceIdeal.Hand

variable [Cert.ReferenceIdeal.Facts]
variable (m : (ℓ : Loc nD τ sig) → Buf (Elt Ideal) ℓ) (ρ : Dev nD → PrngReg)

/-- The reference's encoder stage of core c's argument arrays. -/
abbrev encM (c : Dev nD) : FVec Ideal S2097152x2 .f32 :=
  encR (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's result of core c's argument arrays. -/
abbrev outM (c : Dev nD) : FVec Ideal S2097152x1 .f32 :=
  outR (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- What the encoder call finds: the arguments as launched, through the host's transposes and reshapes. -/
theorem entry0 (c : Dev nD) :
    Entry0 (V1 m ρ) c (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) :=
  ⟨V1_main_arg0 m ρ c, V1_main_v0 m ρ c, V1_main_v1 m ρ c, V1_main_v2 m ρ c, V1_main_v3 m ρ c, V1_main_v4 m ρ c, V1_main_v5 m ρ c⟩

/-- What the lookup call finds: the encoder call's three result arrays and the table. -/
theorem entry1 (c : Dev nD) : Entry1 (V2 m ρ) c (encM m c) (m ((c : Thread nD τ).loc main_arg7)) :=
  ⟨(V2_main_v7_0 m ρ c).trans (arr7 (entry0 m ρ c)), (V2_main_v7_1 m ρ c).trans (arr8 (entry0 m ρ c)),
    (V2_main_v7_2 m ρ c).trans (arr9 (entry0 m ρ c)), (V2_main_v6 m ρ c).trans (V1_main_v6 m ρ c)⟩

/-- The result array after the run is the reference's result. -/
theorem result (c : Dev nD) (hspread : ∀ j : Fin 2, mnR (F := Ideal) (encM m c) (ix2 0 j) < mxR (F := Ideal) (encM m c) (ix2 0 j)) :
    W3 m ρ c (Proc.devRef .tc main_v8) = outM m c :=
  (W3_main_v8 m ρ c).trans (arr4 (entry1 m ρ c) (fun i => encR_real _ _ _ _ _ _ _ i) hspread)

/-- THE RUN, READ. -/
theorem run (hspread : ∀ (c : Dev nD) (j : Fin 2), mnR (F := Ideal) (encM m c) (ix2 0 j) < mxR (F := Ideal) (encM m c) (ix2 0 j)) :
    θ_run defs (onTc (τ := τ) (main (F := Ideal))) ⟨m, fun _ => 0, ρ⟩ (fun r => ∀ c : Dev nD,
      r.2.mem ((c.tc : Thread nD τ).loc main_v8) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v8 (by decide))).trans (result m ρ c (hspread c)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c)⟩) (run_all m ρ)

end Cert.KernelIdeal.Hand

end
-- ==== Proof.Ref.Run.lean ====
/-
  The reference's run, read back: its @main is a straight line of host operations (the two outlined functions
  it calls are unfolded at their call sites), so every weakly fair execution terminates, the result buffer
  holds the composition of the stages applied to the arguments' launch contents, and the arguments are unchanged.
-/
import proofs.«100639_j53171695125388_2_alg».proof.Proof.Ref.Stages
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The table argument and the flat index, as the typed references the lookup function is called on. -/
abbrev tArg7 : StableHlo.TRef sig ⟨S625, .f32⟩ := .of main_arg7
@[inherit_doc tArg7]
abbrev tV41 : StableHlo.TRef sig ⟨S2097152, .i32⟩ := .of main_v41

/-- @main's operations in order, the lookup function (and the selection function it calls) unfolded at the call:
    forty-eight of @main's own, the lookup's twenty-two over the call's buffers, and the final broadcast. -/
abbrev ops : List (HloOp τ sig (Elt F)) :=
  [ StableHlo.unary main_arg1 main_v0 ((transpose S32x20 [1, 0] · transposes_S20x32_S32x20_1_0) : (⟨S20x32, .f32⟩ : BufTy).Contents (Elt F) → (⟨S32x20, .f32⟩ : BufTy).Contents (Elt F)),
    StableHlo.binary main_arg0 main_v0 main_v1 ((fun l r => Host.dotGeneral dot_S2097152x32_S32x20_S2097152x20_1_0_0_1_n_n none l r) : (⟨S2097152x32, .f32⟩ : BufTy).Contents (Elt F) → (⟨S32x20, .f32⟩ : BufTy).Contents (Elt F) → (⟨S2097152x20, .f32⟩ : BufTy).Contents (Elt F)),
    StableHlo.unary main_arg2 main_v2 (broadcastInDim S1x20 ![1] bcast_S20_S1x20_1 : (⟨S20, .f32⟩ : BufTy).Contents (Elt F) → (⟨S1x20, .f32⟩ : BufTy).Contents (Elt F)),
    StableHlo.unary main_v2 main_v3 (broadcastInDim S2097152x20 ![0, 1] bcast_S1x20_S2097152x20_0_1 : (⟨S1x20, .f32⟩ : BufTy).Contents (Elt F) → (⟨S2097152x20, .f32⟩ : BufTy).Contents (Elt F)),
    StableHlo.binary main_v1 main_v3 main_v4 (addf : (⟨S2097152x20, .f32⟩ : BufTy).Contents (Elt F) → (⟨S2097152x20, .f32⟩ : BufTy).Contents (Elt F) → (⟨S2097152x20, .f32⟩ : BufTy).Contents (Elt F)),
    StableHlo.unary main_v4 main_v5 (Host.tanh : (⟨S2097152x20, .f32⟩ : BufTy).Contents (Elt F) → (⟨S2097152x20, .f32⟩ : BufTy).Contents (Elt F)),
    StableHlo.unary main_arg3 main_v6 ((transpose S20x5 [1, 0] · transposes_S5x20_S20x5_1_0) : (⟨S5x20, .f32⟩ : BufTy).Contents (Elt F) → (⟨S20x5, .f32⟩ : BufTy).Contents (Elt F)),
    StableHlo.binary main_v5 main_v6 main_v7 ((fun l r => Host.dotGeneral dot_S2097152x20_S20x5_S2097152x5_1_0_0_1_n_n none l r) : (⟨S2097152x20, .f32⟩ : BufTy).Contents (Elt F) → (⟨S20x5, .f32⟩ : BufTy).Contents (Elt F) → (⟨S2097152x5, .f32⟩ : BufTy).Contents (Elt F)),
    StableHlo.unary main_arg4 main_v8 (broadcastInDim S1x5 ![1] bcast_S5_S1x5_1 : (⟨S5, .f32⟩ : BufTy).Contents (Elt F) → (⟨S1x5, .f32⟩ : BufTy).Contents (Elt F)),
    StableHlo.unary main_v8 main_v9 (broadcastInDim S2097152x5 ![0, 1] bcast_S1x5_S2097152x5_0_1 : (⟨S1x5, .f32⟩ : BufTy).Contents (Elt F) → (⟨S2097152x5, .f32⟩ : BufTy).Contents (Elt F)),
    StableHlo.binary main_v7 main_v9 main_v10 (addf : (⟨S2097152x5, .f32⟩ : BufTy).Contents (Elt F) → (⟨S2097152x5, .f32⟩ : BufTy).Contents (Elt F) → (⟨S2097152x5, .f32⟩ : BufTy).Contents (Elt F)),
    StableHlo.unary main_v10 main_v11 (Host.tanh : (⟨S2097152x5, .f32⟩ : BufTy).Contents (Elt F) → (⟨S2097152x5, .f32⟩ : BufTy).Contents (Elt F)),
    StableHlo.unary main_arg5 main_v12 ((transpose S5x2 [1, 0] · transposes_S2x5_S5x2_1_0) : (⟨S2x5, .f32⟩ : BufTy).Contents (Elt F) → (⟨S5x2, .f32⟩ : BufTy).Contents (Elt F)),
    StableHlo.binary main_v11 main_v12 main_v13 ((fun l r => Host.dotGeneral dot_S2097152x5_S5x2_S2097152x2_1_0_0_1_n_n none l r) : (⟨S2097152x5, .f32⟩ : BufTy).Contents (Elt F) → (⟨S5x2, .f32⟩ : BufTy).Contents (Elt F) → (⟨S2097152x2, .f32⟩ : BufTy).Contents (Elt F)),
    StableHlo.unary main_arg6 main_v14 (broadcastInDim S1x2 ![1] bcast_S2_S1x2_1 : (⟨S2, .f32⟩ : BufTy).Contents (Elt F) → (⟨S1x2, .f32⟩ : BufTy).Contents (Elt F)),
    StableHlo.unary main_v14 main_v15 (broadcastInDim S2097152x2 ![0, 1] bcast_S1x2_S2097152x2_0_1 : (⟨S1x2, .f32⟩ : BufTy).Contents (Elt F) → (⟨S2097152x2, .f32⟩ : BufTy).Contents (Elt F)),
    StableHlo.binary main_v13 main_v15 main_v16 (addf : (⟨S2097152x2, .f32⟩ : BufTy).Contents (Elt F) → (⟨S2097152x2, .f32⟩ : BufTy).Contents (Elt F) → (⟨S2097152x2, .f32⟩ : BufTy).Contents (Elt F)),
    StableHlo.unary main_v16 main_v17 (Host.tanh : (⟨S2097152x2, .f32⟩ : BufTy).Contents (Elt F) → (⟨S2097152x2, .f32⟩ : BufTy).Contents (Elt F)),
    StableHlo.nullary main_cst (constant S_ .f32 0x7F800000#32),
    StableHlo.binary main_v17 main_cst main_v18 ((fun x v => Host.reduce FloatOps.minimumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    StableHlo.unary main_v18 main_v19 (broadcastInDim S1x2 ![1] bcast_S2_S1x2_1 : (⟨S2, .f32⟩ : BufTy).Contents (Elt F) → (⟨S1x2, .f32⟩ : BufTy).Contents (Elt F)),
    StableHlo.nullary main_cst_0 (constant S_ .f32 0xFF800000#32),
    StableHlo.binary main_v17 main_cst_0 main_v20 ((fun x v => Host.reduce FloatOps.maximumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    StableHlo.unary main_v20 main_v21 (broadcastInDim S1x2 ![1] bcast_S2_S1x2_1 : (⟨S2, .f32⟩ : BufTy).Contents (Elt F) → (⟨S1x2, .f32⟩ : BufTy).Contents (Elt F)),
    StableHlo.unary main_v19 main_v22 (broadcastInDim S2097152x2 ![0, 1] bcast_S1x2_S2097152x2_0_1 : (⟨S1x2, .f32⟩ : BufTy).Contents (Elt F) → (⟨S2097152x2, .f32⟩ : BufTy).Contents (Elt F)),
    StableHlo.binary main_v17 main_v22 main_v23 (subf : (⟨S2097152x2, .f32⟩ : BufTy).Contents (Elt F) → (⟨S2097152x2, .f32⟩ : BufTy).Contents (Elt F) → (⟨S2097152x2, .f32⟩ : BufTy).Contents (Elt F)),
    StableHlo.binary main_v21 main_v19 main_v24 (subf : (⟨S1x2, .f32⟩ : BufTy).Contents (Elt F) → (⟨S1x2, .f32⟩ : BufTy).Contents (Elt F) → (⟨S1x2, .f32⟩ : BufTy).Contents (Elt F)),
    StableHlo.unary main_v24 main_v25 (broadcastInDim S2097152x2 ![0, 1] bcast_S1x2_S2097152x2_0_1 : (⟨S1x2, .f32⟩ : BufTy).Contents (Elt F) → (⟨S2097152x2, .f32⟩ : BufTy).Contents (Elt F)),
    StableHlo.binary main_v23 main_v25 main_v26 (Host.divf : (⟨S2097152x2, .f32⟩ : BufTy).Contents (Elt F) → (⟨S2097152x2, .f32⟩ : BufTy).Contents (Elt F) → (⟨S2097152x2, .f32⟩ : BufTy).Contents (Elt F)),
    StableHlo.nullary main_cst_1 (constant S_ .f32 0x3F7AE148#32),
    StableHlo.unary main_cst_1 main_v27 (broadcastInDim S2097152x2 ![] bcast_S_S2097152x2 : (⟨S_, .f32⟩ : BufTy).Contents (Elt F) → (⟨S2097152x2, .f32⟩ : BufTy).Contents (Elt F)),
    StableHlo.binary main_v26 main_v27 main_v28 (mulf : (⟨S2097152x2, .f32⟩ : BufTy).Contents (Elt F) → (⟨S2097152x2, .f32⟩ : BufTy).Contents (Elt F) → (⟨S2097152x2, .f32⟩ : BufTy).Contents (Elt F)),
    StableHlo.nullary main_cst_2 (constant S_ .f32 0x3C23D70A#32),
    StableHlo.unary main_cst_2 main_v29 (broadcastInDim S2097152x2 ![] bcast_S_S2097152x2 : (⟨S_, .f32⟩ : BufTy).Contents (Elt F) → (⟨S2097152x2, .f32⟩ : BufTy).Contents (Elt F)),
    StableHlo.binary main_v28 main_v29 main_v30 (addf : (⟨S2097152x2, .f32⟩ : BufTy).Contents (Elt F) → (⟨S2097152x2, .f32⟩ : BufTy).Contents (Elt F) → (⟨S2097152x2, .f32⟩ : BufTy).Contents (Elt F)),
    StableHlo.nullary main_cst_3 (constant S_ .f32 0x3D23D70A#32),
    StableHlo.unary main_cst_3 main_v31 (broadcastInDim S2097152x2 ![] bcast_S_S2097152x2 : (⟨S_, .f32⟩ : BufTy).Contents (Elt F) → (⟨S2097152x2, .f32⟩ : BufTy).Contents (Elt F)),
    StableHlo.binary main_v30 main_v31 main_v32 (Host.divf : (⟨S2097152x2, .f32⟩ : BufTy).Contents (Elt F) → (⟨S2097152x2, .f32⟩ : BufTy).Contents (Elt F) → (⟨S2097152x2, .f32⟩ : BufTy).Contents (Elt F)),
    StableHlo.unary main_v32 main_v33 (Host.floor : (⟨S2097152x2, .f32⟩ : BufTy).Contents (Elt F) → (⟨S2097152x2, .f32⟩ : BufTy).Contents (Elt F)),
    StableHlo.unary main_v33 main_v34 (fptosi 32 : (⟨S2097152x2, .f32⟩ : BufTy).Contents (Elt F) → (⟨S2097152x2, .i32⟩ : BufTy).Contents (Elt F)),
    StableHlo.unary main_v34 main_v35 ((extractStridedSlice S2097152x1 ![0, 0] · slices_S2097152x2_S2097152x1_0_0) : (⟨S2097152x2, .i32⟩ : BufTy).Contents (Elt F) → (⟨S2097152x1, .i32⟩ : BufTy).Contents (Elt F)),
    StableHlo.reshape main_v35 main_v36 rfl shapeCasts_S2097152x1_S2097152,
    StableHlo.nullary main_c (constantI S_ 32 25#32),
    StableHlo.unary main_c main_v37 (broadcastInDim S2097152 ![] bcast_S_S2097152 : (⟨S_, .i32⟩ : BufTy).Contents (Elt F) → (⟨S2097152, .i32⟩ : BufTy).Contents (Elt F)),
    StableHlo.binary main_v36 main_v37 main_v38 (muli : (⟨S2097152, .i32⟩ : BufTy).Contents (Elt F) → (⟨S2097152, .i32⟩ : BufTy).Contents (Elt F) → (⟨S2097152, .i32⟩ : BufTy).Contents (Elt F)),
    StableHlo.unary main_v34 main_v39 ((extractStridedSlice S2097152x1 ![0, 1] · slices_S2097152x2_S2097152x1_0_1) : (⟨S2097152x2, .i32⟩ : BufTy).Contents (Elt F) → (⟨S2097152x1, .i32⟩ : BufTy).Contents (Elt F)),
    StableHlo.reshape main_v39 main_v40 rfl shapeCasts_S2097152x1_S2097152,
    StableHlo.binary main_v38 main_v40 main_v41 (addi : (⟨S2097152, .i32⟩ : BufTy).Contents (Elt F) → (⟨S2097152, .i32⟩ : BufTy).Contents (Elt F) → (⟨S2097152, .i32⟩ : BufTy).Contents (Elt F)),
    StableHlo.TRef.nullary main_call0.c (constantI S_ 32 0#32),
    StableHlo.TRef.unary main_call0.c main_call0.v0 (broadcastInDim S2097152 ![] bcast_S_S2097152),
    StableHlo.TRef.binary tV41 main_call0.v0 main_call0.v1 (cmpi .slt),
    StableHlo.TRef.nullary main_call0.c_0 (constantI S_ 32 625#32),
    StableHlo.TRef.unary main_call0.c_0 main_call0.v2 (broadcastInDim S2097152 ![] bcast_S_S2097152),
    StableHlo.TRef.binary tV41 main_call0.v2 main_call0.v3 addi,
    StableHlo.TRef.ternary main_call0.v1 main_call0.v3 tV41 main_call0.call0.v0 select,
    StableHlo.TRef.unary main_call0.call0.v0 main_call0.v5 (broadcastInDim S2097152x1 ![0] bcast_S2097152_S2097152x1_0),
    StableHlo.TRef.nullary main_call0.c_1 (constantI S1 32 624#32),
    StableHlo.TRef.nullary main_call0.c_2 (constantI S_ 32 0#32),
    StableHlo.TRef.unary main_call0.c_2 main_call0.v6 (broadcastInDim S2097152x1 ![] bcast_S_S2097152x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S2097152x1 ![0, 1] bcast_S1x1_S2097152x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2097152x1_S2097152_d1 h_S_),
    StableHlo.TRef.binary tArg7 main_call0.v5 main_call0.v13 (fun x i => Host.gather gather_S625_S2097152x1_S2097152_n_0_n_n_0_1_1 x i),
    StableHlo.TRef.nullary main_call0.cst (constant S_ .f32 0x7FC00000#32),
    StableHlo.TRef.unary main_call0.cst main_call0.v14 (broadcastInDim S2097152 ![] bcast_S_S2097152),
    StableHlo.TRef.ternary main_call0.v12 main_call0.v13 main_call0.v14 main_call0.v15 select,
    StableHlo.unary main_v42 main_v43 (broadcastInDim S2097152x1 ![0] bcast_S2097152_S2097152x1_0 : (⟨S2097152, .f32⟩ : BufTy).Contents (Elt F) → (⟨S2097152x1, .f32⟩ : BufTy).Contents (Elt F)) ]
/-- The encoder's eighteen operations. -/
def opsA : List (HloOp τ sig (Elt F)) :=
  [ StableHlo.unary main_arg1 main_v0 ((transpose S32x20 [1, 0] · transposes_S20x32_S32x20_1_0) : (⟨S20x32, .f32⟩ : BufTy).Contents (Elt F) → (⟨S32x20, .f32⟩ : BufTy).Contents (Elt F)),
    StableHlo.binary main_arg0 main_v0 main_v1 ((fun l r => Host.dotGeneral dot_S2097152x32_S32x20_S2097152x20_1_0_0_1_n_n none l r) : (⟨S2097152x32, .f32⟩ : BufTy).Contents (Elt F) → (⟨S32x20, .f32⟩ : BufTy).Contents (Elt F) → (⟨S2097152x20, .f32⟩ : BufTy).Contents (Elt F)),
    StableHlo.unary main_arg2 main_v2 (broadcastInDim S1x20 ![1] bcast_S20_S1x20_1 : (⟨S20, .f32⟩ : BufTy).Contents (Elt F) → (⟨S1x20, .f32⟩ : BufTy).Contents (Elt F)),
    StableHlo.unary main_v2 main_v3 (broadcastInDim S2097152x20 ![0, 1] bcast_S1x20_S2097152x20_0_1 : (⟨S1x20, .f32⟩ : BufTy).Contents (Elt F) → (⟨S2097152x20, .f32⟩ : BufTy).Contents (Elt F)),
    StableHlo.binary main_v1 main_v3 main_v4 (addf : (⟨S2097152x20, .f32⟩ : BufTy).Contents (Elt F) → (⟨S2097152x20, .f32⟩ : BufTy).Contents (Elt F) → (⟨S2097152x20, .f32⟩ : BufTy).Contents (Elt F)),
    StableHlo.unary main_v4 main_v5 (Host.tanh : (⟨S2097152x20, .f32⟩ : BufTy).Contents (Elt F) → (⟨S2097152x20, .f32⟩ : BufTy).Contents (Elt F)),
    StableHlo.unary main_arg3 main_v6 ((transpose S20x5 [1, 0] · transposes_S5x20_S20x5_1_0) : (⟨S5x20, .f32⟩ : BufTy).Contents (Elt F) → (⟨S20x5, .f32⟩ : BufTy).Contents (Elt F)),
    StableHlo.binary main_v5 main_v6 main_v7 ((fun l r => Host.dotGeneral dot_S2097152x20_S20x5_S2097152x5_1_0_0_1_n_n none l r) : (⟨S2097152x20, .f32⟩ : BufTy).Contents (Elt F) → (⟨S20x5, .f32⟩ : BufTy).Contents (Elt F) → (⟨S2097152x5, .f32⟩ : BufTy).Contents (Elt F)),
    StableHlo.unary main_arg4 main_v8 (broadcastInDim S1x5 ![1] bcast_S5_S1x5_1 : (⟨S5, .f32⟩ : BufTy).Contents (Elt F) → (⟨S1x5, .f32⟩ : BufTy).Contents (Elt F)),
    StableHlo.unary main_v8 main_v9 (broadcastInDim S2097152x5 ![0, 1] bcast_S1x5_S2097152x5_0_1 : (⟨S1x5, .f32⟩ : BufTy).Contents (Elt F) → (⟨S2097152x5, .f32⟩ : BufTy).Contents (Elt F)),
    StableHlo.binary main_v7 main_v9 main_v10 (addf : (⟨S2097152x5, .f32⟩ : BufTy).Contents (Elt F) → (⟨S2097152x5, .f32⟩ : BufTy).Contents (Elt F) → (⟨S2097152x5, .f32⟩ : BufTy).Contents (Elt F)),
    StableHlo.unary main_v10 main_v11 (Host.tanh : (⟨S2097152x5, .f32⟩ : BufTy).Contents (Elt F) → (⟨S2097152x5, .f32⟩ : BufTy).Contents (Elt F)),
    StableHlo.unary main_arg5 main_v12 ((transpose S5x2 [1, 0] · transposes_S2x5_S5x2_1_0) : (⟨S2x5, .f32⟩ : BufTy).Contents (Elt F) → (⟨S5x2, .f32⟩ : BufTy).Contents (Elt F)),
    StableHlo.binary main_v11 main_v12 main_v13 ((fun l r => Host.dotGeneral dot_S2097152x5_S5x2_S2097152x2_1_0_0_1_n_n none l r) : (⟨S2097152x5, .f32⟩ : BufTy).Contents (Elt F) → (⟨S5x2, .f32⟩ : BufTy).Contents (Elt F) → (⟨S2097152x2, .f32⟩ : BufTy).Contents (Elt F)),
    StableHlo.unary main_arg6 main_v14 (broadcastInDim S1x2 ![1] bcast_S2_S1x2_1 : (⟨S2, .f32⟩ : BufTy).Contents (Elt F) → (⟨S1x2, .f32⟩ : BufTy).Contents (Elt F)),
    StableHlo.unary main_v14 main_v15 (broadcastInDim S2097152x2 ![0, 1] bcast_S1x2_S2097152x2_0_1 : (⟨S1x2, .f32⟩ : BufTy).Contents (Elt F) → (⟨S2097152x2, .f32⟩ : BufTy).Contents (Elt F)),
    StableHlo.binary main_v13 main_v15 main_v16 (addf : (⟨S2097152x2, .f32⟩ : BufTy).Contents (Elt F) → (⟨S2097152x2, .f32⟩ : BufTy).Contents (Elt F) → (⟨S2097152x2, .f32⟩ : BufTy).Contents (Elt F)),
    StableHlo.unary main_v16 main_v17 (Host.tanh : (⟨S2097152x2, .f32⟩ : BufTy).Contents (Elt F) → (⟨S2097152x2, .f32⟩ : BufTy).Contents (Elt F)) ]

/-- The six operations of the per-column minimum and maximum. -/
def opsB : List (HloOp τ sig (Elt F)) :=
  [ StableHlo.nullary main_cst (constant S_ .f32 0x7F800000#32),
    StableHlo.binary main_v17 main_cst main_v18 ((fun x v => Host.reduce FloatOps.minimumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    StableHlo.unary main_v18 main_v19 (broadcastInDim S1x2 ![1] bcast_S2_S1x2_1 : (⟨S2, .f32⟩ : BufTy).Contents (Elt F) → (⟨S1x2, .f32⟩ : BufTy).Contents (Elt F)),
    StableHlo.nullary main_cst_0 (constant S_ .f32 0xFF800000#32),
    StableHlo.binary main_v17 main_cst_0 main_v20 ((fun x v => Host.reduce FloatOps.maximumf x v reducesTo_S2097152x2_S2_d0 h_S_) : (⟨S2097152x2, .f32⟩ : BufTy).Contents (Elt F) → (⟨S_, .f32⟩ : BufTy).Contents (Elt F) → (⟨S2, .f32⟩ : BufTy).Contents (Elt F)),
    StableHlo.unary main_v20 main_v21 (broadcastInDim S1x2 ![1] bcast_S2_S1x2_1 : (⟨S2, .f32⟩ : BufTy).Contents (Elt F) → (⟨S1x2, .f32⟩ : BufTy).Contents (Elt F)) ]

/-- The sixteen operations of the two bin indices. -/
def opsC : List (HloOp τ sig (Elt F)) :=
  [ StableHlo.unary main_v19 main_v22 (broadcastInDim S2097152x2 ![0, 1] bcast_S1x2_S2097152x2_0_1 : (⟨S1x2, .f32⟩ : BufTy).Contents (Elt F) → (⟨S2097152x2, .f32⟩ : BufTy).Contents (Elt F)),
    StableHlo.binary main_v17 main_v22 main_v23 (subf : (⟨S2097152x2, .f32⟩ : BufTy).Contents (Elt F) → (⟨S2097152x2, .f32⟩ : BufTy).Contents (Elt F) → (⟨S2097152x2, .f32⟩ : BufTy).Contents (Elt F)),
    StableHlo.binary main_v21 main_v19 main_v24 (subf : (⟨S1x2, .f32⟩ : BufTy).Contents (Elt F) → (⟨S1x2, .f32⟩ : BufTy).Contents (Elt F) → (⟨S1x2, .f32⟩ : BufTy).Contents (Elt F)),
    StableHlo.unary main_v24 main_v25 (broadcastInDim S2097152x2 ![0, 1] bcast_S1x2_S2097152x2_0_1 : (⟨S1x2, .f32⟩ : BufTy).Contents (Elt F) → (⟨S2097152x2, .f32⟩ : BufTy).Contents (Elt F)),
    StableHlo.binary main_v23 main_v25 main_v26 (Host.divf : (⟨S2097152x2, .f32⟩ : BufTy).Contents (Elt F) → (⟨S2097152x2, .f32⟩ : BufTy).Contents (Elt F) → (⟨S2097152x2, .f32⟩ : BufTy).Contents (Elt F)),
    StableHlo.nullary main_cst_1 (constant S_ .f32 0x3F7AE148#32),
    StableHlo.unary main_cst_1 main_v27 (broadcastInDim S2097152x2 ![] bcast_S_S2097152x2 : (⟨S_, .f32⟩ : BufTy).Contents (Elt F) → (⟨S2097152x2, .f32⟩ : BufTy).Contents (Elt F)),
    StableHlo.binary main_v26 main_v27 main_v28 (mulf : (⟨S2097152x2, .f32⟩ : BufTy).Contents (Elt F) → (⟨S2097152x2, .f32⟩ : BufTy).Contents (Elt F) → (⟨S2097152x2, .f32⟩ : BufTy).Contents (Elt F)),
    StableHlo.nullary main_cst_2 (constant S_ .f32 0x3C23D70A#32),
    StableHlo.unary main_cst_2 main_v29 (broadcastInDim S2097152x2 ![] bcast_S_S2097152x2 : (⟨S_, .f32⟩ : BufTy).Contents (Elt F) → (⟨S2097152x2, .f32⟩ : BufTy).Contents (Elt F)),
    StableHlo.binary main_v28 main_v29 main_v30 (addf : (⟨S2097152x2, .f32⟩ : BufTy).Contents (Elt F) → (⟨S2097152x2, .f32⟩ : BufTy).Contents (Elt F) → (⟨S2097152x2, .f32⟩ : BufTy).Contents (Elt F)),
    StableHlo.nullary main_cst_3 (constant S_ .f32 0x3D23D70A#32),
    StableHlo.unary main_cst_3 main_v31 (broadcastInDim S2097152x2 ![] bcast_S_S2097152x2 : (⟨S_, .f32⟩ : BufTy).Contents (Elt F) → (⟨S2097152x2, .f32⟩ : BufTy).Contents (Elt F)),
    StableHlo.binary main_v30 main_v31 main_v32 (Host.divf : (⟨S2097152x2, .f32⟩ : BufTy).Contents (Elt F) → (⟨S2097152x2, .f32⟩ : BufTy).Contents (Elt F) → (⟨S2097152x2, .f32⟩ : BufTy).Contents (Elt F)),
    StableHlo.unary main_v32 main_v33 (Host.floor : (⟨S2097152x2, .f32⟩ : BufTy).Contents (Elt F) → (⟨S2097152x2, .f32⟩ : BufTy).Contents (Elt F)),
    StableHlo.unary main_v33 main_v34 (fptosi 32 : (⟨S2097152x2, .f32⟩ : BufTy).Contents (Elt F) → (⟨S2097152x2, .i32⟩ : BufTy).Contents (Elt F)) ]

/-- The eight operations of the flat index. -/
def opsD : List (HloOp τ sig (Elt F)) :=
  [ StableHlo.unary main_v34 main_v35 ((extractStridedSlice S2097152x1 ![0, 0] · slices_S2097152x2_S2097152x1_0_0) : (⟨S2097152x2, .i32⟩ : BufTy).Contents (Elt F) → (⟨S2097152x1, .i32⟩ : BufTy).Contents (Elt F)),
    StableHlo.reshape main_v35 main_v36 rfl shapeCasts_S2097152x1_S2097152,
    StableHlo.nullary main_c (constantI S_ 32 25#32),
    StableHlo.unary main_c main_v37 (broadcastInDim S2097152 ![] bcast_S_S2097152 : (⟨S_, .i32⟩ : BufTy).Contents (Elt F) → (⟨S2097152, .i32⟩ : BufTy).Contents (Elt F)),
    StableHlo.binary main_v36 main_v37 main_v38 (muli : (⟨S2097152, .i32⟩ : BufTy).Contents (Elt F) → (⟨S2097152, .i32⟩ : BufTy).Contents (Elt F) → (⟨S2097152, .i32⟩ : BufTy).Contents (Elt F)),
    StableHlo.unary main_v34 main_v39 ((extractStridedSlice S2097152x1 ![0, 1] · slices_S2097152x2_S2097152x1_0_1) : (⟨S2097152x2, .i32⟩ : BufTy).Contents (Elt F) → (⟨S2097152x1, .i32⟩ : BufTy).Contents (Elt F)),
    StableHlo.reshape main_v39 main_v40 rfl shapeCasts_S2097152x1_S2097152,
    StableHlo.binary main_v38 main_v40 main_v41 (addi : (⟨S2097152, .i32⟩ : BufTy).Contents (Elt F) → (⟨S2097152, .i32⟩ : BufTy).Contents (Elt F) → (⟨S2097152, .i32⟩ : BufTy).Contents (Elt F)) ]

/-- The lookup's twenty-two operations, over the call's buffers. -/
def opsE : List (HloOp τ sig (Elt F)) :=
  [ StableHlo.TRef.nullary main_call0.c (constantI S_ 32 0#32),
    StableHlo.TRef.unary main_call0.c main_call0.v0 (broadcastInDim S2097152 ![] bcast_S_S2097152),
    StableHlo.TRef.binary tV41 main_call0.v0 main_call0.v1 (cmpi .slt),
    StableHlo.TRef.nullary main_call0.c_0 (constantI S_ 32 625#32),
    StableHlo.TRef.unary main_call0.c_0 main_call0.v2 (broadcastInDim S2097152 ![] bcast_S_S2097152),
    StableHlo.TRef.binary tV41 main_call0.v2 main_call0.v3 addi,
    StableHlo.TRef.ternary main_call0.v1 main_call0.v3 tV41 main_call0.call0.v0 select,
    StableHlo.TRef.unary main_call0.call0.v0 main_call0.v5 (broadcastInDim S2097152x1 ![0] bcast_S2097152_S2097152x1_0),
    StableHlo.TRef.nullary main_call0.c_1 (constantI S1 32 624#32),
    StableHlo.TRef.nullary main_call0.c_2 (constantI S_ 32 0#32),
    StableHlo.TRef.unary main_call0.c_2 main_call0.v6 (broadcastInDim S2097152x1 ![] bcast_S_S2097152x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S2097152x1 ![0, 1] bcast_S1x1_S2097152x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2097152x1_S2097152_d1 h_S_),
    StableHlo.TRef.binary tArg7 main_call0.v5 main_call0.v13 (fun x i => Host.gather gather_S625_S2097152x1_S2097152_n_0_n_n_0_1_1 x i),
    StableHlo.TRef.nullary main_call0.cst (constant S_ .f32 0x7FC00000#32),
    StableHlo.TRef.unary main_call0.cst main_call0.v14 (broadcastInDim S2097152 ![] bcast_S_S2097152),
    StableHlo.TRef.ternary main_call0.v12 main_call0.v13 main_call0.v14 main_call0.v15 select ]

/-- The final broadcast. -/
def opsF : List (HloOp τ sig (Elt F)) :=
  [ StableHlo.unary main_v42 main_v43 (broadcastInDim S2097152x1 ![0] bcast_S2097152_S2097152x1_0 : (⟨S2097152, .f32⟩ : BufTy).Contents (Elt F) → (⟨S2097152x1, .f32⟩ : BufTy).Contents (Elt F)) ]

set_option maxRecDepth 8192 in
/-- @main is that straight line: sequencing computes, so with the two functions' definitions unfolded at their calls
    both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    nullary_bufs_sub .., binary_bufs_sub .., unary_bufs_sub .., nullary_bufs_sub .., binary_bufs_sub .., unary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., reshape_bufs_sub ..,
    nullary_bufs_sub .., unary_bufs_sub .., binary_bufs_sub .., unary_bufs_sub .., reshape_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub ..⟩

/-- Contents carried to a typed reference's buffer type and back are the contents. -/
theorem ofBuf_toBuf {T : BufTy} (x : StableHlo.TRef sig T) (v : T.Contents (Elt F)) : x.ofBuf (x.toBuf v) = v := by
  obtain ⟨r, rfl, _, _⟩ := x
  rfl

/-- The line is its six stages one after the other. -/
theorem ops_eq : (ops : List (HloOp τ sig (Elt F))) = opsA ++ (opsB ++ (opsC ++ (opsD ++ (opsE ++ opsF)))) := rfl

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### Each stage read back, from any contents -/

theorem A_v17 (V : Valuation τ sig (Elt F)) :
    after opsA V (main_v17 : DevRef τ sig) = encR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  unfold opsA
  after_results_simp
  rfl

theorem A_arg7 (V : Valuation τ sig (Elt F)) : after opsA V (main_arg7 : DevRef τ sig) = (V (main_arg7 : DevRef τ sig)) := by
  unfold opsA
  after_results_simp

theorem B_v19 (V : Valuation τ sig (Elt F)) : after opsB V (main_v19 : DevRef τ sig) = mnR (V (main_v17 : DevRef τ sig)) := by
  unfold opsB
  after_results_simp
  rfl

theorem B_v21 (V : Valuation τ sig (Elt F)) : after opsB V (main_v21 : DevRef τ sig) = mxR (V (main_v17 : DevRef τ sig)) := by
  unfold opsB
  after_results_simp
  rfl

theorem B_v17 (V : Valuation τ sig (Elt F)) : after opsB V (main_v17 : DevRef τ sig) = (V (main_v17 : DevRef τ sig)) := by
  unfold opsB
  after_results_simp

theorem B_arg7 (V : Valuation τ sig (Elt F)) : after opsB V (main_arg7 : DevRef τ sig) = (V (main_arg7 : DevRef τ sig)) := by
  unfold opsB
  after_results_simp

theorem C_v34 (V : Valuation τ sig (Elt F)) :
    after opsC V (main_v34 : DevRef τ sig) = binsR (V (main_v17 : DevRef τ sig)) (V (main_v19 : DevRef τ sig)) (V (main_v21 : DevRef τ sig)) := by
  unfold opsC
  after_results_simp
  rfl

theorem C_arg7 (V : Valuation τ sig (Elt F)) : after opsC V (main_arg7 : DevRef τ sig) = (V (main_arg7 : DevRef τ sig)) := by
  unfold opsC
  after_results_simp

theorem D_v41 (V : Valuation τ sig (Elt F)) : after opsD V (main_v41 : DevRef τ sig) = flatR (V (main_v34 : DevRef τ sig)) := by
  unfold opsD
  after_results_simp
  rfl

theorem D_arg7 (V : Valuation τ sig (Elt F)) : after opsD V (main_arg7 : DevRef τ sig) = (V (main_arg7 : DevRef τ sig)) := by
  unfold opsD
  after_results_simp

/-- The lookup's result buffer, as a typed reference. -/
abbrev tV42 : StableHlo.TRef sig ⟨S2097152, .f32⟩ := .of main_v42

/-- At a literal reference the transport along its type equation is the identity. -/
theorem ofBuf_arg7 (u : (main_arg7 : Ref sig .tc).ty.Contents (Elt F)) : tArg7.ofBuf u = u := rfl
@[inherit_doc ofBuf_arg7]
theorem ofBuf_v41 (u : (main_v41 : Ref sig .tc).ty.Contents (Elt F)) : tV41.ofBuf u = u := rfl
@[inherit_doc ofBuf_arg7]
theorem ofBuf_v42 (u : (main_v42 : Ref sig .tc).ty.Contents (Elt F)) : tV42.ofBuf u = u := rfl

/-- The lookup stage with the transports at its two operands and its result written out: once each intermediate value's
    transport to its buffer and back is cancelled, the two sides are the same term. -/
theorem E_v42' (V : Valuation τ sig (Elt F)) :
    tV42.ofBuf (after opsE V (main_v42 : DevRef τ sig)) = takeR (tArg7.ofBuf (V (main_arg7 : DevRef τ sig))) (tV41.ofBuf (V (main_v41 : DevRef τ sig))) := by
  unfold opsE
  after_results_simp
  simp only [ofBuf_toBuf]
  unfold takeR wrapR
  with_reducible rfl

theorem E_v42 (V : Valuation τ sig (Elt F)) :
    after opsE V (main_v42 : DevRef τ sig) = takeR (V (main_arg7 : DevRef τ sig)) (V (main_v41 : DevRef τ sig)) :=
  (ofBuf_v42 _).symm.trans ((E_v42' V).trans (by rw [ofBuf_arg7, ofBuf_v41]))

theorem F_v43 (V : Valuation τ sig (Elt F)) :
    after opsF V (main_v43 : DevRef τ sig)
      = broadcastInDim S2097152x1 ![0] bcast_S2097152_S2097152x1_0 (V (main_v42 : DevRef τ sig)) := by
  unfold opsF
  after_results_simp

/-! ### The whole line -/

/-- The fold at the result buffer is the composition of the stages applied to the arguments' contents. -/
theorem out_eq (V : Valuation τ sig (Elt F)) :
    after ops V (main_v43 : DevRef τ sig) = outR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_eq, after_app, after_app, after_app, after_app, after_app]
  rw [F_v43, E_v42, D_v41, D_arg7, C_v34, C_arg7, B_v17, B_v19, B_v21, B_arg7, A_v17, A_arg7]
  rfl

/-! No operation of the line writes an argument's buffer. -/
theorem arg0_eq (V : Valuation τ sig (Elt F)) : after ops V (main_arg0 : DevRef τ sig) = (V (main_arg0 : DevRef τ sig)) := by
  after_results_simp
theorem arg1_eq (V : Valuation τ sig (Elt F)) : after ops V (main_arg1 : DevRef τ sig) = (V (main_arg1 : DevRef τ sig)) := by
  after_results_simp
theorem arg2_eq (V : Valuation τ sig (Elt F)) : after ops V (main_arg2 : DevRef τ sig) = (V (main_arg2 : DevRef τ sig)) := by
  after_results_simp
theorem arg3_eq (V : Valuation τ sig (Elt F)) : after ops V (main_arg3 : DevRef τ sig) = (V (main_arg3 : DevRef τ sig)) := by
  after_results_simp
theorem arg4_eq (V : Valuation τ sig (Elt F)) : after ops V (main_arg4 : DevRef τ sig) = (V (main_arg4 : DevRef τ sig)) := by
  after_results_simp
theorem arg5_eq (V : Valuation τ sig (Elt F)) : after ops V (main_arg5 : DevRef τ sig) = (V (main_arg5 : DevRef τ sig)) := by
  after_results_simp
theorem arg6_eq (V : Valuation τ sig (Elt F)) : after ops V (main_arg6 : DevRef τ sig) = (V (main_arg6 : DevRef τ sig)) := by
  after_results_simp
theorem arg7_eq (V : Valuation τ sig (Elt F)) : after ops V (main_arg7 : DevRef τ sig) = (V (main_arg7 : DevRef τ sig)) := by
  after_results_simp

/-- For any float values, from any memory with zero counters: every weakly fair execution of @main terminates with the
    result buffer at the stages' composition of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

/-- The frame: @main terminates and leaves its arguments unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run m ρ)

end Cert.ReferenceIdeal.Hand

end
-- ==== Proof.Ref.Pre.lean ====
/-
  The spread condition read back from the precondition. The precondition is a conjunction of nine one-bit tests; the last
  one says that, per column, the batch maximum of the encoder's output exceeds the batch minimum, both computed by
  exactly the reference's operations. When the precondition holds that test holds, and at the ideal instance a
  comparison that came out 1 is the strict inequality of the two extended reals.
-/
import proofs.«100639_j53171695125388_2_alg».proof.Proof.Ref.Stages
import proofs.«100639_j53171695125388_2_alg».proof.Pre_finite_inputs
import Idealize.ShloMosaic.Lib.ReduceAll
import Idealize.ShloMosaic.Lib.ValueIdx
import Idealize.ShloMosaic.PureOps.Ideal

noncomputable section

namespace Cert.ReferenceIdeal.Hand

open Idealize.ShloMosaic

/-- A rank-zero array has exactly one index. -/
instance subsingleton_scalarIdx : Subsingleton Cert.Pre_finite_inputs.S_.Idx :=
  ⟨fun _ _ => funext fun d => d.elim0⟩

/-- A boolean's one-bit word is 1 exactly when the boolean is true. -/
theorem ofBool_eq_one' {b : Bool} : BitVec.ofBool b = 1#1 ↔ b = true := by cases b <;> decide

section

variable [Cert.Pre_finite_inputs.Facts] [Cert.ReferenceIdeal.Facts]
variable (x : FVec Ideal Cert.ReferenceIdeal.S2097152x32 .f32) (w1 : FVec Ideal Cert.ReferenceIdeal.S20x32 .f32)
  (b1 : FVec Ideal Cert.ReferenceIdeal.S20 .f32) (w2 : FVec Ideal Cert.ReferenceIdeal.S5x20 .f32)
  (b2 : FVec Ideal Cert.ReferenceIdeal.S5 .f32) (w3 : FVec Ideal Cert.ReferenceIdeal.S2x5 .f32)
  (b3 : FVec Ideal Cert.ReferenceIdeal.S2 .f32) (bm : FVec Ideal Cert.ReferenceIdeal.S625 .f32)

attribute [local irreducible] Host.reduce in
/-- The precondition is the conjunction of some one-bit word with the test "every entry of (maximum row > minimum row)
    is 1", where the two rows are the reference's own: the precondition's operations for them are the reference's, on
    the same shapes, so the two terms agree by unfolding the definitions (the reductions and the contractions are never
    opened). -/
theorem pre_eq : ∃ A : IVec Cert.Pre_finite_inputs.S_ 1,
    Cert.Pre_finite_inputs.fn (F := Ideal) x w1 b1 w2 b2 w3 b3 bm
      = andi A (Host.reduce IntOp.andi
          (cmpf .ogt (mxR (F := Ideal) (encR x w1 b1 w2 b2 w3 b3)) (mnR (F := Ideal) (encR x w1 b1 w2 b2 w3 b3)))
          (constantI Cert.Pre_finite_inputs.S_ 1 1#1)
          Cert.Pre_finite_inputs.Facts.reducesTo_S1x2_S_d0_1 Cert.Pre_finite_inputs.Facts.h_S_) :=
  ⟨_, rfl⟩

/-- Under the precondition, in each of the two columns the batch minimum of the encoder's output is strictly below the
    batch maximum. -/
theorem spread_of_pre
    (h : Cert.Pre_finite_inputs.fn (F := Ideal) x w1 b1 w2 b2 w3 b3 bm = fun _ => 1#1) :
    ∀ j : Fin 2, mnR (F := Ideal) (encR x w1 b1 w2 b2 w3 b3) (ValueIdx.ix2 0 j)
      < mxR (F := Ideal) (encR x w1 b1 w2 b2 w3 b3) (ValueIdx.ix2 0 j) := by
  intro j
  obtain ⟨A, hA⟩ := pre_eq x w1 b1 w2 b2 w3 b3 bm
  have h0 := congrFun (hA.symm.trans h) ValueIdx.ix0
  have h1 := (IntOp.andi_eq_one.1 h0).2
  have h2 := Host.reduce_andi_all _ _ _ _ _ h1 (ValueIdx.ix2 0 j)
  rw [ValueIdx.cmpf_apply] at h2
  generalize mxR (F := Ideal) (encR x w1 b1 w2 b2 w3 b3) (ValueIdx.ix2 0 j) = hi at h2 ⊢
  generalize mnR (F := Ideal) (encR x w1 b1 w2 b2 w3 b3) (ValueIdx.ix2 0 j) = lo at h2 ⊢
  exact of_decide_eq_true (ofBool_eq_one'.1 h2)

end

end Cert.ReferenceIdeal.Hand

end
-- ==== Proof.lean ====
/-
  The certificate's five claims.

  Both programs compute, for every row of x, the encoder e = tanh (tanh (tanh (x·W1ᵀ + b1)·W2ᵀ + b2)·W3ᵀ + b3) in two
  columns, normalise each column by its minimum and maximum over the batch, (e − mn)/(mx − mn)·c₁ + c₂, divide by the
  bin width c₃, round down to two bin indices in 0 … 24, and look up a table of 25 × 25 values at them. The kernel
  computes the encoder block by block in a first call that also carries the running column minimum and maximum across
  its grid, and in a second call selects the table's row by a one-hot matrix product and its column by a one-hot
  weighted lane sum; the reference takes the minimum and maximum over the whole array and reads the flattened table at
  25·i₀ + i₁. On the extended reals the matrix products and sums agree entry by entry, a running minimum of block
  minima is the minimum, both bin indices lie in 0 … 24 once the batch maximum exceeds the batch minimum in each
  column (the precondition's last conjunct), and then the one-hot selection and the flat lookup read the same entry.
  The three frames are the two kernels' runs over the pipeline's segments and the reference's run of host operations;
  the idealization rewrote no operation.
-/
import proofs.«100639_j53171695125388_2_alg».proof.Defs
import proofs.«100639_j53171695125388_2_alg».proof.Proof.Gen.Kernel
import proofs.«100639_j53171695125388_2_alg».proof.Proof.Gen.KernelIdeal
import proofs.«100639_j53171695125388_2_alg».proof.Proof.Gen.ReferenceIdeal
import proofs.«100639_j53171695125388_2_alg».proof.Proof.Gen.Pre_finite_inputs
import proofs.«100639_j53171695125388_2_alg».proof.Proof.K.Run
import proofs.«100639_j53171695125388_2_alg».proof.Proof.KI.Run
import proofs.«100639_j53171695125388_2_alg».proof.Proof.Value.Final
import proofs.«100639_j53171695125388_2_alg».proof.Proof.Ref.Run
import proofs.«100639_j53171695125388_2_alg».proof.Proof.Ref.Pre

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- Both idealized programs end with the reference's result function of the argument arrays. -/
theorem algebraic : Cert.algebraic_KernelIdeal_ReferenceIdeal := by
  intro m ρ m' ρ' hpre hagree
  have hspread : ∀ (c : Dev Cert.KernelIdeal.nD) (j : Fin 2), _ := fun c =>
    Cert.ReferenceIdeal.Hand.spread_of_pre _ _ _ _ _ _ _ _ (hpre c)
  refine ⟨fun c => Cert.KernelIdeal.Hand.outM m c, Cert.KernelIdeal.Hand.run m ρ hspread, ?_⟩
  refine (θ_run Cert.ReferenceIdeal.defs _ _).mono (fun r h c => ?_) (Cert.ReferenceIdeal.Hand.run (F := Ideal) m' ρ')
  obtain ⟨h0, h1, h2, h3, h4, h5, h6, h7⟩ := hagree c
  refine ⟨(h c).1.trans ?_, (h c).2⟩
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
